-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S1024x1 : Shape := ⟨2, ![1024, 1]⟩
abbrev S256x1024 : Shape := ⟨2, ![256, 1024]⟩
abbrev S1024x1024 : Shape := ⟨2, ![1024, 1024]⟩
abbrev S1024 : Shape := ⟨1, ![1024]⟩
abbrev S4096 : Shape := ⟨1, ![4096]⟩

abbrev nBuf : Space → Nat
  | .hbm => 30
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x1, .f32⟩
  | .hbm, ⟨14, _⟩ => ⟨S8192, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond4 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  shapeCasts_S8192x1_S8192 : S8192x1.ShapeCasts S8192
  slices_S8192x256_S4096x256_0_0 : S8192x256.Slices ![0, 0] S4096x256
  slices_S8192x256_S4096x256_4096_0 : S8192x256.Slices ![4096, 0] S4096x256
  reducesTo_S4096x256_S4096_d1 : S4096x256.ReducesTo [1] S4096
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 90
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x1, .i32⟩
  | .hbm, ⟨36, _⟩ => ⟨S4096x2, .i32⟩
  | .hbm, ⟨37, _⟩ => ⟨S4096, .f32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096x1, .i32⟩
  | .hbm, ⟨58, _⟩ => ⟨S4096x1, .i32⟩
  | .hbm, ⟨59, _⟩ => ⟨S4096x2, .i32⟩
  | .hbm, ⟨60, _⟩ => ⟨S4096, .f32⟩
  | .hbm, ⟨61, _⟩ => ⟨S8192, .f32⟩
  | .hbm, ⟨62, _⟩ => ⟨S8192x8192, .i32⟩
  | .hbm, ⟨63, _⟩ => ⟨S8192x8192, .i32⟩
  | .hbm, ⟨64, _⟩ => ⟨S_, .i32⟩
  | .hbm, ⟨65, _⟩ => ⟨S8192x8192, .i32⟩
  | .hbm, ⟨66, _⟩ => ⟨S8192x8192, .i32⟩
  | .hbm, ⟨67, _⟩ => ⟨S8192x8192, .i1⟩
  | .hbm, ⟨68, _⟩ => ⟨S8192x8192, .i1⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S8192, .f32⟩
  | .hbm, ⟨83, _⟩ => ⟨S8192, .f32⟩
  | .hbm, ⟨84, _⟩ => ⟨S8192, .f32⟩
  | .hbm, ⟨85, _⟩ => ⟨S8192, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_call1_v1 : Ref sig .tc := ⟨.hbm, 16, rfl⟩
abbrev main_call1_c : Ref sig .tc := ⟨.hbm, 17, rfl⟩
abbrev main_call1_v2 : Ref sig .tc := ⟨.hbm, 18, rfl⟩
abbrev main_call1_v3 : Ref sig .tc := ⟨.hbm, 19, rfl⟩
abbrev main_call1_c_0 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c_2 : Ref sig .tc := ⟨.hbm, 27, rfl⟩
abbrev main_call1_v9 : Ref sig .tc := ⟨.hbm, 28, rfl⟩
abbrev main_call1_v10 : Ref sig .tc := ⟨.hbm, 29, rfl⟩
abbrev main_call1_c_3 : Ref sig .tc := ⟨.hbm, 30, rfl⟩
abbrev main_call1_v11 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_v15 : Ref sig .tc := ⟨.hbm, 35, rfl⟩
abbrev main_call1_v16 : Ref sig .tc := ⟨.hbm, 36, rfl⟩
abbrev main_v8 : Ref sig .tc := ⟨.hbm, 37, rfl⟩
abbrev main_call2_v0 : Ref sig .tc := ⟨.hbm, 38, rfl⟩
abbrev main_call2_v1 : Ref sig .tc := ⟨.hbm, 39, rfl⟩
abbrev main_call2_c : Ref sig .tc := ⟨.hbm, 40, rfl⟩
abbrev main_call2_v2 : Ref sig .tc := ⟨.hbm, 41, rfl⟩
abbrev main_call2_v3 : Ref sig .tc := ⟨.hbm, 42, rfl⟩
abbrev main_call2_c_0 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c_2 : Ref sig .tc := ⟨.hbm, 50, rfl⟩
abbrev main_call2_v9 : Ref sig .tc := ⟨.hbm, 51, rfl⟩
abbrev main_call2_v10 : Ref sig .tc := ⟨.hbm, 52, rfl⟩
abbrev main_call2_c_3 : Ref sig .tc := ⟨.hbm, 53, rfl⟩
abbrev main_call2_v11 : Ref sig .tc := ⟨.hbm, 54, rfl⟩
abbrev main_call2_v12 : Ref sig .tc := ⟨.hbm, 55, rfl⟩
abbrev main_call2_v13 : Ref sig .tc := ⟨.hbm, 56, rfl⟩
abbrev main_call2_v14 : Ref sig .tc := ⟨.hbm, 57, rfl⟩
abbrev main_call2_v15 : Ref sig .tc := ⟨.hbm, 58, rfl⟩
abbrev main_call2_v16 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_c : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_cst_0 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_cst_1 : Ref sig .tc := ⟨.hbm, 73, rfl⟩
abbrev main_call3_v0 : Ref sig .tc := ⟨.hbm, 74, rfl⟩
abbrev main_call3_v1 : Ref sig .tc := ⟨.hbm, 75, rfl⟩
abbrev main_v20 : Ref sig .tc := ⟨.hbm, 76, rfl⟩
abbrev main_cst_2 : Ref sig .tc := ⟨.hbm, 77, rfl⟩
abbrev main_v21 : Ref sig .tc := ⟨.hbm, 78, rfl⟩
abbrev main_cst_3 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_cst_4 : Ref sig .tc := ⟨.hbm, 86, rfl⟩
abbrev main_v28 : Ref sig .tc := ⟨.hbm, 87, rfl⟩
abbrev main_cst_5 : Ref sig .tc := ⟨.hbm, 88, rfl⟩
abbrev main_v29 : Ref sig .tc := ⟨.hbm, 89, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.K.Basics.lean ====
/-
  The program around its one region, for any float instance: what the TensorCore's buffers hold when the region is
  entered (the eleven host operations before it: the rows stacked, normalised), @main as those lines, the region, and
  the sixteen lines after it; each window's block at a grid point; and the body's four branch conditions decided
  over the 8 × 8 grid. Point `t` is row-tile `t / 8` against column-tile `t % 8`: the accumulator is reset where
  `t % 8 = 0`, the own-row entry is struck out where `t / 8 = t % 8`, and the output tile is stored where `t % 8 = 7`.
-/
import proofs.«113197_j52312701666200_2_alg».proof.Proof.Gen.Kernel.Launch
import proofs.«113197_j52312701666200_2_alg».proof.Proof.Gen.Kernel.Skeleton
import proofs.«113197_j52312701666200_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host operations before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, the lines after it: it reduces to the region continued by the
    later lines, entered at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions over the grid -/

/-- The accumulator is reset: the column tile is the first. -/
abbrev cond1 (i : grid0.Coords) : Prop :=
  (Scalar.cmpi .ne (Scalar.extui (Scalar.cmpi .eq (BitVec.ofNat 32 (i 1).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)

/-- The tile meets the diagonal: row tile = column tile. -/
abbrev cond2 (i : grid0.Coords) : Prop :=
  (Scalar.cmpi .ne (Scalar.extui (Scalar.cmpi .eq (BitVec.ofNat 32 (i 0).val) (BitVec.ofNat 32 (i 1).val))) 0#32) = 1#1
theorem hcond2 : ∀ t : Fin cfg0.N, cond2 (grid0.coords t) ↔ t.val / 8 = t.val % 8 :=
  (by decide +kernel : ∀ t : Fin grid0.N, cond2 (grid0.coords t) ↔ t.val / 8 = t.val % 8)

/-- The tile is off the diagonal. -/
abbrev cond3 (i : grid0.Coords) : Prop :=
  (Scalar.cmpi .ne (Scalar.extui (Scalar.cmpi .ne (BitVec.ofNat 32 (i 0).val) (BitVec.ofNat 32 (i 1).val))) 0#32) = 1#1
theorem hcond3 : ∀ t : Fin cfg0.N, cond3 (grid0.coords t) ↔ ¬ (t.val / 8 = t.val % 8) :=
  (by decide +kernel : ∀ t : Fin grid0.N, cond3 (grid0.coords t) ↔ ¬ (t.val / 8 = t.val % 8))

/-- The output tile is stored: the column tile is the last. -/
abbrev cond4 (i : grid0.Coords) : Prop := k0_cond4 i = 1#1
theorem hcond4 : ∀ t : Fin cfg0.N, cond4 (grid0.coords t) ↔ t.val % 8 = 7 :=
  (by decide +kernel : ∀ t : Fin grid0.N, cond4 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
/-- Where the output tile is not stored the configuration calls the output idle, -/
theorem idleAt2 : ∀ t : Fin cfg0.N, ¬cond4 (grid0.coords t) → cfg0.idle 2 (grid0.coords t) = true := by decide +kernel
/-- and the pipeline does not write it back there; -/
theorem noFlush2 : ∀ t : Fin cfg0.N, ¬cond4 (grid0.coords t) → (cfg0.win 2).flush t = false := by decide +kernel
/-- where it is stored the output is live. -/
theorem liveAt2 : ∀ t : Fin cfg0.N, cond4 (grid0.coords t) → cfg0.idle 2 (grid0.coords t) = false := by decide +kernel

/-! ## The staging memrefs the body is called with -/

abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The accumulator: a whole scoped buffer of the kernel's own. -/
abbrev scM : Memref sig .tc .vmem S1024x1 .f32 := Memref.whole cc0_scratch0
abbrev VS : View sig .tc .vmem S1024x1 .f32 := scM.view
/-- One staging buffer of the output window, through which its contents are stated. -/
abbrev VO : View sig .tc .vmem S1024x1 .f32 := (Memref.whole cc0_stg2_0 : Memref sig .tc .vmem S1024x1 .f32).view

/-- What the body may use besides its windows: the accumulator at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.K.Arrays.lean ====
/-
  The region launched, for any float instance: every weakly fair execution of @main terminates without a fault, with
  the result array at what the grid's write-backs make it, and every other buffer at what the host lines after the
  region compute from that. The two input windows read ONE array (the normalised rows): its buffer, whole at the
  full share when the region is entered, is split into two half shares, one per reading window, and joined again
  when the region is left, so that the host lines after the region run over whole buffers.
-/
import proofs.«113197_j52312701666200_2_alg».proof.Proof.K.Basics

-- membership in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The arrays behind the windows

Stated for ANY proof data of the region on core `c` whose arrays are the region-entry contents and whose two readers of
the rows' array hold the two halves of the full share. -/

variable {c : Dev nD} (dat : Dat τ (Elt F) Unit ℕ (UR sig nD τ) ℕ cfg0 c)

/-- The buffers behind the three windows' arrays are two: the rows and the result. -/
theorem arrBufs_eq (c : Dev nD) (W : (b : Ref sig .tc) → Buf (Elt F) ((c : Thread nD τ).loc b)) :
    (arrBufs spec0 c W : sProp 𝕄)
      = iprop((((c : Thread nD τ).loc main_v5) ↦{fullShare} W main_v5) ∗ (((c : Thread nD τ).loc main_v6) ↦{fullShare} W main_v6)) := by
  unfold arrBufs
  exact bigSep_eq_bigSepL_of_eq [main_v5, main_v6] (by decide) (by decide) _

/-- The proof data's arrays, window by window: the rows at the two half shares, the result at the full share. -/
theorem arrays_eq3 (hq0 : dat.q 0 = fullShare.left) (hq1 : dat.q 1 = fullShare.right)
    (G : (w : Fin cfg0.W) → Buf (Elt F) ((cfg0.win w).arr.view.loc (c : Thread nD τ))) :
    (dat.arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare} G 2)) := by
  have h : (dat.arrays G : sProp 𝕄)
      = bigSep Finset.univ fun w => (((c : Thread nD τ).loc (arrRef spec0 w)) ↦{dat.share w} G w : sProp 𝕄) := by
    unfold Dat.arrays
    exact bigSep_congr fun w _ => by rw [(arr_whole0 w).set_eq_univ]
  rw [h, bigSep_W0, ← hq0, ← hq1]
  rfl

/-- A whole buffer at the full share is its two half shares. -/
theorem rows_halves (c : Dev nD) (f : Buf (Elt F) ((c : Thread nD τ).loc main_v5)) :
    ((((c : Thread nD τ).loc main_v5) ↦{fullShare} f : sProp 𝕄))
      ⊣⊢ iprop((((c : Thread nD τ).loc main_v5) ↦{fullShare.left} f) ∗ (((c : Thread nD τ).loc main_v5) ↦{fullShare.right} f)) :=
  pointsTo_share (PosShare.mem_left_op_right fullShare)

/-- The arrays behind the windows, whole, make the proof data's arrays when both readers of the rows are given the
    rows' contents. -/
theorem arrays_of_bufs (hq0 : dat.q 0 = fullShare.left) (hq1 : dat.q 1 = fullShare.right) (W : (b : Ref sig .tc) → Buf (Elt F) ((c : Thread nD τ).loc b))
    (G : (w : Fin cfg0.W) → Buf (Elt F) ((cfg0.win w).arr.view.loc (c : Thread nD τ)))
    (h0 : G 0 = W main_v5) (h1 : G 1 = W main_v5) (h2 : G 2 = W main_v6) :
    (arrBufs spec0 c W : sProp 𝕄) ⊢ dat.arrays G := by
  rw [arrBufs_eq, arrays_eq3 dat hq0 hq1, h0, h1, h2]
  iintro ⟨H5, H6⟩
  ihave H := (rows_halves c (W main_v5)).1 $$ H5
  icases H with ⟨Hl, Hr⟩
  isplitl [Hl]; · iexact Hl
  isplitl [Hr]; · iexact Hr
  iexact H6

/-- And back: the two half shares of the rows join. -/
theorem bufs_of_arrays (hq0 : dat.q 0 = fullShare.left) (hq1 : dat.q 1 = fullShare.right) (W : (b : Ref sig .tc) → Buf (Elt F) ((c : Thread nD τ).loc b))
    (G : (w : Fin cfg0.W) → Buf (Elt F) ((cfg0.win w).arr.view.loc (c : Thread nD τ)))
    (h0 : G 0 = W main_v5) (h1 : G 1 = W main_v5) (h2 : G 2 = W main_v6) :
    (dat.arrays G : sProp 𝕄) ⊢ arrBufs spec0 c W := by
  rw [arrBufs_eq, arrays_eq3 dat hq0 hq1, h0, h1, h2]
  iintro ⟨Hl, Hr, H6⟩
  isplitl [Hl Hr]
  · iapply (rows_halves c (W main_v5)).2
    isplitl [Hl]; · iexact Hl
    iexact Hr
  iexact H6

/-- An input window's array is never written: it holds its entry contents after any number of points. -/
theorem arrAt_0 (hA : ∀ w, dat.A w = V m c (arrRef spec0 w)) (n : ℕ) : dat.arrAt 0 n = V m c main_v5 :=
  (dat.arrAt_in 0 rfl n).trans (hA 0)
theorem arrAt_1 (hA : ∀ w, dat.A w = V m c (arrRef spec0 w)) (n : ℕ) : dat.arrAt 1 n = V m c main_v5 :=
  (dat.arrAt_in 1 rfl n).trans (hA 1)

/-- What the launch hands the region: the arrays at their entry contents. -/
theorem hsplit (hq0 : dat.q 0 = fullShare.left) (hq1 : dat.q 1 = fullShare.right) (hA : ∀ w, dat.A w = V m c (arrRef spec0 w)) :
    (arrBufs spec0 c (V m c) : sProp 𝕄) ⊢ dat.arrays (dat.arrAt · 0) :=
  arrays_of_bufs dat hq0 hq1 (V m c) _ (hA 0) (hA 1) (hA 2)

end Cert.Kernel.Hand

end
-- ==== Proof.K.Launch.lean ====
/-
  The run of @main, for any float instance. The region is entered at the contents the host lines before it leave,
  runs its 64 points, and is left with the result array at what the eight write-backs made of it and every other
  buffer as entered; the sixteen host lines after it then run over whole buffers. Stated as a post on the final memory:
  every unscoped buffer other than the windows' arrays holds what those lines compute from the exit contents.
-/
import proofs.«113197_j52312701666200_2_alg».proof.Proof.K.Arrays

-- membership in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! Any proof data of the region, one datum per core. What the run needs of it is stated where it is used: its arrays
are the region-entry contents (`hA`), the two readers of the rows hold the two half shares (`hq0`, `hq1`), nothing is
owed, the body obligation holds, and the invariant starts from and ends in what the launch hands over. -/

variable (dats : (p : Fin 1) → (c : Dev nD) → Dat τ (Elt F) Unit ℕ (UR sig nD τ) ℕ (cfgs p) c)

/-! ## The buffers when the region is left, and after the lines that follow it -/

open Classical in
/-- When the region is left: the result array at what the write-backs made it, every other buffer as when entered. -/
def Wexit (c : Dev nD) : Valuation τ sig (Elt F) :=
  Function.update (V0 m c) (Proc.devRef .tc main_v6)
    (show (Proc.devRef (τ := τ) .tc main_v6).ty.Contents (Elt F) from (dats 0 c).arrAt 2 cfg0.N)

/-- After the lines that follow the region. -/
def Wend (c : Dev nD) : Valuation τ sig (Elt F) := StableHlo.after hostOps1 (Wexit m dats c)

theorem Wexit_v6 (c : Dev nD) : Wexit m dats c (Proc.devRef .tc main_v6) = (dats 0 c).arrAt 2 cfg0.N := by
  unfold Wexit; rw [Function.update_self]

theorem Wexit_of_ne (c : Dev nD) (b : Ref sig .tc) (hb : b ≠ main_v6) : Wexit m dats c (Proc.devRef .tc b) = V m c b := by
  unfold Wexit; rw [Function.update_of_ne (fun e => hb (Proc.devRef_injective _ e))]

/-- The lines after the region write neither window array nor an argument. -/
theorem tail_keeps (b : Ref sig .tc) (hb : b = main_v5 ∨ b = main_v6 ∨ b = main_arg0 ∨ b = main_arg1) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl
  all_goals
    rcases hb with rfl | rfl | rfl | rfl <;>
    simp only [StableHlo.nullary_writes, StableHlo.unary_writes, StableHlo.binary_writes, StableHlo.reshape_writes, Finset.mem_singleton] <;>
    exact StableHlo.devRef_ne_of_ne (by decide)

theorem Wend_keeps (c : Dev nD) (b : Ref sig .tc) (hb : b = main_v5 ∨ b = main_v6 ∨ b = main_arg0 ∨ b = main_arg1) :
    Wend m dats c (Proc.devRef .tc b) = Wexit m dats c (Proc.devRef .tc b) :=
  StableHlo.after_of_forall_not_mem _ _ (tail_keeps b hb)

/-! ## A held set of all unscoped buffers is the windows' arrays and the rest -/

theorem held_split (c : Dev nD) (W : Valuation τ sig (Elt F)) :
    (StableHlo.held (c.tc : Thread nD τ) (ucRefs τ sig) W : sProp 𝕄)
      = iprop(arrBufs spec0 c (fun b => W (Proc.devRef .tc b)) ∗ unscopedRestP Prefetch.none spec0 c (fun b => W (Proc.devRef .tc b))) := by
  classical
  rw [← unscopedBufs_held (Ix := Unit) (Name := ℕ) (U := UR sig nD τ) (Lvl := ℕ) c W, unscopedRestP_none]
  have hA : Finset.univ.image (arrRef spec0) ⊆ Finset.univ.filter fun b : Ref sig .tc => ¬ b.isScoped := fun b hb => by
    obtain ⟨w, -, rfl⟩ := Finset.mem_image.mp hb
    exact Finset.mem_filter.mpr ⟨Finset.mem_univ _, by simp [winFacts₀0.arr_unscoped w]⟩
  unfold unscopedBufs unscopedRest arrBufs
  rw [bigSep_sdiff_split hA]
  rfl

/-- Off the windows' arrays the rest does not see a change of the arrays' contents. -/
theorem rest_congr (c : Dev nD) (W W' : (b : Ref sig .tc) → Buf (Elt F) ((c : Thread nD τ).loc b))
    (h : ∀ b, (∀ w, arrRef spec0 w ≠ b) → W b = W' b) :
    (unscopedRestP Prefetch.none spec0 c W : sProp 𝕄) = unscopedRestP Prefetch.none spec0 c W' := by
  classical
  unfold unscopedRestP
  exact bigSep_congr fun b hb => by
    rw [h b fun w e => (Finset.mem_sdiff.mp (Finset.mem_sdiff.mp hb).1).2 (Finset.mem_image.mpr ⟨w, Finset.mem_univ _, e⟩)]

theorem arrRef_ne_v6 (b : Ref sig .tc) (h : ∀ w, arrRef spec0 w ≠ b) : b ≠ main_v6 := fun e => h 2 (e ▸ rfl)

/-! ## The lines after the region -/

theorem tail_sub : ∀ ops ∈ ([hostOps1] : List (List (HloOp τ sig (Elt F)))), ∀ op ∈ ops, op.bufs ⊆ ucRefs τ sig := by
  intro ops hops op hop
  simp only [List.mem_cons, List.mem_nil_iff, or_false] at hops
  subst hops
  exact sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

local notation "𝔻" => Pipeline.defs (fun q => Cfg.toPCfg (Val := Elt F) (cfgs q)) (defs₀ (F := F))

/-- From the region's exit — the boundary, the windows' arrays at their final contents (the rows' two half shares
    joined), every other buffer as entered — the lines after the region run, and hand back the arrays (the rows split
    again) and every other buffer at what the lines compute. -/
theorem htail (hA : ∀ c w, (dats 0 c).A w = V m c (arrRef spec0 w))
    (hq0 : ∀ c, (dats 0 c).q 0 = fullShare.left) (hq1 : ∀ c, (dats 0 c).q 1 = fullShare.right)
    (c : Dev nD) (Q' : PUnit → sProp 𝕄) :
    iprop((iprop((dats 0 c).arrays ((dats 0 c).arrAt · cfg0.N)
              ∗ unscopedRestP Prefetch.none spec0 c (fun b => Wend m dats c (Proc.devRef .tc b))) -∗ Q' ⟨⟩)
        ∗ boundary (c.tc : Thread nD τ) ∗ (dats 0 c).arrays ((dats 0 c).arrAt · cfg0.N)
        ∗ unscopedRestP Prefetch.none spec0 c (fun b => V0 m c (Proc.devRef .tc b)))
      ⊢ wp frame (wpE 𝔻 (Variants.lift Variants.none) (c.tc : Thread nD τ) none) Set.univ (chain ([hostOps1].map StableHlo.seq)) Q' := by
  have hexit : iprop((dats 0 c).arrays ((dats 0 c).arrAt · cfg0.N)
        ∗ unscopedRestP Prefetch.none spec0 c (fun b => V0 m c (Proc.devRef .tc b)))
      ⊢ (StableHlo.held (c.tc : Thread nD τ) (ucRefs τ sig) (Wexit m dats c) : sProp 𝕄) := by
    rw [held_split, rest_congr c (fun b => Wexit m dats c (Proc.devRef .tc b)) (fun b => V0 m c (Proc.devRef .tc b))
      fun b hb => Wexit_of_ne m dats c b (arrRef_ne_v6 b hb)]
    iintro ⟨Ha, Hz⟩
    isplitl [Ha]
    · iapply (bufs_of_arrays (dats 0 c) (hq0 c) (hq1 c) (fun b => Wexit m dats c (Proc.devRef .tc b)) ((dats 0 c).arrAt · cfg0.N)
        ((arrAt_0 m (dats 0 c) (hA c) _).trans (Wexit_of_ne m dats c main_v5 (by decide)).symm)
        ((arrAt_1 m (dats 0 c) (hA c) _).trans (Wexit_of_ne m dats c main_v5 (by decide)).symm)
        (Wexit_v6 m dats c).symm)
      iexact Ha
    iexact Hz
  have hend : (StableHlo.held (c.tc : Thread nD τ) (ucRefs τ sig) (StableHlo.after (List.flatten [hostOps1]) (Wexit m dats c)) : sProp 𝕄)
      ⊢ iprop((dats 0 c).arrays ((dats 0 c).arrAt · cfg0.N)
        ∗ unscopedRestP Prefetch.none spec0 c (fun b => Wend m dats c (Proc.devRef .tc b))) := by
    rw [show StableHlo.after (List.flatten [hostOps1]) (Wexit m dats c) = Wend m dats c from by
      unfold Wend; simp only [List.flatten_cons, List.flatten_nil, List.append_nil], held_split]
    iintro ⟨Ha, Hz⟩
    isplitl [Ha]
    · iapply (arrays_of_bufs (dats 0 c) (hq0 c) (hq1 c) (fun b => Wend m dats c (Proc.devRef .tc b)) ((dats 0 c).arrAt · cfg0.N)
        ((arrAt_0 m (dats 0 c) (hA c) _).trans (((Wend_keeps m dats c main_v5 (.inl rfl)).trans (Wexit_of_ne m dats c main_v5 (by decide))).symm))
        ((arrAt_1 m (dats 0 c) (hA c) _).trans (((Wend_keeps m dats c main_v5 (.inl rfl)).trans (Wexit_of_ne m dats c main_v5 (by decide))).symm))
        (((Wend_keeps m dats c main_v6 (.inr (.inl rfl))).trans (Wexit_v6 m dats c)).symm))
      iexact Ha
    iexact Hz
  rw [← List.append_nil ([hostOps1].map StableHlo.seq)]
  iintro ⟨Hk, Hb, Ha, Hz⟩
  iapply (wp_seqs_then (fun q => Cfg.toPCfg (Val := Elt F) (cfgs q)) (defs₀ (F := F)) Variants.none c (ucRefs τ sig) [] [hostOps1]
    tail_sub tail_fresh (Wexit m dats c)) $$ [Hb Ha Hz]
  · isplitl [Hb]; · iexact Hb
    iapply hexit
    isplitl [Ha]; · iexact Ha
    iexact Hz
  iintro Hb
  rw [chain_nil, wp_pure]
  imodintro
  iapply Hk
  icases Hb with ⟨-, H⟩
  iapply hend
  iexact H

/-! ## The run -/

set_option backward.isDefEq.respectTransparency.types false in
set_option maxHeartbeats 2000000 in
/-- Every weakly fair execution of @main terminates without a fault; at the end each window's array holds what the
    proof data computes (the rows unchanged, the result array after its write-backs) and every other unscoped buffer
    what the lines after the region compute from the exit contents. -/
theorem run_main (hA : ∀ c w, (dats 0 c).A w = V m c (arrRef spec0 w))
    (hq0 : ∀ c, (dats 0 c).q 0 = fullShare.left) (hq1 : ∀ c, (dats 0 c).q 1 = fullShare.right)
    (howed : ∀ c t, (dats 0 c).owed t = 0)
    (hbody : ∀ c, BodyObligationLoose (dats 0 c) (defs₀ (F := F)) Variants.none () Set.univ)
    (hin : ∀ c, ΦA spec0 c ⊢ (dats 0 c).Φ 0) (hout : ∀ c, (dats 0 c).Φ (Fin.last cfg0.N) ⊢ ΦA spec0 c) : θ_run (defs (F := F)) (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ restRefsP sig Prefetch.none spec0, r.2.mem ((c.tc : Thread nD τ).loc b) = Wend m dats c (Proc.devRef .tc b)) := by
  classical
  have hcell : Function.Injective (cellOf (nD := nD) (τ := τ) (pin (fun q => Cfg.toPCfg (Val := Elt F) (cfgs q)) (fun q => (cfgs q).toPCfg_adm))) := cellOf_inj
  exact θ_run_region_pf_tail (fun q => Cfg.toPCfg (Val := Elt F) (cfgs q)) (fun q => (cfgs q).toPCfg_adm) dats () hcell (0 : Fin 1) winFacts₀0
    (OwnSemFacts.none spec0) (PreFacts.none _) emb₁ defs₀ Variants.none m ρ main
    (fun _ => chain ([hostOps1].map StableHlo.seq)) hbody
    block_pos0 arr_whole0 stage_whole0 howed
    (G := fun _ => iprop(emp)) (u₀ := initOf (cells (pin (fun q => Cfg.toPCfg (Val := Elt F) (cfgs q)) (fun q => (cfgs q).toPCfg_adm)) hcell) (launchToks (pin (fun q => Cfg.toPCfg (Val := Elt F) (cfgs q)) (fun q => (cfgs q).toPCfg_adm)) hcell))
    (hu₀ := by
      iintro Hu; imodintro
      isplitl [Hu]; · iapply (show (ownU _ : sProp 𝕄) ⊢ BI.own (emb₁ (initOf (cells (pin (fun q => Cfg.toPCfg (Val := Elt F) (cfgs q)) (fun q => (cfgs q).toPCfg_adm)) hcell) (launchToks (pin (fun q => Cfg.toPCfg (Val := Elt F) (cfgs q)) (fun q => (cfgs q).toPCfg_adm)) hcell))) from .rfl); iexact Hu
      iapply (show (BI.emp : sProp 𝕄) ⊢ bigSep Finset.univ (fun _ : Dev nD => (BI.emp : sProp 𝕄)) from by rw [BI.bigSep_emp_const])
      iempintro)
    (V := fun c b => V0 m c (Proc.devRef .tc b)) (hmain := hmain m Variants.none)
    (hsplit := fun c => hsplit m (dats 0 c) (hq0 c) (hq1 c) (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (fun b => V0 m c (Proc.devRef .tc b)))
    (Z' := fun c => unscopedRestP (Ix := Unit) (Name := ℕ) (U := UR sig nD τ) (Lvl := ℕ) Prefetch.none spec0 c (fun b => Wend m dats c (Proc.devRef .tc b)))
    (hX := fun c => by
      iintro ⟨HU, -, -, -, Hp, -⟩; imodintro
      isplitl [Hp]; · iexists _; iexact Hp
      iexact HU)
    (hin := fun c => (show _ ⊢ ΦA spec0 c by
      unfold ΦA; iintro ⟨Hp, Ht, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => htail m dats hA hq0 hq1 c Q')
    (QY := fun c s => ∀ b ∈ restRefsP sig Prefetch.none spec0, s.mem ((c.tc : Thread nD τ).loc b) = Wend m dats c (Proc.devRef .tc b))
    (hY := fun c s' => by
      iintro ⟨-, HU, HSI⟩
      unfold unscopedRestP
      imodintro
      iapply (pointsTo_read_all (restRefsP sig Prefetch.none spec0) (fun b => (c.tc : Thread nD τ).loc b) (fun b => Wend m dats c (Proc.devRef .tc b)) s')
      isplitl [HU] <;> iassumption)
    (hQ := fun s h c => ⟨(h c).1, (h c).2.2⟩)

end Cert.Kernel.Hand

end
-- ==== Proof.K.Runs.lean ====
/-
  The body run once, symbolically, in each of the six cases the grid meets: first / middle / last column tile, on or
  off the diagonal. In every case the two input tiles are read and handed back; the accumulator is reset (first column
  tile) or read at what the point before left, and the tile's sum is added; at the last column tile the accumulator
  is stored into the output tile. What the stores leave is found by running the body.
-/
import proofs.«113197_j52312701666200_2_alg».proof.Proof.K.Basics

-- membership in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole staging memrefs in the case of the first column tile, on the diagonal (point 0): the accumulator reset, then the tile's sum less the own-row entry added. The two input tiles are held at their contents and
    handed back as they were; the accumulator may hold anything; the output tile is handed back untouched.
    What the stores leave is found by running the body: the pieces written, last first. -/
noncomputable def kernelRun_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : cond2 i) (hc3 : ¬cond3 i) (hc4 : ¬cond4 i)
    (x0 : Vec F S1024x256 .f32) (x1 : Vec F S1024x256 .f32) :
    Σ' (L2 : List (View.Piece (Elt F) S1024x1 .f32)), { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The body on whole staging memrefs in the case of the first column tile, off the diagonal: the accumulator reset, then the tile's sum added. The two input tiles are held at their contents and
    handed back as they were; the accumulator may hold anything; the output tile is handed back untouched.
    What the stores leave is found by running the body: the pieces written, last first. -/
noncomputable def kernelRun_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : ¬cond2 i) (hc3 : cond3 i) (hc4 : ¬cond4 i)
    (x0 : Vec F S1024x256 .f32) (x1 : Vec F S1024x256 .f32) :
    Σ' (L2 : List (View.Piece (Elt F) S1024x1 .f32)), { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The body on whole staging memrefs in the case of a middle column tile, on the diagonal: the tile's sum less the own-row entry added. The two input tiles are held at their contents and
    handed back as they were; the accumulator holds what the point before left; the output tile is handed back untouched.
    What the stores leave is found by running the body: the pieces written, last first. -/
noncomputable def kernelRun_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : ¬cond4 i)
    (x0 : Vec F S1024x256 .f32) (x1 : Vec F S1024x256 .f32) (xs : Vec F S1024x1 .f32) :
    Σ' (L2 : List (View.Piece (Elt F) S1024x1 .f32)), { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The body on whole staging memrefs in the case of a middle column tile, off the diagonal: the tile's sum added. The two input tiles are held at their contents and
    handed back as they were; the accumulator holds what the point before left; the output tile is handed back untouched.
    What the stores leave is found by running the body: the pieces written, last first. -/
noncomputable def kernelRun_D (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : ¬cond4 i)
    (x0 : Vec F S1024x256 .f32) (x1 : Vec F S1024x256 .f32) (xs : Vec F S1024x1 .f32) :
    Σ' (L2 : List (View.Piece (Elt F) S1024x1 .f32)), { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The body on whole staging memrefs in the case of the last column tile, on the diagonal (point 63): the sum less the own-row entry added, the accumulator stored to the output tile. The two input tiles are held at their contents and
    handed back as they were; the accumulator holds what the point before left; the output tile may hold anything and ends with the body's store written.
    What the stores leave is found by running the body: the pieces written, last first. -/
noncomputable def kernelRun_E (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : cond4 i)
    (x0 : Vec F S1024x256 .f32) (x1 : Vec F S1024x256 .f32) (xs : Vec F S1024x1 .f32) :
    Σ' (L2 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

set_option maxHeartbeats 4000000 in
/-- The body on whole staging memrefs in the case of the last column tile, off the diagonal: the sum added, the accumulator stored to the output tile. The two input tiles are held at their contents and
    handed back as they were; the accumulator holds what the point before left; the output tile may hold anything and ends with the body's store written.
    What the stores leave is found by running the body: the pieces written, last first. -/
noncomputable def kernelRun_G (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : cond4 i)
    (x0 : Vec F S1024x256 .f32) (x1 : Vec F S1024x256 .f32) (xs : Vec F S1024x1 .f32) :
    Σ' (L2 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand

end
-- ==== Proof.K.Body.lean ====
/-
  The region's proof data and the body's obligation at every grid point, for any float instance.
  After each point the accumulator holds what that point's case leaves in it — the reset value plus the tile's sum at
  the first column tile, the previous contents plus the tile's sum elsewhere — and the output tile's staging buffer
  holds the accumulator where the column tile is the last (the only points that store it and write it back).
  Both input windows read the one array of normalised rows: each holds a half share of it.
-/
import proofs.«113197_j52312701666200_2_alg».proof.Proof.K.Runs

-- membership in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces this case writes into the accumulator cover it (one or two whole-buffer stores). -/
theorem scover_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : cond2 i) (hc3 : ¬cond3 i) (hc4 : ¬cond4 i)
    (x0 : Vec F S1024x256 .f32) (x1 : Vec F S1024x256 .f32) (y : S1024x1.Idx) :
    ∃ pc ∈ (kernelRun_A c i arg2 harg2 arg3 harg3 arg4 harg4 arg5 harg5 hc1 hc2 hc3 hc4 x0 x1).2.1, y ∈ pc.1.set :=
  View.cover_of_tiledL (kernelRun_A c i arg2 harg2 arg3 harg3 arg4 harg4 arg5 harg5 hc1 hc2 hc3 hc4 x0 x1).2.1 S1024x1.size (by sl_kernel_rfl) y

/-- What this case leaves in the accumulator: its pieces read back. -/
def sout_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : cond2 i) (hc3 : ¬cond3 i) (hc4 : ¬cond4 i)
    (x0 : Vec F S1024x256 .f32) (x1 : Vec F S1024x256 .f32) : Vec F S1024x1 .f32 :=
  VS.read (Elt F) (VS.writes (Elt F) VS.junk (kernelRun_A c i arg2 harg2 arg3 harg3 arg4 harg4 arg5 harg5 hc1 hc2 hc3 hc4 x0 x1).2.1)

/-- What this case leaves in the output tile's staging buffer (nothing: a placeholder no one reads, the window idle here). -/
def out_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : cond2 i) (hc3 : ¬cond3 i) (hc4 : ¬cond4 i)
    (x0 : Vec F S1024x256 .f32) (x1 : Vec F S1024x256 .f32) : Vec F S1024x1 .f32 :=
  VO.read (Elt F) (VO.writes (Elt F) VO.junk (kernelRun_A c i arg2 harg2 arg3 harg3 arg4 harg4 arg5 harg5 hc1 hc2 hc3 hc4 x0 x1).1)

/-- The pieces this case writes into the accumulator cover it (one or two whole-buffer stores). -/
theorem scover_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : ¬cond2 i) (hc3 : cond3 i) (hc4 : ¬cond4 i)
    (x0 : Vec F S1024x256 .f32) (x1 : Vec F S1024x256 .f32) (y : S1024x1.Idx) :
    ∃ pc ∈ (kernelRun_B c i arg2 harg2 arg3 harg3 arg4 harg4 arg5 harg5 hc1 hc2 hc3 hc4 x0 x1).2.1, y ∈ pc.1.set :=
  View.cover_of_tiledL (kernelRun_B c i arg2 harg2 arg3 harg3 arg4 harg4 arg5 harg5 hc1 hc2 hc3 hc4 x0 x1).2.1 S1024x1.size (by sl_kernel_rfl) y

/-- What this case leaves in the accumulator: its pieces read back. -/
def sout_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : ¬cond2 i) (hc3 : cond3 i) (hc4 : ¬cond4 i)
    (x0 : Vec F S1024x256 .f32) (x1 : Vec F S1024x256 .f32) : Vec F S1024x1 .f32 :=
  VS.read (Elt F) (VS.writes (Elt F) VS.junk (kernelRun_B c i arg2 harg2 arg3 harg3 arg4 harg4 arg5 harg5 hc1 hc2 hc3 hc4 x0 x1).2.1)

/-- What this case leaves in the output tile's staging buffer (nothing: a placeholder no one reads, the window idle here). -/
def out_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : ¬cond2 i) (hc3 : cond3 i) (hc4 : ¬cond4 i)
    (x0 : Vec F S1024x256 .f32) (x1 : Vec F S1024x256 .f32) : Vec F S1024x1 .f32 :=
  VO.read (Elt F) (VO.writes (Elt F) VO.junk (kernelRun_B c i arg2 harg2 arg3 harg3 arg4 harg4 arg5 harg5 hc1 hc2 hc3 hc4 x0 x1).1)

/-- The pieces this case writes into the accumulator cover it (one or two whole-buffer stores). -/
theorem scover_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : ¬cond4 i)
    (x0 : Vec F S1024x256 .f32) (x1 : Vec F S1024x256 .f32) (xs : Vec F S1024x1 .f32) (y : S1024x1.Idx) :
    ∃ pc ∈ (kernelRun_C c i arg2 harg2 arg3 harg3 arg4 harg4 arg5 harg5 hc1 hc2 hc3 hc4 x0 x1 xs).2.1, y ∈ pc.1.set :=
  View.cover_of_tiledL (kernelRun_C c i arg2 harg2 arg3 harg3 arg4 harg4 arg5 harg5 hc1 hc2 hc3 hc4 x0 x1 xs).2.1 S1024x1.size (by sl_kernel_rfl) y

/-- What this case leaves in the accumulator: its pieces read back. -/
def sout_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : ¬cond4 i)
    (x0 : Vec F S1024x256 .f32) (x1 : Vec F S1024x256 .f32) (xs : Vec F S1024x1 .f32) : Vec F S1024x1 .f32 :=
  VS.read (Elt F) (VS.writes (Elt F) VS.junk (kernelRun_C c i arg2 harg2 arg3 harg3 arg4 harg4 arg5 harg5 hc1 hc2 hc3 hc4 x0 x1 xs).2.1)

/-- What this case leaves in the output tile's staging buffer (nothing: a placeholder no one reads, the window idle here). -/
def out_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : ¬cond4 i)
    (x0 : Vec F S1024x256 .f32) (x1 : Vec F S1024x256 .f32) (xs : Vec F S1024x1 .f32) : Vec F S1024x1 .f32 :=
  VO.read (Elt F) (VO.writes (Elt F) VO.junk (kernelRun_C c i arg2 harg2 arg3 harg3 arg4 harg4 arg5 harg5 hc1 hc2 hc3 hc4 x0 x1 xs).1)

/-- The pieces this case writes into the accumulator cover it (one or two whole-buffer stores). -/
theorem scover_D (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : ¬cond4 i)
    (x0 : Vec F S1024x256 .f32) (x1 : Vec F S1024x256 .f32) (xs : Vec F S1024x1 .f32) (y : S1024x1.Idx) :
    ∃ pc ∈ (kernelRun_D c i arg2 harg2 arg3 harg3 arg4 harg4 arg5 harg5 hc1 hc2 hc3 hc4 x0 x1 xs).2.1, y ∈ pc.1.set :=
  View.cover_of_tiledL (kernelRun_D c i arg2 harg2 arg3 harg3 arg4 harg4 arg5 harg5 hc1 hc2 hc3 hc4 x0 x1 xs).2.1 S1024x1.size (by sl_kernel_rfl) y

/-- What this case leaves in the accumulator: its pieces read back. -/
def sout_D (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : ¬cond4 i)
    (x0 : Vec F S1024x256 .f32) (x1 : Vec F S1024x256 .f32) (xs : Vec F S1024x1 .f32) : Vec F S1024x1 .f32 :=
  VS.read (Elt F) (VS.writes (Elt F) VS.junk (kernelRun_D c i arg2 harg2 arg3 harg3 arg4 harg4 arg5 harg5 hc1 hc2 hc3 hc4 x0 x1 xs).2.1)

/-- What this case leaves in the output tile's staging buffer (nothing: a placeholder no one reads, the window idle here). -/
def out_D (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : ¬cond4 i)
    (x0 : Vec F S1024x256 .f32) (x1 : Vec F S1024x256 .f32) (xs : Vec F S1024x1 .f32) : Vec F S1024x1 .f32 :=
  VO.read (Elt F) (VO.writes (Elt F) VO.junk (kernelRun_D c i arg2 harg2 arg3 harg3 arg4 harg4 arg5 harg5 hc1 hc2 hc3 hc4 x0 x1 xs).1)

/-- The pieces this case writes into the accumulator cover it (one or two whole-buffer stores). -/
theorem scover_E (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : cond4 i)
    (x0 : Vec F S1024x256 .f32) (x1 : Vec F S1024x256 .f32) (xs : Vec F S1024x1 .f32) (y : S1024x1.Idx) :
    ∃ pc ∈ (kernelRun_E c i arg2 harg2 arg3 harg3 arg4 harg4 arg5 harg5 hc1 hc2 hc3 hc4 x0 x1 xs).2.1, y ∈ pc.1.set :=
  View.cover_of_tiledL (kernelRun_E c i arg2 harg2 arg3 harg3 arg4 harg4 arg5 harg5 hc1 hc2 hc3 hc4 x0 x1 xs).2.1 S1024x1.size (by sl_kernel_rfl) y

/-- What this case leaves in the accumulator: its pieces read back. -/
def sout_E (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : cond4 i)
    (x0 : Vec F S1024x256 .f32) (x1 : Vec F S1024x256 .f32) (xs : Vec F S1024x1 .f32) : Vec F S1024x1 .f32 :=
  VS.read (Elt F) (VS.writes (Elt F) VS.junk (kernelRun_E c i arg2 harg2 arg3 harg3 arg4 harg4 arg5 harg5 hc1 hc2 hc3 hc4 x0 x1 xs).2.1)

/-- What this case leaves in the output tile's staging buffer. -/
def out_E (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : cond4 i)
    (x0 : Vec F S1024x256 .f32) (x1 : Vec F S1024x256 .f32) (xs : Vec F S1024x1 .f32) : Vec F S1024x1 .f32 :=
  VO.read (Elt F) (VO.writes (Elt F) VO.junk (kernelRun_E c i arg2 harg2 arg3 harg3 arg4 harg4 arg5 harg5 hc1 hc2 hc3 hc4 x0 x1 xs).1)

/-- The one whole-buffer store into the output tile covers it. -/
theorem cover_E (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : cond4 i)
    (x0 : Vec F S1024x256 .f32) (x1 : Vec F S1024x256 .f32) (xs : Vec F S1024x1 .f32) (y : S1024x1.Idx) :
    ∃ pc ∈ (kernelRun_E c i arg2 harg2 arg3 harg3 arg4 harg4 arg5 harg5 hc1 hc2 hc3 hc4 x0 x1 xs).1, y ∈ pc.1.set :=
  View.cover_of_tiledL (kernelRun_E c i arg2 harg2 arg3 harg3 arg4 harg4 arg5 harg5 hc1 hc2 hc3 hc4 x0 x1 xs).1 S1024x1.size (by sl_kernel_rfl) y

/-- The pieces this case writes into the accumulator cover it (one or two whole-buffer stores). -/
theorem scover_G (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : cond4 i)
    (x0 : Vec F S1024x256 .f32) (x1 : Vec F S1024x256 .f32) (xs : Vec F S1024x1 .f32) (y : S1024x1.Idx) :
    ∃ pc ∈ (kernelRun_G c i arg2 harg2 arg3 harg3 arg4 harg4 arg5 harg5 hc1 hc2 hc3 hc4 x0 x1 xs).2.1, y ∈ pc.1.set :=
  View.cover_of_tiledL (kernelRun_G c i arg2 harg2 arg3 harg3 arg4 harg4 arg5 harg5 hc1 hc2 hc3 hc4 x0 x1 xs).2.1 S1024x1.size (by sl_kernel_rfl) y

/-- What this case leaves in the accumulator: its pieces read back. -/
def sout_G (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : cond4 i)
    (x0 : Vec F S1024x256 .f32) (x1 : Vec F S1024x256 .f32) (xs : Vec F S1024x1 .f32) : Vec F S1024x1 .f32 :=
  VS.read (Elt F) (VS.writes (Elt F) VS.junk (kernelRun_G c i arg2 harg2 arg3 harg3 arg4 harg4 arg5 harg5 hc1 hc2 hc3 hc4 x0 x1 xs).2.1)

/-- What this case leaves in the output tile's staging buffer. -/
def out_G (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : cond4 i)
    (x0 : Vec F S1024x256 .f32) (x1 : Vec F S1024x256 .f32) (xs : Vec F S1024x1 .f32) : Vec F S1024x1 .f32 :=
  VO.read (Elt F) (VO.writes (Elt F) VO.junk (kernelRun_G c i arg2 harg2 arg3 harg3 arg4 harg4 arg5 harg5 hc1 hc2 hc3 hc4 x0 x1 xs).1)

/-- The one whole-buffer store into the output tile covers it. -/
theorem cover_G (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : cond4 i)
    (x0 : Vec F S1024x256 .f32) (x1 : Vec F S1024x256 .f32) (xs : Vec F S1024x1 .f32) (y : S1024x1.Idx) :
    ∃ pc ∈ (kernelRun_G c i arg2 harg2 arg3 harg3 arg4 harg4 arg5 harg5 hc1 hc2 hc3 hc4 x0 x1 xs).1, y ∈ pc.1.set :=
  View.cover_of_tiledL (kernelRun_G c i arg2 harg2 arg3 harg3 arg4 harg4 arg5 harg5 hc1 hc2 hc3 hc4 x0 x1 xs).1 S1024x1.size (by sl_kernel_rfl) y

/-! ## What the output tile and the accumulator hold after each point -/

/-- THE ACCUMULATION: what the output tile's staging buffer and the accumulator hold after the body at position `n`:
    the case the closed forms select at `n`, run on the point's memrefs and input tiles, the accumulator at what the
    point before left when the case does not reset it. -/
def outsAt (c : Dev nD) : (n : ℕ) → n < cfg0.N → Vec F S1024x1 .f32 × Vec F S1024x1 .f32
  | 0, hn =>
    have h1 : (0 : ℕ) % 8 = 0 := rfl
    have h2 : (0 : ℕ) / 8 = 0 % 8 := rfl
    have h4 : ¬ ((0 : ℕ) % 8 = 7) := by decide
    (out_A c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcond1 ⟨0, hn⟩).mpr h1) ((hcond2 ⟨0, hn⟩).mpr h2) (fun h => ((hcond3 ⟨0, hn⟩).mp h) h2) (fun h => h4 ((hcond4 ⟨0, hn⟩).mp h)) (iblk m c 0 ⟨0, hn⟩) (iblk m c 1 ⟨0, hn⟩), sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcond1 ⟨0, hn⟩).mpr h1) ((hcond2 ⟨0, hn⟩).mpr h2) (fun h => ((hcond3 ⟨0, hn⟩).mp h) h2) (fun h => h4 ((hcond4 ⟨0, hn⟩).mp h)) (iblk m c 0 ⟨0, hn⟩) (iblk m c 1 ⟨0, hn⟩))
  | n + 1, hn =>
    if h1 : (n + 1) % 8 = 0 then
      if h2 : (n + 1) / 8 = (n + 1) % 8 then
        False.elim (by omega)
      else
        have h4 : ¬ ((n + 1) % 8 = 7) := by omega
        (out_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((hcond1 ⟨n + 1, hn⟩).mpr h1) (fun h => h2 ((hcond2 ⟨n + 1, hn⟩).mp h)) ((hcond3 ⟨n + 1, hn⟩).mpr h2) (fun h => h4 ((hcond4 ⟨n + 1, hn⟩).mp h)) (iblk m c 0 ⟨n + 1, hn⟩) (iblk m c 1 ⟨n + 1, hn⟩), sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((hcond1 ⟨n + 1, hn⟩).mpr h1) (fun h => h2 ((hcond2 ⟨n + 1, hn⟩).mp h)) ((hcond3 ⟨n + 1, hn⟩).mpr h2) (fun h => h4 ((hcond4 ⟨n + 1, hn⟩).mp h)) (iblk m c 0 ⟨n + 1, hn⟩) (iblk m c 1 ⟨n + 1, hn⟩))
    else
      if h4 : (n + 1) % 8 = 7 then
        if h2 : (n + 1) / 8 = (n + 1) % 8 then
          (out_E c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h1 ((hcond1 ⟨n + 1, hn⟩).mp h)) ((hcond2 ⟨n + 1, hn⟩).mpr h2) (fun h => ((hcond3 ⟨n + 1, hn⟩).mp h) h2) ((hcond4 ⟨n + 1, hn⟩).mpr h4) (iblk m c 0 ⟨n + 1, hn⟩) (iblk m c 1 ⟨n + 1, hn⟩) (outsAt c n (Nat.lt_of_succ_lt hn)).2, sout_E c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h1 ((hcond1 ⟨n + 1, hn⟩).mp h)) ((hcond2 ⟨n + 1, hn⟩).mpr h2) (fun h => ((hcond3 ⟨n + 1, hn⟩).mp h) h2) ((hcond4 ⟨n + 1, hn⟩).mpr h4) (iblk m c 0 ⟨n + 1, hn⟩) (iblk m c 1 ⟨n + 1, hn⟩) (outsAt c n (Nat.lt_of_succ_lt hn)).2)
        else
          (out_G c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h1 ((hcond1 ⟨n + 1, hn⟩).mp h)) (fun h => h2 ((hcond2 ⟨n + 1, hn⟩).mp h)) ((hcond3 ⟨n + 1, hn⟩).mpr h2) ((hcond4 ⟨n + 1, hn⟩).mpr h4) (iblk m c 0 ⟨n + 1, hn⟩) (iblk m c 1 ⟨n + 1, hn⟩) (outsAt c n (Nat.lt_of_succ_lt hn)).2, sout_G c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h1 ((hcond1 ⟨n + 1, hn⟩).mp h)) (fun h => h2 ((hcond2 ⟨n + 1, hn⟩).mp h)) ((hcond3 ⟨n + 1, hn⟩).mpr h2) ((hcond4 ⟨n + 1, hn⟩).mpr h4) (iblk m c 0 ⟨n + 1, hn⟩) (iblk m c 1 ⟨n + 1, hn⟩) (outsAt c n (Nat.lt_of_succ_lt hn)).2)
      else
        if h2 : (n + 1) / 8 = (n + 1) % 8 then
          (out_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h1 ((hcond1 ⟨n + 1, hn⟩).mp h)) ((hcond2 ⟨n + 1, hn⟩).mpr h2) (fun h => ((hcond3 ⟨n + 1, hn⟩).mp h) h2) (fun h => h4 ((hcond4 ⟨n + 1, hn⟩).mp h)) (iblk m c 0 ⟨n + 1, hn⟩) (iblk m c 1 ⟨n + 1, hn⟩) (outsAt c n (Nat.lt_of_succ_lt hn)).2, sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h1 ((hcond1 ⟨n + 1, hn⟩).mp h)) ((hcond2 ⟨n + 1, hn⟩).mpr h2) (fun h => ((hcond3 ⟨n + 1, hn⟩).mp h) h2) (fun h => h4 ((hcond4 ⟨n + 1, hn⟩).mp h)) (iblk m c 0 ⟨n + 1, hn⟩) (iblk m c 1 ⟨n + 1, hn⟩) (outsAt c n (Nat.lt_of_succ_lt hn)).2)
        else
          (out_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h1 ((hcond1 ⟨n + 1, hn⟩).mp h)) (fun h => h2 ((hcond2 ⟨n + 1, hn⟩).mp h)) ((hcond3 ⟨n + 1, hn⟩).mpr h2) (fun h => h4 ((hcond4 ⟨n + 1, hn⟩).mp h)) (iblk m c 0 ⟨n + 1, hn⟩) (iblk m c 1 ⟨n + 1, hn⟩) (outsAt c n (Nat.lt_of_succ_lt hn)).2, sout_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h1 ((hcond1 ⟨n + 1, hn⟩).mp h)) (fun h => h2 ((hcond2 ⟨n + 1, hn⟩).mp h)) ((hcond3 ⟨n + 1, hn⟩).mpr h2) (fun h => h4 ((hcond4 ⟨n + 1, hn⟩).mp h)) (iblk m c 0 ⟨n + 1, hn⟩) (iblk m c 1 ⟨n + 1, hn⟩) (outsAt c n (Nat.lt_of_succ_lt hn)).2)

/-- `outsAt` at a point of this case. -/
theorem outsAt_A (c : Dev nD) (t : Fin cfg0.N) (h1 : (t.val % 8 = 0)) (h2 : (t.val / 8 = t.val % 8)) (h4 : ¬ (t.val % 8 = 7)) :
    outsAt m c t.val t.isLt = (out_A c (grid0.coords t) (ms0 t) (hs0 t) (ms1 t) (hs1 t) (ms2 t) (hs2 t) scM (Memref.isWhole_whole _) ((hcond1 t).mpr h1) ((hcond2 t).mpr h2) (fun h => ((hcond3 t).mp h) h2) (fun h => h4 ((hcond4 t).mp h)) (iblk m c 0 t) (iblk m c 1 t), sout_A c (grid0.coords t) (ms0 t) (hs0 t) (ms1 t) (hs1 t) (ms2 t) (hs2 t) scM (Memref.isWhole_whole _) ((hcond1 t).mpr h1) ((hcond2 t).mpr h2) (fun h => ((hcond3 t).mp h) h2) (fun h => h4 ((hcond4 t).mp h)) (iblk m c 0 t) (iblk m c 1 t)) := by
  obtain ⟨n, hn⟩ := t
  cases n with
  | zero => exact rfl
  | succ n => exact (by exfalso; (try dsimp only at h1 h2 h4); omega)

/-- `outsAt` at a point of this case. -/
theorem outsAt_B (c : Dev nD) (t : Fin cfg0.N) (h1 : (t.val % 8 = 0)) (h2 : ¬ (t.val / 8 = t.val % 8)) (h4 : ¬ (t.val % 8 = 7)) :
    outsAt m c t.val t.isLt = (out_B c (grid0.coords t) (ms0 t) (hs0 t) (ms1 t) (hs1 t) (ms2 t) (hs2 t) scM (Memref.isWhole_whole _) ((hcond1 t).mpr h1) (fun h => h2 ((hcond2 t).mp h)) ((hcond3 t).mpr h2) (fun h => h4 ((hcond4 t).mp h)) (iblk m c 0 t) (iblk m c 1 t), sout_B c (grid0.coords t) (ms0 t) (hs0 t) (ms1 t) (hs1 t) (ms2 t) (hs2 t) scM (Memref.isWhole_whole _) ((hcond1 t).mpr h1) (fun h => h2 ((hcond2 t).mp h)) ((hcond3 t).mpr h2) (fun h => h4 ((hcond4 t).mp h)) (iblk m c 0 t) (iblk m c 1 t)) := by
  obtain ⟨n, hn⟩ := t
  cases n with
  | zero => exact (by exfalso; (try dsimp only at h1 h2 h4); omega)
  | succ n => exact (dif_pos h1).trans ((dif_neg h2).trans rfl)

/-- `outsAt` at a point of this case. -/
theorem outsAt_C (c : Dev nD) (t : Fin cfg0.N) (h1 : ¬ (t.val % 8 = 0)) (h2 : (t.val / 8 = t.val % 8)) (h4 : ¬ (t.val % 8 = 7)) :
    outsAt m c t.val t.isLt = (out_C c (grid0.coords t) (ms0 t) (hs0 t) (ms1 t) (hs1 t) (ms2 t) (hs2 t) scM (Memref.isWhole_whole _) (fun h => h1 ((hcond1 t).mp h)) ((hcond2 t).mpr h2) (fun h => ((hcond3 t).mp h) h2) (fun h => h4 ((hcond4 t).mp h)) (iblk m c 0 t) (iblk m c 1 t) (outsAt m c (t.val - 1) (Nat.lt_of_le_of_lt (Nat.sub_le _ _) t.isLt)).2, sout_C c (grid0.coords t) (ms0 t) (hs0 t) (ms1 t) (hs1 t) (ms2 t) (hs2 t) scM (Memref.isWhole_whole _) (fun h => h1 ((hcond1 t).mp h)) ((hcond2 t).mpr h2) (fun h => ((hcond3 t).mp h) h2) (fun h => h4 ((hcond4 t).mp h)) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h1 h2 h4); omega)
  | succ n => exact (dif_neg h1).trans ((dif_neg h4).trans ((dif_pos h2).trans rfl))

/-- `outsAt` at a point of this case. -/
theorem outsAt_D (c : Dev nD) (t : Fin cfg0.N) (h1 : ¬ (t.val % 8 = 0)) (h2 : ¬ (t.val / 8 = t.val % 8)) (h4 : ¬ (t.val % 8 = 7)) :
    outsAt m c t.val t.isLt = (out_D c (grid0.coords t) (ms0 t) (hs0 t) (ms1 t) (hs1 t) (ms2 t) (hs2 t) scM (Memref.isWhole_whole _) (fun h => h1 ((hcond1 t).mp h)) (fun h => h2 ((hcond2 t).mp h)) ((hcond3 t).mpr h2) (fun h => h4 ((hcond4 t).mp h)) (iblk m c 0 t) (iblk m c 1 t) (outsAt m c (t.val - 1) (Nat.lt_of_le_of_lt (Nat.sub_le _ _) t.isLt)).2, sout_D c (grid0.coords t) (ms0 t) (hs0 t) (ms1 t) (hs1 t) (ms2 t) (hs2 t) scM (Memref.isWhole_whole _) (fun h => h1 ((hcond1 t).mp h)) (fun h => h2 ((hcond2 t).mp h)) ((hcond3 t).mpr h2) (fun h => h4 ((hcond4 t).mp h)) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h1 h2 h4); omega)
  | succ n => exact (dif_neg h1).trans ((dif_neg h4).trans ((dif_neg h2).trans rfl))

/-- `outsAt` at a point of this case. -/
theorem outsAt_E (c : Dev nD) (t : Fin cfg0.N) (h1 : ¬ (t.val % 8 = 0)) (h2 : (t.val / 8 = t.val % 8)) (h4 : (t.val % 8 = 7)) :
    outsAt m c t.val t.isLt = (out_E c (grid0.coords t) (ms0 t) (hs0 t) (ms1 t) (hs1 t) (ms2 t) (hs2 t) scM (Memref.isWhole_whole _) (fun h => h1 ((hcond1 t).mp h)) ((hcond2 t).mpr h2) (fun h => ((hcond3 t).mp h) h2) ((hcond4 t).mpr h4) (iblk m c 0 t) (iblk m c 1 t) (outsAt m c (t.val - 1) (Nat.lt_of_le_of_lt (Nat.sub_le _ _) t.isLt)).2, sout_E c (grid0.coords t) (ms0 t) (hs0 t) (ms1 t) (hs1 t) (ms2 t) (hs2 t) scM (Memref.isWhole_whole _) (fun h => h1 ((hcond1 t).mp h)) ((hcond2 t).mpr h2) (fun h => ((hcond3 t).mp h) h2) ((hcond4 t).mpr h4) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h1 h2 h4); omega)
  | succ n => exact (dif_neg h1).trans ((dif_pos h4).trans ((dif_pos h2).trans rfl))

/-- `outsAt` at a point of this case. -/
theorem outsAt_G (c : Dev nD) (t : Fin cfg0.N) (h1 : ¬ (t.val % 8 = 0)) (h2 : ¬ (t.val / 8 = t.val % 8)) (h4 : (t.val % 8 = 7)) :
    outsAt m c t.val t.isLt = (out_G c (grid0.coords t) (ms0 t) (hs0 t) (ms1 t) (hs1 t) (ms2 t) (hs2 t) scM (Memref.isWhole_whole _) (fun h => h1 ((hcond1 t).mp h)) (fun h => h2 ((hcond2 t).mp h)) ((hcond3 t).mpr h2) ((hcond4 t).mpr h4) (iblk m c 0 t) (iblk m c 1 t) (outsAt m c (t.val - 1) (Nat.lt_of_le_of_lt (Nat.sub_le _ _) t.isLt)).2, sout_G c (grid0.coords t) (ms0 t) (hs0 t) (ms1 t) (hs1 t) (ms2 t) (hs2 t) scM (Memref.isWhole_whole _) (fun h => h1 ((hcond1 t).mp h)) (fun h => h2 ((hcond2 t).mp h)) ((hcond3 t).mpr h2) ((hcond4 t).mpr h4) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h1 h2 h4); omega)
  | succ n => exact (dif_neg h1).trans ((dif_pos h4).trans ((dif_neg h2).trans rfl))

/-! ## The invariant: the accumulator carried from point to point -/

/-- Before position `n`: at the first point the accumulator at anything; afterwards at what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The arrays as the region finds them; after the body each input tile's buffer at its block and the output tile's at
    `outsAt`; the invariant `PhiS`; nothing owed; the two readers of the rows' array hold its two half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]

/-- Each input tile's current staging buffer holds its block at every point, fetched there or not (the row tile is
    fetched only when the row tile changes; unfetched, its index has not moved). -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
/-- The body at any point: the input tiles' buffers hold their blocks; the closed forms say which case the point is in;
    the invariant hands the body the accumulator at what the point before left (at anything at the first point) and
    takes it back at this point's contents; the output tile is handed back untouched where it is idle. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [liveAt0 t], after_0]
  rw [show (dats m 0 c).leavesExact 1 t = owns (c : Thread nD τ) (ms1 t) fullShare ((dats m 0 c).after 1 t) from by
    unfold Dat.leavesExact; rw [liveAt1 t], after_1]
  by_cases h1 : t.val % 8 = 0
  · have h4 : ¬ (t.val % 8 = 7) := by omega
    by_cases h2 : t.val / 8 = t.val % 8
    · rw [Dat.leavesExact_idle (dats m 0 c) 2 t (idleAt2 t (fun h => h4 ((hcond4 t).mp h))) (noFlush2 t (fun h => h4 ((hcond4 t).mp h)))]
      rw [outsAt_A m c t h1 h2 h4]
      unfold sout_A; (try dsimp only)
      have hz : t.val = 0 := by omega
      rw [PhiS_castSucc m c t, PhiS_zero m c _ _ hz, PhiA_eq]
      iintro ⟨⟨HS, Hg⟩, Ho, ⟨%d0, H0⟩, ⟨%d1, H1⟩, ⟨%d2, H2⟩⟩
      iapply ((kernelRun_A c (grid0.coords t) _ _ _ _ _ _ _ _ ((hcond1 t).mpr h1) ((hcond2 t).mpr h2) (fun h => ((hcond3 t).mp h) h2) (fun h => h4 ((hcond4 t).mp h)) (iblk m c 0 t) (iblk m c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _)
        iexact Hg
      isplitl [Ho]; · iexact Ho
      isplitl [H0]; · iexact H0
      isplitl [H1]; · iexact H1
      iexists _; iexact H2
    · rw [Dat.leavesExact_idle (dats m 0 c) 2 t (idleAt2 t (fun h => h4 ((hcond4 t).mp h))) (noFlush2 t (fun h => h4 ((hcond4 t).mp h)))]
      rw [outsAt_B m c t h1 h2 h4]
      unfold sout_B; (try dsimp only)
      have hz : t.val ≠ 0 := by omega
      rw [PhiS_castSucc m c t, PhiS_pos m c _ _ hz]
      iintro ⟨⟨HS, Hg⟩, Ho, ⟨%d0, H0⟩, ⟨%d1, H1⟩, ⟨%d2, H2⟩⟩
      iapply ((kernelRun_B c (grid0.coords t) _ _ _ _ _ _ _ _ ((hcond1 t).mpr h1) (fun h => h2 ((hcond2 t).mp h)) ((hcond3 t).mpr h2) (fun h => h4 ((hcond4 t).mp h)) (iblk m c 0 t) (iblk m c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (scover_B c _ _ _ _ _ _ _ _ _ _ _ _ _ _ _)
        iexact Hg
      isplitl [Ho]; · iexact Ho
      isplitl [H0]; · iexact H0
      isplitl [H1]; · iexact H1
      iexists _; iexact H2
  · by_cases h4 : t.val % 8 = 7
    · by_cases h2 : t.val / 8 = t.val % 8
      · rw [show (dats m 0 c).leavesExact 2 t = owns (c : Thread nD τ) (ms2 t) fullShare ((dats m 0 c).after 2 t) from by
          unfold Dat.leavesExact; rw [liveAt2 t ((hcond4 t).mpr h4)], after_2]
        rw [outsAt_E m c t h1 h2 h4]
        unfold sout_E out_E; (try dsimp only)
        have hz : t.val ≠ 0 := by omega
        rw [PhiS_castSucc m c t, PhiS_pos m c _ _ hz]
        iintro ⟨⟨HS, Hg⟩, Ho, ⟨%d0, H0⟩, ⟨%d1, H1⟩, ⟨%d2, H2⟩⟩
        iapply ((kernelRun_E c (grid0.coords t) _ _ _ _ _ _ _ _ (fun h => h1 ((hcond1 t).mp h)) ((hcond2 t).mpr h2) (fun h => ((hcond3 t).mp h) h2) ((hcond4 t).mpr h4) (iblk m c 0 t) (iblk m c 1 t) _).2.2 Set.univ _)
        isplitl [H0]; · iexact H0
        isplitl [H1]; · iexact H1
        isplitl [H2]; · iexists _; iexact H2
        isplitl [HS]; · iexact HS
        iintro ⟨H0, H1, ⟨%e2, H2⟩, ⟨%es, HS⟩⟩
        isplitl [HS Hg]
        · isplitl [HS]
          · unfold owns; iexists _; isplitr
            swap; · iexact HS
            ipureintro; exact View.read_writes_of_cover _ _ _ _ _ (scover_E c _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover_E c _ _ _ _ _ _ _ _ _ _ _ _ _ _ _ _)
      · rw [show (dats m 0 c).leavesExact 2 t = owns (c : Thread nD τ) (ms2 t) fullShare ((dats m 0 c).after 2 t) from by
          unfold Dat.leavesExact; rw [liveAt2 t ((hcond4 t).mpr h4)], after_2]
        rw [outsAt_G m c t h1 h2 h4]
        unfold sout_G out_G; (try dsimp only)
        have hz : t.val ≠ 0 := by omega
        rw [PhiS_castSucc m c t, PhiS_pos m c _ _ hz]
        iintro ⟨⟨HS, Hg⟩, Ho, ⟨%d0, H0⟩, ⟨%d1, H1⟩, ⟨%d2, H2⟩⟩
        iapply ((kernelRun_G c (grid0.coords t) _ _ _ _ _ _ _ _ (fun h => h1 ((hcond1 t).mp h)) (fun h => h2 ((hcond2 t).mp h)) ((hcond3 t).mpr h2) ((hcond4 t).mpr h4) (iblk m c 0 t) (iblk m c 1 t) _).2.2 Set.univ _)
        isplitl [H0]; · iexact H0
        isplitl [H1]; · iexact H1
        isplitl [H2]; · iexists _; iexact H2
        isplitl [HS]; · iexact HS
        iintro ⟨H0, H1, ⟨%e2, H2⟩, ⟨%es, HS⟩⟩
        isplitl [HS Hg]
        · isplitl [HS]
          · unfold owns; iexists _; isplitr
            swap; · iexact HS
            ipureintro; exact View.read_writes_of_cover _ _ _ _ _ (scover_G c _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover_G c _ _ _ _ _ _ _ _ _ _ _ _ _ _ _ _)
    · by_cases h2 : t.val / 8 = t.val % 8
      · rw [Dat.leavesExact_idle (dats m 0 c) 2 t (idleAt2 t (fun h => h4 ((hcond4 t).mp h))) (noFlush2 t (fun h => h4 ((hcond4 t).mp h)))]
        rw [outsAt_C m c t h1 h2 h4]
        unfold sout_C; (try dsimp only)
        have hz : t.val ≠ 0 := by omega
        rw [PhiS_castSucc m c t, PhiS_pos m c _ _ hz]
        iintro ⟨⟨HS, Hg⟩, Ho, ⟨%d0, H0⟩, ⟨%d1, H1⟩, ⟨%d2, H2⟩⟩
        iapply ((kernelRun_C c (grid0.coords t) _ _ _ _ _ _ _ _ (fun h => h1 ((hcond1 t).mp h)) ((hcond2 t).mpr h2) (fun h => ((hcond3 t).mp h) h2) (fun h => h4 ((hcond4 t).mp h)) (iblk m c 0 t) (iblk m c 1 t) _).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (scover_C c _ _ _ _ _ _ _ _ _ _ _ _ _ _ _ _)
          iexact Hg
        isplitl [Ho]; · iexact Ho
        isplitl [H0]; · iexact H0
        isplitl [H1]; · iexact H1
        iexists _; iexact H2
      · rw [Dat.leavesExact_idle (dats m 0 c) 2 t (idleAt2 t (fun h => h4 ((hcond4 t).mp h))) (noFlush2 t (fun h => h4 ((hcond4 t).mp h)))]
        rw [outsAt_D m c t h1 h2 h4]
        unfold sout_D; (try dsimp only)
        have hz : t.val ≠ 0 := by omega
        rw [PhiS_castSucc m c t, PhiS_pos m c _ _ hz]
        iintro ⟨⟨HS, Hg⟩, Ho, ⟨%d0, H0⟩, ⟨%d1, H1⟩, ⟨%d2, H2⟩⟩
        iapply ((kernelRun_D c (grid0.coords t) _ _ _ _ _ _ _ _ (fun h => h1 ((hcond1 t).mp h)) (fun h => h2 ((hcond2 t).mp h)) ((hcond3 t).mpr h2) (fun h => h4 ((hcond4 t).mp h)) (iblk m c 0 t) (iblk m c 1 t) _).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (scover_D c _ _ _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back at some contents. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

end Cert.Kernel.Hand

end
-- ==== Proof.K.Frame.lean ====
/-
  The kernel program's frame, for any float instance: every weakly fair execution of @main terminates without a
  fault and leaves the two argument arrays as it found them.

  An argument array is no window's array and is not scoped, so the run's post speaks of it: at the end it holds what
  the lines after the region make of the contents the region was left with. Those lines do not write it, the region's
  write-backs touch the result array only, and the lines before the region do not write it either: it holds what the
  initial memory held.
-/
import proofs.«113197_j52312701666200_2_alg».proof.Proof.K.Launch
import proofs.«113197_j52312701666200_2_alg».proof.Proof.K.Body

-- membership in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

open Idealize.ShloMosaic.Pipeline

/-! ## Which buffers the run's post speaks of -/

/-- An unscoped buffer that is no window's array is among the buffers that bypass the region. -/
theorem mem_rest (b : Ref sig .tc) (hs : b.isScoped = false) (ha : ∀ w : Fin 3, (spec0 w).arr.view.ref ≠ b) :
    b ∈ restRefsP sig Prefetch.none spec0 :=
  Finset.mem_sdiff.mpr ⟨mem_restRefs_of b hs ha, fun h => (Finset.mem_image.mp h).elim fun k _ => k.elim0⟩

theorem mem_rest_arg0 : main_arg0 ∈ restRefsP sig Prefetch.none spec0 := mem_rest main_arg0 rfl (by decide)
theorem mem_rest_arg1 : main_arg1 ∈ restRefsP sig Prefetch.none spec0 := mem_rest main_arg1 rfl (by decide)
theorem mem_rest_v18 : main_v18 ∈ restRefsP sig Prefetch.none spec0 := mem_rest main_v18 rfl (by decide)

/-! ## The arguments through the lines before the region -/

/-- The lines before the region leave the first argument as the initial memory has it, -/
theorem entry_arg0 (c : Dev nD) : V m c main_arg0 = m ((c.tc : Thread nD τ).loc main_arg0) := by
  show StableHlo.after (List.flatten [hostOps0, hostOps0_1, hostOps0_2]) (fun b => m (c, b)) (Proc.devRef .tc main_arg0) = _
  simp only [hostOps0, hostOps0_1, hostOps0_2, List.flatten_cons, List.flatten_nil, List.append_nil, List.cons_append,
    List.nil_append]
  after_results
  try rfl

/-- and the second. -/
theorem entry_arg1 (c : Dev nD) : V m c main_arg1 = m ((c.tc : Thread nD τ).loc main_arg1) := by
  show StableHlo.after (List.flatten [hostOps0, hostOps0_1, hostOps0_2]) (fun b => m (c, b)) (Proc.devRef .tc main_arg1) = _
  simp only [hostOps0, hostOps0_1, hostOps0_2, List.flatten_cons, List.flatten_nil, List.append_nil, List.cons_append,
    List.nil_append]
  after_results
  try rfl

/-! ## The arguments at the end -/

section AnyData

variable (dd : (p : Fin 1) → (c : Dev nD) → Dat τ (Elt F) Unit ℕ (UR sig nD τ) ℕ (cfgs p) c)

/-- After the lines that follow the region the first argument holds what the initial memory held, whatever the
    region's proof data: neither those lines nor the write-backs nor the lines before the region write it. -/
theorem end_arg0 (c : Dev nD) : Wend m dd c (Proc.devRef .tc main_arg0) = m ((c.tc : Thread nD τ).loc main_arg0) :=
  (Wend_keeps m dd c main_arg0 (.inr (.inr (.inl rfl)))).trans
    ((Wexit_of_ne m dd c main_arg0 (by decide)).trans (entry_arg0 m c))

theorem end_arg1 (c : Dev nD) : Wend m dd c (Proc.devRef .tc main_arg1) = m ((c.tc : Thread nD τ).loc main_arg1) :=
  (Wend_keeps m dd c main_arg1 (.inr (.inr (.inr rfl)))).trans
    ((Wexit_of_ne m dd c main_arg1 (by decide)).trans (entry_arg1 m c))

end AnyData

/-! ## The frame -/

/-- The region's run with the proof data the body's run provides. -/
theorem run_with_body : θ_run (defs (F := F)) (onTc (τ := τ) (main (F := F))) (s₀ m ρ) (fun r => ∀ c : Dev nD,
      (∀ w, r.2.mem ((spec0 w).arr.view.loc (c.tc : Thread nD τ)) = (dats (F := F) m 0 c).arrAt w cfg0.N)
      ∧ ∀ b ∈ restRefsP sig Prefetch.none spec0, r.2.mem ((c.tc : Thread nD τ).loc b) = Wend m (dats (F := F) m) c (Proc.devRef .tc b)) :=
  run_main m ρ (dats (F := F) m) (A_eq m) (fun _ => rfl) (fun _ => rfl) (fun _ _ => rfl)
    (fun c => (body_obligation m c).loose) (hin m) (hout m)

/-- Every weakly fair execution of @main terminates without a fault, the two argument arrays unchanged. -/
theorem frame_any : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c =>
      ⟨((h c).2 main_arg0 mem_rest_arg0).trans (end_arg0 m (dats (F := F) m) c),
       ((h c).2 main_arg1 mem_rest_arg1).trans (end_arg1 m (dats (F := F) m) c)⟩)
    (run_with_body m ρ)

end Cert.Kernel.Hand

end
-- ==== Proof.KI.Basics.lean ====
/-
  The program around its one region, for any float instance: what the TensorCore's buffers hold when the region is
  entered (the eleven host operations before it: the rows stacked, normalised), @main as those lines, the region, and
  the sixteen lines after it; each window's block at a grid point; and the body's four branch conditions decided
  over the 8 × 8 grid. Point `t` is row-tile `t / 8` against column-tile `t % 8`: the accumulator is reset where
  `t % 8 = 0`, the own-row entry is struck out where `t / 8 = t % 8`, and the output tile is stored where `t % 8 = 7`.
-/
import proofs.«113197_j52312701666200_2_alg».proof.Proof.Gen.KernelIdeal.Launch
import proofs.«113197_j52312701666200_2_alg».proof.Proof.Gen.KernelIdeal.Skeleton
import proofs.«113197_j52312701666200_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host operations before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, the lines after it: it reduces to the region continued by the
    later lines, entered at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions over the grid -/

/-- The accumulator is reset: the column tile is the first. -/
abbrev cond1 (i : grid0.Coords) : Prop :=
  (Scalar.cmpi .ne (Scalar.extui (Scalar.cmpi .eq (BitVec.ofNat 32 (i 1).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)

/-- The tile meets the diagonal: row tile = column tile. -/
abbrev cond2 (i : grid0.Coords) : Prop :=
  (Scalar.cmpi .ne (Scalar.extui (Scalar.cmpi .eq (BitVec.ofNat 32 (i 0).val) (BitVec.ofNat 32 (i 1).val))) 0#32) = 1#1
theorem hcond2 : ∀ t : Fin cfg0.N, cond2 (grid0.coords t) ↔ t.val / 8 = t.val % 8 :=
  (by decide +kernel : ∀ t : Fin grid0.N, cond2 (grid0.coords t) ↔ t.val / 8 = t.val % 8)

/-- The tile is off the diagonal. -/
abbrev cond3 (i : grid0.Coords) : Prop :=
  (Scalar.cmpi .ne (Scalar.extui (Scalar.cmpi .ne (BitVec.ofNat 32 (i 0).val) (BitVec.ofNat 32 (i 1).val))) 0#32) = 1#1
theorem hcond3 : ∀ t : Fin cfg0.N, cond3 (grid0.coords t) ↔ ¬ (t.val / 8 = t.val % 8) :=
  (by decide +kernel : ∀ t : Fin grid0.N, cond3 (grid0.coords t) ↔ ¬ (t.val / 8 = t.val % 8))

/-- The output tile is stored: the column tile is the last. -/
abbrev cond4 (i : grid0.Coords) : Prop := k0_cond4 i = 1#1
theorem hcond4 : ∀ t : Fin cfg0.N, cond4 (grid0.coords t) ↔ t.val % 8 = 7 :=
  (by decide +kernel : ∀ t : Fin grid0.N, cond4 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
/-- Where the output tile is not stored the configuration calls the output idle, -/
theorem idleAt2 : ∀ t : Fin cfg0.N, ¬cond4 (grid0.coords t) → cfg0.idle 2 (grid0.coords t) = true := by decide +kernel
/-- and the pipeline does not write it back there; -/
theorem noFlush2 : ∀ t : Fin cfg0.N, ¬cond4 (grid0.coords t) → (cfg0.win 2).flush t = false := by decide +kernel
/-- where it is stored the output is live. -/
theorem liveAt2 : ∀ t : Fin cfg0.N, cond4 (grid0.coords t) → cfg0.idle 2 (grid0.coords t) = false := by decide +kernel

/-! ## The staging memrefs the body is called with -/

abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The accumulator: a whole scoped buffer of the kernel's own. -/
abbrev scM : Memref sig .tc .vmem S1024x1 .f32 := Memref.whole cc0_scratch0
abbrev VS : View sig .tc .vmem S1024x1 .f32 := scM.view
/-- One staging buffer of the output window, through which its contents are stated. -/
abbrev VO : View sig .tc .vmem S1024x1 .f32 := (Memref.whole cc0_stg2_0 : Memref sig .tc .vmem S1024x1 .f32).view

/-- What the body may use besides its windows: the accumulator at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KI.Arrays.lean ====
/-
  The region launched, for any float instance: every weakly fair execution of @main terminates without a fault, with
  the result array at what the grid's write-backs make it, and every other buffer at what the host lines after the
  region compute from that. The two input windows read ONE array (the normalised rows): its buffer, whole at the
  full share when the region is entered, is split into two half shares, one per reading window, and joined again
  when the region is left, so that the host lines after the region run over whole buffers.
-/
import proofs.«113197_j52312701666200_2_alg».proof.Proof.KI.Basics

-- membership in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The arrays behind the windows

Stated for ANY proof data of the region on core `c` whose arrays are the region-entry contents and whose two readers of
the rows' array hold the two halves of the full share. -/

variable {c : Dev nD} (dat : Dat τ (Elt F) Unit ℕ (UR sig nD τ) ℕ cfg0 c)

/-- The buffers behind the three windows' arrays are two: the rows and the result. -/
theorem arrBufs_eq (c : Dev nD) (W : (b : Ref sig .tc) → Buf (Elt F) ((c : Thread nD τ).loc b)) :
    (arrBufs spec0 c W : sProp 𝕄)
      = iprop((((c : Thread nD τ).loc main_v5) ↦{fullShare} W main_v5) ∗ (((c : Thread nD τ).loc main_v6) ↦{fullShare} W main_v6)) := by
  unfold arrBufs
  exact bigSep_eq_bigSepL_of_eq [main_v5, main_v6] (by decide) (by decide) _

/-- The proof data's arrays, window by window: the rows at the two half shares, the result at the full share. -/
theorem arrays_eq3 (hq0 : dat.q 0 = fullShare.left) (hq1 : dat.q 1 = fullShare.right)
    (G : (w : Fin cfg0.W) → Buf (Elt F) ((cfg0.win w).arr.view.loc (c : Thread nD τ))) :
    (dat.arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare} G 2)) := by
  have h : (dat.arrays G : sProp 𝕄)
      = bigSep Finset.univ fun w => (((c : Thread nD τ).loc (arrRef spec0 w)) ↦{dat.share w} G w : sProp 𝕄) := by
    unfold Dat.arrays
    exact bigSep_congr fun w _ => by rw [(arr_whole0 w).set_eq_univ]
  rw [h, bigSep_W0, ← hq0, ← hq1]
  rfl

/-- A whole buffer at the full share is its two half shares. -/
theorem rows_halves (c : Dev nD) (f : Buf (Elt F) ((c : Thread nD τ).loc main_v5)) :
    ((((c : Thread nD τ).loc main_v5) ↦{fullShare} f : sProp 𝕄))
      ⊣⊢ iprop((((c : Thread nD τ).loc main_v5) ↦{fullShare.left} f) ∗ (((c : Thread nD τ).loc main_v5) ↦{fullShare.right} f)) :=
  pointsTo_share (PosShare.mem_left_op_right fullShare)

/-- The arrays behind the windows, whole, make the proof data's arrays when both readers of the rows are given the
    rows' contents. -/
theorem arrays_of_bufs (hq0 : dat.q 0 = fullShare.left) (hq1 : dat.q 1 = fullShare.right) (W : (b : Ref sig .tc) → Buf (Elt F) ((c : Thread nD τ).loc b))
    (G : (w : Fin cfg0.W) → Buf (Elt F) ((cfg0.win w).arr.view.loc (c : Thread nD τ)))
    (h0 : G 0 = W main_v5) (h1 : G 1 = W main_v5) (h2 : G 2 = W main_v6) :
    (arrBufs spec0 c W : sProp 𝕄) ⊢ dat.arrays G := by
  rw [arrBufs_eq, arrays_eq3 dat hq0 hq1, h0, h1, h2]
  iintro ⟨H5, H6⟩
  ihave H := (rows_halves c (W main_v5)).1 $$ H5
  icases H with ⟨Hl, Hr⟩
  isplitl [Hl]; · iexact Hl
  isplitl [Hr]; · iexact Hr
  iexact H6

/-- And back: the two half shares of the rows join. -/
theorem bufs_of_arrays (hq0 : dat.q 0 = fullShare.left) (hq1 : dat.q 1 = fullShare.right) (W : (b : Ref sig .tc) → Buf (Elt F) ((c : Thread nD τ).loc b))
    (G : (w : Fin cfg0.W) → Buf (Elt F) ((cfg0.win w).arr.view.loc (c : Thread nD τ)))
    (h0 : G 0 = W main_v5) (h1 : G 1 = W main_v5) (h2 : G 2 = W main_v6) :
    (dat.arrays G : sProp 𝕄) ⊢ arrBufs spec0 c W := by
  rw [arrBufs_eq, arrays_eq3 dat hq0 hq1, h0, h1, h2]
  iintro ⟨Hl, Hr, H6⟩
  isplitl [Hl Hr]
  · iapply (rows_halves c (W main_v5)).2
    isplitl [Hl]; · iexact Hl
    iexact Hr
  iexact H6

/-- An input window's array is never written: it holds its entry contents after any number of points. -/
theorem arrAt_0 (hA : ∀ w, dat.A w = V m c (arrRef spec0 w)) (n : ℕ) : dat.arrAt 0 n = V m c main_v5 :=
  (dat.arrAt_in 0 rfl n).trans (hA 0)
theorem arrAt_1 (hA : ∀ w, dat.A w = V m c (arrRef spec0 w)) (n : ℕ) : dat.arrAt 1 n = V m c main_v5 :=
  (dat.arrAt_in 1 rfl n).trans (hA 1)

/-- What the launch hands the region: the arrays at their entry contents. -/
theorem hsplit (hq0 : dat.q 0 = fullShare.left) (hq1 : dat.q 1 = fullShare.right) (hA : ∀ w, dat.A w = V m c (arrRef spec0 w)) :
    (arrBufs spec0 c (V m c) : sProp 𝕄) ⊢ dat.arrays (dat.arrAt · 0) :=
  arrays_of_bufs dat hq0 hq1 (V m c) _ (hA 0) (hA 1) (hA 2)

end Cert.KernelIdeal.Hand

end
-- ==== Proof.KI.Launch.lean ====
/-
  The run of @main, for any float instance. The region is entered at the contents the host lines before it leave,
  runs its 64 points, and is left with the result array at what the eight write-backs made of it and every other
  buffer as entered; the sixteen host lines after it then run over whole buffers. Stated as a post on the final memory:
  every unscoped buffer other than the windows' arrays holds what those lines compute from the exit contents.
-/
import proofs.«113197_j52312701666200_2_alg».proof.Proof.KI.Arrays

-- membership in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! Any proof data of the region, one datum per core. What the run needs of it is stated where it is used: its arrays
are the region-entry contents (`hA`), the two readers of the rows hold the two half shares (`hq0`, `hq1`), nothing is
owed, the body obligation holds, and the invariant starts from and ends in what the launch hands over. -/

variable (dats : (p : Fin 1) → (c : Dev nD) → Dat τ (Elt F) Unit ℕ (UR sig nD τ) ℕ (cfgs p) c)

/-! ## The buffers when the region is left, and after the lines that follow it -/

open Classical in
/-- When the region is left: the result array at what the write-backs made it, every other buffer as when entered. -/
def Wexit (c : Dev nD) : Valuation τ sig (Elt F) :=
  Function.update (V0 m c) (Proc.devRef .tc main_v6)
    (show (Proc.devRef (τ := τ) .tc main_v6).ty.Contents (Elt F) from (dats 0 c).arrAt 2 cfg0.N)

/-- After the lines that follow the region. -/
def Wend (c : Dev nD) : Valuation τ sig (Elt F) := StableHlo.after hostOps1 (Wexit m dats c)

theorem Wexit_v6 (c : Dev nD) : Wexit m dats c (Proc.devRef .tc main_v6) = (dats 0 c).arrAt 2 cfg0.N := by
  unfold Wexit; rw [Function.update_self]

theorem Wexit_of_ne (c : Dev nD) (b : Ref sig .tc) (hb : b ≠ main_v6) : Wexit m dats c (Proc.devRef .tc b) = V m c b := by
  unfold Wexit; rw [Function.update_of_ne (fun e => hb (Proc.devRef_injective _ e))]

/-- The lines after the region write neither window array nor an argument. -/
theorem tail_keeps (b : Ref sig .tc) (hb : b = main_v5 ∨ b = main_v6 ∨ b = main_arg0 ∨ b = main_arg1) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl
  all_goals
    rcases hb with rfl | rfl | rfl | rfl <;>
    simp only [StableHlo.nullary_writes, StableHlo.unary_writes, StableHlo.binary_writes, StableHlo.reshape_writes, Finset.mem_singleton] <;>
    exact StableHlo.devRef_ne_of_ne (by decide)

theorem Wend_keeps (c : Dev nD) (b : Ref sig .tc) (hb : b = main_v5 ∨ b = main_v6 ∨ b = main_arg0 ∨ b = main_arg1) :
    Wend m dats c (Proc.devRef .tc b) = Wexit m dats c (Proc.devRef .tc b) :=
  StableHlo.after_of_forall_not_mem _ _ (tail_keeps b hb)

/-! ## A held set of all unscoped buffers is the windows' arrays and the rest -/

theorem held_split (c : Dev nD) (W : Valuation τ sig (Elt F)) :
    (StableHlo.held (c.tc : Thread nD τ) (ucRefs τ sig) W : sProp 𝕄)
      = iprop(arrBufs spec0 c (fun b => W (Proc.devRef .tc b)) ∗ unscopedRestP Prefetch.none spec0 c (fun b => W (Proc.devRef .tc b))) := by
  classical
  rw [← unscopedBufs_held (Ix := Unit) (Name := ℕ) (U := UR sig nD τ) (Lvl := ℕ) c W, unscopedRestP_none]
  have hA : Finset.univ.image (arrRef spec0) ⊆ Finset.univ.filter fun b : Ref sig .tc => ¬ b.isScoped := fun b hb => by
    obtain ⟨w, -, rfl⟩ := Finset.mem_image.mp hb
    exact Finset.mem_filter.mpr ⟨Finset.mem_univ _, by simp [winFacts₀0.arr_unscoped w]⟩
  unfold unscopedBufs unscopedRest arrBufs
  rw [bigSep_sdiff_split hA]
  rfl

/-- Off the windows' arrays the rest does not see a change of the arrays' contents. -/
theorem rest_congr (c : Dev nD) (W W' : (b : Ref sig .tc) → Buf (Elt F) ((c : Thread nD τ).loc b))
    (h : ∀ b, (∀ w, arrRef spec0 w ≠ b) → W b = W' b) :
    (unscopedRestP Prefetch.none spec0 c W : sProp 𝕄) = unscopedRestP Prefetch.none spec0 c W' := by
  classical
  unfold unscopedRestP
  exact bigSep_congr fun b hb => by
    rw [h b fun w e => (Finset.mem_sdiff.mp (Finset.mem_sdiff.mp hb).1).2 (Finset.mem_image.mpr ⟨w, Finset.mem_univ _, e⟩)]

theorem arrRef_ne_v6 (b : Ref sig .tc) (h : ∀ w, arrRef spec0 w ≠ b) : b ≠ main_v6 := fun e => h 2 (e ▸ rfl)

/-! ## The lines after the region -/

theorem tail_sub : ∀ ops ∈ ([hostOps1] : List (List (HloOp τ sig (Elt F)))), ∀ op ∈ ops, op.bufs ⊆ ucRefs τ sig := by
  intro ops hops op hop
  simp only [List.mem_cons, List.mem_nil_iff, or_false] at hops
  subst hops
  exact sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

local notation "𝔻" => Pipeline.defs (fun q => Cfg.toPCfg (Val := Elt F) (cfgs q)) (defs₀ (F := F))

/-- From the region's exit — the boundary, the windows' arrays at their final contents (the rows' two half shares
    joined), every other buffer as entered — the lines after the region run, and hand back the arrays (the rows split
    again) and every other buffer at what the lines compute. -/
theorem htail (hA : ∀ c w, (dats 0 c).A w = V m c (arrRef spec0 w))
    (hq0 : ∀ c, (dats 0 c).q 0 = fullShare.left) (hq1 : ∀ c, (dats 0 c).q 1 = fullShare.right)
    (c : Dev nD) (Q' : PUnit → sProp 𝕄) :
    iprop((iprop((dats 0 c).arrays ((dats 0 c).arrAt · cfg0.N)
              ∗ unscopedRestP Prefetch.none spec0 c (fun b => Wend m dats c (Proc.devRef .tc b))) -∗ Q' ⟨⟩)
        ∗ boundary (c.tc : Thread nD τ) ∗ (dats 0 c).arrays ((dats 0 c).arrAt · cfg0.N)
        ∗ unscopedRestP Prefetch.none spec0 c (fun b => V0 m c (Proc.devRef .tc b)))
      ⊢ wp frame (wpE 𝔻 (Variants.lift Variants.none) (c.tc : Thread nD τ) none) Set.univ (chain ([hostOps1].map StableHlo.seq)) Q' := by
  have hexit : iprop((dats 0 c).arrays ((dats 0 c).arrAt · cfg0.N)
        ∗ unscopedRestP Prefetch.none spec0 c (fun b => V0 m c (Proc.devRef .tc b)))
      ⊢ (StableHlo.held (c.tc : Thread nD τ) (ucRefs τ sig) (Wexit m dats c) : sProp 𝕄) := by
    rw [held_split, rest_congr c (fun b => Wexit m dats c (Proc.devRef .tc b)) (fun b => V0 m c (Proc.devRef .tc b))
      fun b hb => Wexit_of_ne m dats c b (arrRef_ne_v6 b hb)]
    iintro ⟨Ha, Hz⟩
    isplitl [Ha]
    · iapply (bufs_of_arrays (dats 0 c) (hq0 c) (hq1 c) (fun b => Wexit m dats c (Proc.devRef .tc b)) ((dats 0 c).arrAt · cfg0.N)
        ((arrAt_0 m (dats 0 c) (hA c) _).trans (Wexit_of_ne m dats c main_v5 (by decide)).symm)
        ((arrAt_1 m (dats 0 c) (hA c) _).trans (Wexit_of_ne m dats c main_v5 (by decide)).symm)
        (Wexit_v6 m dats c).symm)
      iexact Ha
    iexact Hz
  have hend : (StableHlo.held (c.tc : Thread nD τ) (ucRefs τ sig) (StableHlo.after (List.flatten [hostOps1]) (Wexit m dats c)) : sProp 𝕄)
      ⊢ iprop((dats 0 c).arrays ((dats 0 c).arrAt · cfg0.N)
        ∗ unscopedRestP Prefetch.none spec0 c (fun b => Wend m dats c (Proc.devRef .tc b))) := by
    rw [show StableHlo.after (List.flatten [hostOps1]) (Wexit m dats c) = Wend m dats c from by
      unfold Wend; simp only [List.flatten_cons, List.flatten_nil, List.append_nil], held_split]
    iintro ⟨Ha, Hz⟩
    isplitl [Ha]
    · iapply (arrays_of_bufs (dats 0 c) (hq0 c) (hq1 c) (fun b => Wend m dats c (Proc.devRef .tc b)) ((dats 0 c).arrAt · cfg0.N)
        ((arrAt_0 m (dats 0 c) (hA c) _).trans (((Wend_keeps m dats c main_v5 (.inl rfl)).trans (Wexit_of_ne m dats c main_v5 (by decide))).symm))
        ((arrAt_1 m (dats 0 c) (hA c) _).trans (((Wend_keeps m dats c main_v5 (.inl rfl)).trans (Wexit_of_ne m dats c main_v5 (by decide))).symm))
        (((Wend_keeps m dats c main_v6 (.inr (.inl rfl))).trans (Wexit_v6 m dats c)).symm))
      iexact Ha
    iexact Hz
  rw [← List.append_nil ([hostOps1].map StableHlo.seq)]
  iintro ⟨Hk, Hb, Ha, Hz⟩
  iapply (wp_seqs_then (fun q => Cfg.toPCfg (Val := Elt F) (cfgs q)) (defs₀ (F := F)) Variants.none c (ucRefs τ sig) [] [hostOps1]
    tail_sub tail_fresh (Wexit m dats c)) $$ [Hb Ha Hz]
  · isplitl [Hb]; · iexact Hb
    iapply hexit
    isplitl [Ha]; · iexact Ha
    iexact Hz
  iintro Hb
  rw [chain_nil, wp_pure]
  imodintro
  iapply Hk
  icases Hb with ⟨-, H⟩
  iapply hend
  iexact H

/-! ## The run -/

set_option backward.isDefEq.respectTransparency.types false in
set_option maxHeartbeats 2000000 in
/-- Every weakly fair execution of @main terminates without a fault; at the end each window's array holds what the
    proof data computes (the rows unchanged, the result array after its write-backs) and every other unscoped buffer
    what the lines after the region compute from the exit contents. -/
theorem run_main (hA : ∀ c w, (dats 0 c).A w = V m c (arrRef spec0 w))
    (hq0 : ∀ c, (dats 0 c).q 0 = fullShare.left) (hq1 : ∀ c, (dats 0 c).q 1 = fullShare.right)
    (howed : ∀ c t, (dats 0 c).owed t = 0)
    (hbody : ∀ c, BodyObligationLoose (dats 0 c) (defs₀ (F := F)) Variants.none () Set.univ)
    (hin : ∀ c, ΦA spec0 c ⊢ (dats 0 c).Φ 0) (hout : ∀ c, (dats 0 c).Φ (Fin.last cfg0.N) ⊢ ΦA spec0 c) : θ_run (defs (F := F)) (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ restRefsP sig Prefetch.none spec0, r.2.mem ((c.tc : Thread nD τ).loc b) = Wend m dats c (Proc.devRef .tc b)) := by
  classical
  have hcell : Function.Injective (cellOf (nD := nD) (τ := τ) (pin (fun q => Cfg.toPCfg (Val := Elt F) (cfgs q)) (fun q => (cfgs q).toPCfg_adm))) := cellOf_inj
  exact θ_run_region_pf_tail (fun q => Cfg.toPCfg (Val := Elt F) (cfgs q)) (fun q => (cfgs q).toPCfg_adm) dats () hcell (0 : Fin 1) winFacts₀0
    (OwnSemFacts.none spec0) (PreFacts.none _) emb₁ defs₀ Variants.none m ρ main
    (fun _ => chain ([hostOps1].map StableHlo.seq)) hbody
    block_pos0 arr_whole0 stage_whole0 howed
    (G := fun _ => iprop(emp)) (u₀ := initOf (cells (pin (fun q => Cfg.toPCfg (Val := Elt F) (cfgs q)) (fun q => (cfgs q).toPCfg_adm)) hcell) (launchToks (pin (fun q => Cfg.toPCfg (Val := Elt F) (cfgs q)) (fun q => (cfgs q).toPCfg_adm)) hcell))
    (hu₀ := by
      iintro Hu; imodintro
      isplitl [Hu]; · iapply (show (ownU _ : sProp 𝕄) ⊢ BI.own (emb₁ (initOf (cells (pin (fun q => Cfg.toPCfg (Val := Elt F) (cfgs q)) (fun q => (cfgs q).toPCfg_adm)) hcell) (launchToks (pin (fun q => Cfg.toPCfg (Val := Elt F) (cfgs q)) (fun q => (cfgs q).toPCfg_adm)) hcell))) from .rfl); iexact Hu
      iapply (show (BI.emp : sProp 𝕄) ⊢ bigSep Finset.univ (fun _ : Dev nD => (BI.emp : sProp 𝕄)) from by rw [BI.bigSep_emp_const])
      iempintro)
    (V := fun c b => V0 m c (Proc.devRef .tc b)) (hmain := hmain m Variants.none)
    (hsplit := fun c => hsplit m (dats 0 c) (hq0 c) (hq1 c) (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (fun b => V0 m c (Proc.devRef .tc b)))
    (Z' := fun c => unscopedRestP (Ix := Unit) (Name := ℕ) (U := UR sig nD τ) (Lvl := ℕ) Prefetch.none spec0 c (fun b => Wend m dats c (Proc.devRef .tc b)))
    (hX := fun c => by
      iintro ⟨HU, -, -, -, Hp, -⟩; imodintro
      isplitl [Hp]; · iexists _; iexact Hp
      iexact HU)
    (hin := fun c => (show _ ⊢ ΦA spec0 c by
      unfold ΦA; iintro ⟨Hp, Ht, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => htail m dats hA hq0 hq1 c Q')
    (QY := fun c s => ∀ b ∈ restRefsP sig Prefetch.none spec0, s.mem ((c.tc : Thread nD τ).loc b) = Wend m dats c (Proc.devRef .tc b))
    (hY := fun c s' => by
      iintro ⟨-, HU, HSI⟩
      unfold unscopedRestP
      imodintro
      iapply (pointsTo_read_all (restRefsP sig Prefetch.none spec0) (fun b => (c.tc : Thread nD τ).loc b) (fun b => Wend m dats c (Proc.devRef .tc b)) s')
      isplitl [HU] <;> iassumption)
    (hQ := fun s h c => ⟨(h c).1, (h c).2.2⟩)

end Cert.KernelIdeal.Hand

end
-- ==== Proof.KI.Runs.lean ====
/-
  The body run once, symbolically, in each of the six cases the grid meets: first / middle / last column tile, on or
  off the diagonal. In every case the two input tiles are read and handed back; the accumulator is reset (first column
  tile) or read at what the point before left, and the tile's sum is added; at the last column tile the accumulator
  is stored into the output tile. What the stores leave is found by running the body.
-/
import proofs.«113197_j52312701666200_2_alg».proof.Proof.KI.Basics

-- membership in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole staging memrefs in the case of the first column tile, on the diagonal (point 0): the accumulator reset, then the tile's sum less the own-row entry added. The two input tiles are held at their contents and
    handed back as they were; the accumulator may hold anything; the output tile is handed back untouched.
    What the stores leave is found by running the body: the pieces written, last first. -/
noncomputable def kernelRun_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : cond2 i) (hc3 : ¬cond3 i) (hc4 : ¬cond4 i)
    (x0 : Vec F S1024x256 .f32) (x1 : Vec F S1024x256 .f32) :
    Σ' (L2 : List (View.Piece (Elt F) S1024x1 .f32)), { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The body on whole staging memrefs in the case of the first column tile, off the diagonal: the accumulator reset, then the tile's sum added. The two input tiles are held at their contents and
    handed back as they were; the accumulator may hold anything; the output tile is handed back untouched.
    What the stores leave is found by running the body: the pieces written, last first. -/
noncomputable def kernelRun_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : ¬cond2 i) (hc3 : cond3 i) (hc4 : ¬cond4 i)
    (x0 : Vec F S1024x256 .f32) (x1 : Vec F S1024x256 .f32) :
    Σ' (L2 : List (View.Piece (Elt F) S1024x1 .f32)), { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The body on whole staging memrefs in the case of a middle column tile, on the diagonal: the tile's sum less the own-row entry added. The two input tiles are held at their contents and
    handed back as they were; the accumulator holds what the point before left; the output tile is handed back untouched.
    What the stores leave is found by running the body: the pieces written, last first. -/
noncomputable def kernelRun_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : ¬cond4 i)
    (x0 : Vec F S1024x256 .f32) (x1 : Vec F S1024x256 .f32) (xs : Vec F S1024x1 .f32) :
    Σ' (L2 : List (View.Piece (Elt F) S1024x1 .f32)), { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The body on whole staging memrefs in the case of a middle column tile, off the diagonal: the tile's sum added. The two input tiles are held at their contents and
    handed back as they were; the accumulator holds what the point before left; the output tile is handed back untouched.
    What the stores leave is found by running the body: the pieces written, last first. -/
noncomputable def kernelRun_D (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : ¬cond4 i)
    (x0 : Vec F S1024x256 .f32) (x1 : Vec F S1024x256 .f32) (xs : Vec F S1024x1 .f32) :
    Σ' (L2 : List (View.Piece (Elt F) S1024x1 .f32)), { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The body on whole staging memrefs in the case of the last column tile, on the diagonal (point 63): the sum less the own-row entry added, the accumulator stored to the output tile. The two input tiles are held at their contents and
    handed back as they were; the accumulator holds what the point before left; the output tile may hold anything and ends with the body's store written.
    What the stores leave is found by running the body: the pieces written, last first. -/
noncomputable def kernelRun_E (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : cond4 i)
    (x0 : Vec F S1024x256 .f32) (x1 : Vec F S1024x256 .f32) (xs : Vec F S1024x1 .f32) :
    Σ' (L2 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

set_option maxHeartbeats 4000000 in
/-- The body on whole staging memrefs in the case of the last column tile, off the diagonal: the sum added, the accumulator stored to the output tile. The two input tiles are held at their contents and
    handed back as they were; the accumulator holds what the point before left; the output tile may hold anything and ends with the body's store written.
    What the stores leave is found by running the body: the pieces written, last first. -/
noncomputable def kernelRun_G (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : cond4 i)
    (x0 : Vec F S1024x256 .f32) (x1 : Vec F S1024x256 .f32) (xs : Vec F S1024x1 .f32) :
    Σ' (L2 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand

end
-- ==== Proof.KI.Body.lean ====
/-
  The region's proof data and the body's obligation at every grid point, for any float instance.
  After each point the accumulator holds what that point's case leaves in it — the reset value plus the tile's sum at
  the first column tile, the previous contents plus the tile's sum elsewhere — and the output tile's staging buffer
  holds the accumulator where the column tile is the last (the only points that store it and write it back).
  Both input windows read the one array of normalised rows: each holds a half share of it.
-/
import proofs.«113197_j52312701666200_2_alg».proof.Proof.KI.Runs

-- membership in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces this case writes into the accumulator cover it (one or two whole-buffer stores). -/
theorem scover_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : cond2 i) (hc3 : ¬cond3 i) (hc4 : ¬cond4 i)
    (x0 : Vec F S1024x256 .f32) (x1 : Vec F S1024x256 .f32) (y : S1024x1.Idx) :
    ∃ pc ∈ (kernelRun_A c i arg2 harg2 arg3 harg3 arg4 harg4 arg5 harg5 hc1 hc2 hc3 hc4 x0 x1).2.1, y ∈ pc.1.set :=
  View.cover_of_tiledL (kernelRun_A c i arg2 harg2 arg3 harg3 arg4 harg4 arg5 harg5 hc1 hc2 hc3 hc4 x0 x1).2.1 S1024x1.size (by sl_kernel_rfl) y

/-- What this case leaves in the accumulator: its pieces read back. -/
def sout_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : cond2 i) (hc3 : ¬cond3 i) (hc4 : ¬cond4 i)
    (x0 : Vec F S1024x256 .f32) (x1 : Vec F S1024x256 .f32) : Vec F S1024x1 .f32 :=
  VS.read (Elt F) (VS.writes (Elt F) VS.junk (kernelRun_A c i arg2 harg2 arg3 harg3 arg4 harg4 arg5 harg5 hc1 hc2 hc3 hc4 x0 x1).2.1)

/-- What this case leaves in the output tile's staging buffer (nothing: a placeholder no one reads, the window idle here). -/
def out_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : cond2 i) (hc3 : ¬cond3 i) (hc4 : ¬cond4 i)
    (x0 : Vec F S1024x256 .f32) (x1 : Vec F S1024x256 .f32) : Vec F S1024x1 .f32 :=
  VO.read (Elt F) (VO.writes (Elt F) VO.junk (kernelRun_A c i arg2 harg2 arg3 harg3 arg4 harg4 arg5 harg5 hc1 hc2 hc3 hc4 x0 x1).1)

/-- The pieces this case writes into the accumulator cover it (one or two whole-buffer stores). -/
theorem scover_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : ¬cond2 i) (hc3 : cond3 i) (hc4 : ¬cond4 i)
    (x0 : Vec F S1024x256 .f32) (x1 : Vec F S1024x256 .f32) (y : S1024x1.Idx) :
    ∃ pc ∈ (kernelRun_B c i arg2 harg2 arg3 harg3 arg4 harg4 arg5 harg5 hc1 hc2 hc3 hc4 x0 x1).2.1, y ∈ pc.1.set :=
  View.cover_of_tiledL (kernelRun_B c i arg2 harg2 arg3 harg3 arg4 harg4 arg5 harg5 hc1 hc2 hc3 hc4 x0 x1).2.1 S1024x1.size (by sl_kernel_rfl) y

/-- What this case leaves in the accumulator: its pieces read back. -/
def sout_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : ¬cond2 i) (hc3 : cond3 i) (hc4 : ¬cond4 i)
    (x0 : Vec F S1024x256 .f32) (x1 : Vec F S1024x256 .f32) : Vec F S1024x1 .f32 :=
  VS.read (Elt F) (VS.writes (Elt F) VS.junk (kernelRun_B c i arg2 harg2 arg3 harg3 arg4 harg4 arg5 harg5 hc1 hc2 hc3 hc4 x0 x1).2.1)

/-- What this case leaves in the output tile's staging buffer (nothing: a placeholder no one reads, the window idle here). -/
def out_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : ¬cond2 i) (hc3 : cond3 i) (hc4 : ¬cond4 i)
    (x0 : Vec F S1024x256 .f32) (x1 : Vec F S1024x256 .f32) : Vec F S1024x1 .f32 :=
  VO.read (Elt F) (VO.writes (Elt F) VO.junk (kernelRun_B c i arg2 harg2 arg3 harg3 arg4 harg4 arg5 harg5 hc1 hc2 hc3 hc4 x0 x1).1)

/-- The pieces this case writes into the accumulator cover it (one or two whole-buffer stores). -/
theorem scover_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : ¬cond4 i)
    (x0 : Vec F S1024x256 .f32) (x1 : Vec F S1024x256 .f32) (xs : Vec F S1024x1 .f32) (y : S1024x1.Idx) :
    ∃ pc ∈ (kernelRun_C c i arg2 harg2 arg3 harg3 arg4 harg4 arg5 harg5 hc1 hc2 hc3 hc4 x0 x1 xs).2.1, y ∈ pc.1.set :=
  View.cover_of_tiledL (kernelRun_C c i arg2 harg2 arg3 harg3 arg4 harg4 arg5 harg5 hc1 hc2 hc3 hc4 x0 x1 xs).2.1 S1024x1.size (by sl_kernel_rfl) y

/-- What this case leaves in the accumulator: its pieces read back. -/
def sout_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : ¬cond4 i)
    (x0 : Vec F S1024x256 .f32) (x1 : Vec F S1024x256 .f32) (xs : Vec F S1024x1 .f32) : Vec F S1024x1 .f32 :=
  VS.read (Elt F) (VS.writes (Elt F) VS.junk (kernelRun_C c i arg2 harg2 arg3 harg3 arg4 harg4 arg5 harg5 hc1 hc2 hc3 hc4 x0 x1 xs).2.1)

/-- What this case leaves in the output tile's staging buffer (nothing: a placeholder no one reads, the window idle here). -/
def out_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : ¬cond4 i)
    (x0 : Vec F S1024x256 .f32) (x1 : Vec F S1024x256 .f32) (xs : Vec F S1024x1 .f32) : Vec F S1024x1 .f32 :=
  VO.read (Elt F) (VO.writes (Elt F) VO.junk (kernelRun_C c i arg2 harg2 arg3 harg3 arg4 harg4 arg5 harg5 hc1 hc2 hc3 hc4 x0 x1 xs).1)

/-- The pieces this case writes into the accumulator cover it (one or two whole-buffer stores). -/
theorem scover_D (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : ¬cond4 i)
    (x0 : Vec F S1024x256 .f32) (x1 : Vec F S1024x256 .f32) (xs : Vec F S1024x1 .f32) (y : S1024x1.Idx) :
    ∃ pc ∈ (kernelRun_D c i arg2 harg2 arg3 harg3 arg4 harg4 arg5 harg5 hc1 hc2 hc3 hc4 x0 x1 xs).2.1, y ∈ pc.1.set :=
  View.cover_of_tiledL (kernelRun_D c i arg2 harg2 arg3 harg3 arg4 harg4 arg5 harg5 hc1 hc2 hc3 hc4 x0 x1 xs).2.1 S1024x1.size (by sl_kernel_rfl) y

/-- What this case leaves in the accumulator: its pieces read back. -/
def sout_D (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : ¬cond4 i)
    (x0 : Vec F S1024x256 .f32) (x1 : Vec F S1024x256 .f32) (xs : Vec F S1024x1 .f32) : Vec F S1024x1 .f32 :=
  VS.read (Elt F) (VS.writes (Elt F) VS.junk (kernelRun_D c i arg2 harg2 arg3 harg3 arg4 harg4 arg5 harg5 hc1 hc2 hc3 hc4 x0 x1 xs).2.1)

/-- What this case leaves in the output tile's staging buffer (nothing: a placeholder no one reads, the window idle here). -/
def out_D (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : ¬cond4 i)
    (x0 : Vec F S1024x256 .f32) (x1 : Vec F S1024x256 .f32) (xs : Vec F S1024x1 .f32) : Vec F S1024x1 .f32 :=
  VO.read (Elt F) (VO.writes (Elt F) VO.junk (kernelRun_D c i arg2 harg2 arg3 harg3 arg4 harg4 arg5 harg5 hc1 hc2 hc3 hc4 x0 x1 xs).1)

/-- The pieces this case writes into the accumulator cover it (one or two whole-buffer stores). -/
theorem scover_E (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : cond4 i)
    (x0 : Vec F S1024x256 .f32) (x1 : Vec F S1024x256 .f32) (xs : Vec F S1024x1 .f32) (y : S1024x1.Idx) :
    ∃ pc ∈ (kernelRun_E c i arg2 harg2 arg3 harg3 arg4 harg4 arg5 harg5 hc1 hc2 hc3 hc4 x0 x1 xs).2.1, y ∈ pc.1.set :=
  View.cover_of_tiledL (kernelRun_E c i arg2 harg2 arg3 harg3 arg4 harg4 arg5 harg5 hc1 hc2 hc3 hc4 x0 x1 xs).2.1 S1024x1.size (by sl_kernel_rfl) y

/-- What this case leaves in the accumulator: its pieces read back. -/
def sout_E (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : cond4 i)
    (x0 : Vec F S1024x256 .f32) (x1 : Vec F S1024x256 .f32) (xs : Vec F S1024x1 .f32) : Vec F S1024x1 .f32 :=
  VS.read (Elt F) (VS.writes (Elt F) VS.junk (kernelRun_E c i arg2 harg2 arg3 harg3 arg4 harg4 arg5 harg5 hc1 hc2 hc3 hc4 x0 x1 xs).2.1)

/-- What this case leaves in the output tile's staging buffer. -/
def out_E (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : cond4 i)
    (x0 : Vec F S1024x256 .f32) (x1 : Vec F S1024x256 .f32) (xs : Vec F S1024x1 .f32) : Vec F S1024x1 .f32 :=
  VO.read (Elt F) (VO.writes (Elt F) VO.junk (kernelRun_E c i arg2 harg2 arg3 harg3 arg4 harg4 arg5 harg5 hc1 hc2 hc3 hc4 x0 x1 xs).1)

/-- The one whole-buffer store into the output tile covers it. -/
theorem cover_E (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : cond4 i)
    (x0 : Vec F S1024x256 .f32) (x1 : Vec F S1024x256 .f32) (xs : Vec F S1024x1 .f32) (y : S1024x1.Idx) :
    ∃ pc ∈ (kernelRun_E c i arg2 harg2 arg3 harg3 arg4 harg4 arg5 harg5 hc1 hc2 hc3 hc4 x0 x1 xs).1, y ∈ pc.1.set :=
  View.cover_of_tiledL (kernelRun_E c i arg2 harg2 arg3 harg3 arg4 harg4 arg5 harg5 hc1 hc2 hc3 hc4 x0 x1 xs).1 S1024x1.size (by sl_kernel_rfl) y

/-- The pieces this case writes into the accumulator cover it (one or two whole-buffer stores). -/
theorem scover_G (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : cond4 i)
    (x0 : Vec F S1024x256 .f32) (x1 : Vec F S1024x256 .f32) (xs : Vec F S1024x1 .f32) (y : S1024x1.Idx) :
    ∃ pc ∈ (kernelRun_G c i arg2 harg2 arg3 harg3 arg4 harg4 arg5 harg5 hc1 hc2 hc3 hc4 x0 x1 xs).2.1, y ∈ pc.1.set :=
  View.cover_of_tiledL (kernelRun_G c i arg2 harg2 arg3 harg3 arg4 harg4 arg5 harg5 hc1 hc2 hc3 hc4 x0 x1 xs).2.1 S1024x1.size (by sl_kernel_rfl) y

/-- What this case leaves in the accumulator: its pieces read back. -/
def sout_G (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : cond4 i)
    (x0 : Vec F S1024x256 .f32) (x1 : Vec F S1024x256 .f32) (xs : Vec F S1024x1 .f32) : Vec F S1024x1 .f32 :=
  VS.read (Elt F) (VS.writes (Elt F) VS.junk (kernelRun_G c i arg2 harg2 arg3 harg3 arg4 harg4 arg5 harg5 hc1 hc2 hc3 hc4 x0 x1 xs).2.1)

/-- What this case leaves in the output tile's staging buffer. -/
def out_G (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : cond4 i)
    (x0 : Vec F S1024x256 .f32) (x1 : Vec F S1024x256 .f32) (xs : Vec F S1024x1 .f32) : Vec F S1024x1 .f32 :=
  VO.read (Elt F) (VO.writes (Elt F) VO.junk (kernelRun_G c i arg2 harg2 arg3 harg3 arg4 harg4 arg5 harg5 hc1 hc2 hc3 hc4 x0 x1 xs).1)

/-- The one whole-buffer store into the output tile covers it. -/
theorem cover_G (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : cond4 i)
    (x0 : Vec F S1024x256 .f32) (x1 : Vec F S1024x256 .f32) (xs : Vec F S1024x1 .f32) (y : S1024x1.Idx) :
    ∃ pc ∈ (kernelRun_G c i arg2 harg2 arg3 harg3 arg4 harg4 arg5 harg5 hc1 hc2 hc3 hc4 x0 x1 xs).1, y ∈ pc.1.set :=
  View.cover_of_tiledL (kernelRun_G c i arg2 harg2 arg3 harg3 arg4 harg4 arg5 harg5 hc1 hc2 hc3 hc4 x0 x1 xs).1 S1024x1.size (by sl_kernel_rfl) y

/-! ## What the output tile and the accumulator hold after each point -/

/-- THE ACCUMULATION: what the output tile's staging buffer and the accumulator hold after the body at position `n`:
    the case the closed forms select at `n`, run on the point's memrefs and input tiles, the accumulator at what the
    point before left when the case does not reset it. -/
def outsAt (c : Dev nD) : (n : ℕ) → n < cfg0.N → Vec F S1024x1 .f32 × Vec F S1024x1 .f32
  | 0, hn =>
    have h1 : (0 : ℕ) % 8 = 0 := rfl
    have h2 : (0 : ℕ) / 8 = 0 % 8 := rfl
    have h4 : ¬ ((0 : ℕ) % 8 = 7) := by decide
    (out_A c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcond1 ⟨0, hn⟩).mpr h1) ((hcond2 ⟨0, hn⟩).mpr h2) (fun h => ((hcond3 ⟨0, hn⟩).mp h) h2) (fun h => h4 ((hcond4 ⟨0, hn⟩).mp h)) (iblk m c 0 ⟨0, hn⟩) (iblk m c 1 ⟨0, hn⟩), sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcond1 ⟨0, hn⟩).mpr h1) ((hcond2 ⟨0, hn⟩).mpr h2) (fun h => ((hcond3 ⟨0, hn⟩).mp h) h2) (fun h => h4 ((hcond4 ⟨0, hn⟩).mp h)) (iblk m c 0 ⟨0, hn⟩) (iblk m c 1 ⟨0, hn⟩))
  | n + 1, hn =>
    if h1 : (n + 1) % 8 = 0 then
      if h2 : (n + 1) / 8 = (n + 1) % 8 then
        False.elim (by omega)
      else
        have h4 : ¬ ((n + 1) % 8 = 7) := by omega
        (out_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((hcond1 ⟨n + 1, hn⟩).mpr h1) (fun h => h2 ((hcond2 ⟨n + 1, hn⟩).mp h)) ((hcond3 ⟨n + 1, hn⟩).mpr h2) (fun h => h4 ((hcond4 ⟨n + 1, hn⟩).mp h)) (iblk m c 0 ⟨n + 1, hn⟩) (iblk m c 1 ⟨n + 1, hn⟩), sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((hcond1 ⟨n + 1, hn⟩).mpr h1) (fun h => h2 ((hcond2 ⟨n + 1, hn⟩).mp h)) ((hcond3 ⟨n + 1, hn⟩).mpr h2) (fun h => h4 ((hcond4 ⟨n + 1, hn⟩).mp h)) (iblk m c 0 ⟨n + 1, hn⟩) (iblk m c 1 ⟨n + 1, hn⟩))
    else
      if h4 : (n + 1) % 8 = 7 then
        if h2 : (n + 1) / 8 = (n + 1) % 8 then
          (out_E c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h1 ((hcond1 ⟨n + 1, hn⟩).mp h)) ((hcond2 ⟨n + 1, hn⟩).mpr h2) (fun h => ((hcond3 ⟨n + 1, hn⟩).mp h) h2) ((hcond4 ⟨n + 1, hn⟩).mpr h4) (iblk m c 0 ⟨n + 1, hn⟩) (iblk m c 1 ⟨n + 1, hn⟩) (outsAt c n (Nat.lt_of_succ_lt hn)).2, sout_E c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h1 ((hcond1 ⟨n + 1, hn⟩).mp h)) ((hcond2 ⟨n + 1, hn⟩).mpr h2) (fun h => ((hcond3 ⟨n + 1, hn⟩).mp h) h2) ((hcond4 ⟨n + 1, hn⟩).mpr h4) (iblk m c 0 ⟨n + 1, hn⟩) (iblk m c 1 ⟨n + 1, hn⟩) (outsAt c n (Nat.lt_of_succ_lt hn)).2)
        else
          (out_G c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h1 ((hcond1 ⟨n + 1, hn⟩).mp h)) (fun h => h2 ((hcond2 ⟨n + 1, hn⟩).mp h)) ((hcond3 ⟨n + 1, hn⟩).mpr h2) ((hcond4 ⟨n + 1, hn⟩).mpr h4) (iblk m c 0 ⟨n + 1, hn⟩) (iblk m c 1 ⟨n + 1, hn⟩) (outsAt c n (Nat.lt_of_succ_lt hn)).2, sout_G c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h1 ((hcond1 ⟨n + 1, hn⟩).mp h)) (fun h => h2 ((hcond2 ⟨n + 1, hn⟩).mp h)) ((hcond3 ⟨n + 1, hn⟩).mpr h2) ((hcond4 ⟨n + 1, hn⟩).mpr h4) (iblk m c 0 ⟨n + 1, hn⟩) (iblk m c 1 ⟨n + 1, hn⟩) (outsAt c n (Nat.lt_of_succ_lt hn)).2)
      else
        if h2 : (n + 1) / 8 = (n + 1) % 8 then
          (out_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h1 ((hcond1 ⟨n + 1, hn⟩).mp h)) ((hcond2 ⟨n + 1, hn⟩).mpr h2) (fun h => ((hcond3 ⟨n + 1, hn⟩).mp h) h2) (fun h => h4 ((hcond4 ⟨n + 1, hn⟩).mp h)) (iblk m c 0 ⟨n + 1, hn⟩) (iblk m c 1 ⟨n + 1, hn⟩) (outsAt c n (Nat.lt_of_succ_lt hn)).2, sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h1 ((hcond1 ⟨n + 1, hn⟩).mp h)) ((hcond2 ⟨n + 1, hn⟩).mpr h2) (fun h => ((hcond3 ⟨n + 1, hn⟩).mp h) h2) (fun h => h4 ((hcond4 ⟨n + 1, hn⟩).mp h)) (iblk m c 0 ⟨n + 1, hn⟩) (iblk m c 1 ⟨n + 1, hn⟩) (outsAt c n (Nat.lt_of_succ_lt hn)).2)
        else
          (out_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h1 ((hcond1 ⟨n + 1, hn⟩).mp h)) (fun h => h2 ((hcond2 ⟨n + 1, hn⟩).mp h)) ((hcond3 ⟨n + 1, hn⟩).mpr h2) (fun h => h4 ((hcond4 ⟨n + 1, hn⟩).mp h)) (iblk m c 0 ⟨n + 1, hn⟩) (iblk m c 1 ⟨n + 1, hn⟩) (outsAt c n (Nat.lt_of_succ_lt hn)).2, sout_D c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h1 ((hcond1 ⟨n + 1, hn⟩).mp h)) (fun h => h2 ((hcond2 ⟨n + 1, hn⟩).mp h)) ((hcond3 ⟨n + 1, hn⟩).mpr h2) (fun h => h4 ((hcond4 ⟨n + 1, hn⟩).mp h)) (iblk m c 0 ⟨n + 1, hn⟩) (iblk m c 1 ⟨n + 1, hn⟩) (outsAt c n (Nat.lt_of_succ_lt hn)).2)

/-- `outsAt` at a point of this case. -/
theorem outsAt_A (c : Dev nD) (t : Fin cfg0.N) (h1 : (t.val % 8 = 0)) (h2 : (t.val / 8 = t.val % 8)) (h4 : ¬ (t.val % 8 = 7)) :
    outsAt m c t.val t.isLt = (out_A c (grid0.coords t) (ms0 t) (hs0 t) (ms1 t) (hs1 t) (ms2 t) (hs2 t) scM (Memref.isWhole_whole _) ((hcond1 t).mpr h1) ((hcond2 t).mpr h2) (fun h => ((hcond3 t).mp h) h2) (fun h => h4 ((hcond4 t).mp h)) (iblk m c 0 t) (iblk m c 1 t), sout_A c (grid0.coords t) (ms0 t) (hs0 t) (ms1 t) (hs1 t) (ms2 t) (hs2 t) scM (Memref.isWhole_whole _) ((hcond1 t).mpr h1) ((hcond2 t).mpr h2) (fun h => ((hcond3 t).mp h) h2) (fun h => h4 ((hcond4 t).mp h)) (iblk m c 0 t) (iblk m c 1 t)) := by
  obtain ⟨n, hn⟩ := t
  cases n with
  | zero => exact rfl
  | succ n => exact (by exfalso; (try dsimp only at h1 h2 h4); omega)

/-- `outsAt` at a point of this case. -/
theorem outsAt_B (c : Dev nD) (t : Fin cfg0.N) (h1 : (t.val % 8 = 0)) (h2 : ¬ (t.val / 8 = t.val % 8)) (h4 : ¬ (t.val % 8 = 7)) :
    outsAt m c t.val t.isLt = (out_B c (grid0.coords t) (ms0 t) (hs0 t) (ms1 t) (hs1 t) (ms2 t) (hs2 t) scM (Memref.isWhole_whole _) ((hcond1 t).mpr h1) (fun h => h2 ((hcond2 t).mp h)) ((hcond3 t).mpr h2) (fun h => h4 ((hcond4 t).mp h)) (iblk m c 0 t) (iblk m c 1 t), sout_B c (grid0.coords t) (ms0 t) (hs0 t) (ms1 t) (hs1 t) (ms2 t) (hs2 t) scM (Memref.isWhole_whole _) ((hcond1 t).mpr h1) (fun h => h2 ((hcond2 t).mp h)) ((hcond3 t).mpr h2) (fun h => h4 ((hcond4 t).mp h)) (iblk m c 0 t) (iblk m c 1 t)) := by
  obtain ⟨n, hn⟩ := t
  cases n with
  | zero => exact (by exfalso; (try dsimp only at h1 h2 h4); omega)
  | succ n => exact (dif_pos h1).trans ((dif_neg h2).trans rfl)

/-- `outsAt` at a point of this case. -/
theorem outsAt_C (c : Dev nD) (t : Fin cfg0.N) (h1 : ¬ (t.val % 8 = 0)) (h2 : (t.val / 8 = t.val % 8)) (h4 : ¬ (t.val % 8 = 7)) :
    outsAt m c t.val t.isLt = (out_C c (grid0.coords t) (ms0 t) (hs0 t) (ms1 t) (hs1 t) (ms2 t) (hs2 t) scM (Memref.isWhole_whole _) (fun h => h1 ((hcond1 t).mp h)) ((hcond2 t).mpr h2) (fun h => ((hcond3 t).mp h) h2) (fun h => h4 ((hcond4 t).mp h)) (iblk m c 0 t) (iblk m c 1 t) (outsAt m c (t.val - 1) (Nat.lt_of_le_of_lt (Nat.sub_le _ _) t.isLt)).2, sout_C c (grid0.coords t) (ms0 t) (hs0 t) (ms1 t) (hs1 t) (ms2 t) (hs2 t) scM (Memref.isWhole_whole _) (fun h => h1 ((hcond1 t).mp h)) ((hcond2 t).mpr h2) (fun h => ((hcond3 t).mp h) h2) (fun h => h4 ((hcond4 t).mp h)) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h1 h2 h4); omega)
  | succ n => exact (dif_neg h1).trans ((dif_neg h4).trans ((dif_pos h2).trans rfl))

/-- `outsAt` at a point of this case. -/
theorem outsAt_D (c : Dev nD) (t : Fin cfg0.N) (h1 : ¬ (t.val % 8 = 0)) (h2 : ¬ (t.val / 8 = t.val % 8)) (h4 : ¬ (t.val % 8 = 7)) :
    outsAt m c t.val t.isLt = (out_D c (grid0.coords t) (ms0 t) (hs0 t) (ms1 t) (hs1 t) (ms2 t) (hs2 t) scM (Memref.isWhole_whole _) (fun h => h1 ((hcond1 t).mp h)) (fun h => h2 ((hcond2 t).mp h)) ((hcond3 t).mpr h2) (fun h => h4 ((hcond4 t).mp h)) (iblk m c 0 t) (iblk m c 1 t) (outsAt m c (t.val - 1) (Nat.lt_of_le_of_lt (Nat.sub_le _ _) t.isLt)).2, sout_D c (grid0.coords t) (ms0 t) (hs0 t) (ms1 t) (hs1 t) (ms2 t) (hs2 t) scM (Memref.isWhole_whole _) (fun h => h1 ((hcond1 t).mp h)) (fun h => h2 ((hcond2 t).mp h)) ((hcond3 t).mpr h2) (fun h => h4 ((hcond4 t).mp h)) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h1 h2 h4); omega)
  | succ n => exact (dif_neg h1).trans ((dif_neg h4).trans ((dif_neg h2).trans rfl))

/-- `outsAt` at a point of this case. -/
theorem outsAt_E (c : Dev nD) (t : Fin cfg0.N) (h1 : ¬ (t.val % 8 = 0)) (h2 : (t.val / 8 = t.val % 8)) (h4 : (t.val % 8 = 7)) :
    outsAt m c t.val t.isLt = (out_E c (grid0.coords t) (ms0 t) (hs0 t) (ms1 t) (hs1 t) (ms2 t) (hs2 t) scM (Memref.isWhole_whole _) (fun h => h1 ((hcond1 t).mp h)) ((hcond2 t).mpr h2) (fun h => ((hcond3 t).mp h) h2) ((hcond4 t).mpr h4) (iblk m c 0 t) (iblk m c 1 t) (outsAt m c (t.val - 1) (Nat.lt_of_le_of_lt (Nat.sub_le _ _) t.isLt)).2, sout_E c (grid0.coords t) (ms0 t) (hs0 t) (ms1 t) (hs1 t) (ms2 t) (hs2 t) scM (Memref.isWhole_whole _) (fun h => h1 ((hcond1 t).mp h)) ((hcond2 t).mpr h2) (fun h => ((hcond3 t).mp h) h2) ((hcond4 t).mpr h4) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h1 h2 h4); omega)
  | succ n => exact (dif_neg h1).trans ((dif_pos h4).trans ((dif_pos h2).trans rfl))

/-- `outsAt` at a point of this case. -/
theorem outsAt_G (c : Dev nD) (t : Fin cfg0.N) (h1 : ¬ (t.val % 8 = 0)) (h2 : ¬ (t.val / 8 = t.val % 8)) (h4 : (t.val % 8 = 7)) :
    outsAt m c t.val t.isLt = (out_G c (grid0.coords t) (ms0 t) (hs0 t) (ms1 t) (hs1 t) (ms2 t) (hs2 t) scM (Memref.isWhole_whole _) (fun h => h1 ((hcond1 t).mp h)) (fun h => h2 ((hcond2 t).mp h)) ((hcond3 t).mpr h2) ((hcond4 t).mpr h4) (iblk m c 0 t) (iblk m c 1 t) (outsAt m c (t.val - 1) (Nat.lt_of_le_of_lt (Nat.sub_le _ _) t.isLt)).2, sout_G c (grid0.coords t) (ms0 t) (hs0 t) (ms1 t) (hs1 t) (ms2 t) (hs2 t) scM (Memref.isWhole_whole _) (fun h => h1 ((hcond1 t).mp h)) (fun h => h2 ((hcond2 t).mp h)) ((hcond3 t).mpr h2) ((hcond4 t).mpr h4) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h1 h2 h4); omega)
  | succ n => exact (dif_neg h1).trans ((dif_pos h4).trans ((dif_neg h2).trans rfl))

/-! ## The invariant: the accumulator carried from point to point -/

/-- Before position `n`: at the first point the accumulator at anything; afterwards at what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The arrays as the region finds them; after the body each input tile's buffer at its block and the output tile's at
    `outsAt`; the invariant `PhiS`; nothing owed; the two readers of the rows' array hold its two half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]

/-- Each input tile's current staging buffer holds its block at every point, fetched there or not (the row tile is
    fetched only when the row tile changes; unfetched, its index has not moved). -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
/-- The body at any point: the input tiles' buffers hold their blocks; the closed forms say which case the point is in;
    the invariant hands the body the accumulator at what the point before left (at anything at the first point) and
    takes it back at this point's contents; the output tile is handed back untouched where it is idle. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [liveAt0 t], after_0]
  rw [show (dats m 0 c).leavesExact 1 t = owns (c : Thread nD τ) (ms1 t) fullShare ((dats m 0 c).after 1 t) from by
    unfold Dat.leavesExact; rw [liveAt1 t], after_1]
  by_cases h1 : t.val % 8 = 0
  · have h4 : ¬ (t.val % 8 = 7) := by omega
    by_cases h2 : t.val / 8 = t.val % 8
    · rw [Dat.leavesExact_idle (dats m 0 c) 2 t (idleAt2 t (fun h => h4 ((hcond4 t).mp h))) (noFlush2 t (fun h => h4 ((hcond4 t).mp h)))]
      rw [outsAt_A m c t h1 h2 h4]
      unfold sout_A; (try dsimp only)
      have hz : t.val = 0 := by omega
      rw [PhiS_castSucc m c t, PhiS_zero m c _ _ hz, PhiA_eq]
      iintro ⟨⟨HS, Hg⟩, Ho, ⟨%d0, H0⟩, ⟨%d1, H1⟩, ⟨%d2, H2⟩⟩
      iapply ((kernelRun_A c (grid0.coords t) _ _ _ _ _ _ _ _ ((hcond1 t).mpr h1) ((hcond2 t).mpr h2) (fun h => ((hcond3 t).mp h) h2) (fun h => h4 ((hcond4 t).mp h)) (iblk m c 0 t) (iblk m c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (scover_A c _ _ _ _ _ _ _ _ _ _ _ _ _ _ _)
        iexact Hg
      isplitl [Ho]; · iexact Ho
      isplitl [H0]; · iexact H0
      isplitl [H1]; · iexact H1
      iexists _; iexact H2
    · rw [Dat.leavesExact_idle (dats m 0 c) 2 t (idleAt2 t (fun h => h4 ((hcond4 t).mp h))) (noFlush2 t (fun h => h4 ((hcond4 t).mp h)))]
      rw [outsAt_B m c t h1 h2 h4]
      unfold sout_B; (try dsimp only)
      have hz : t.val ≠ 0 := by omega
      rw [PhiS_castSucc m c t, PhiS_pos m c _ _ hz]
      iintro ⟨⟨HS, Hg⟩, Ho, ⟨%d0, H0⟩, ⟨%d1, H1⟩, ⟨%d2, H2⟩⟩
      iapply ((kernelRun_B c (grid0.coords t) _ _ _ _ _ _ _ _ ((hcond1 t).mpr h1) (fun h => h2 ((hcond2 t).mp h)) ((hcond3 t).mpr h2) (fun h => h4 ((hcond4 t).mp h)) (iblk m c 0 t) (iblk m c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (scover_B c _ _ _ _ _ _ _ _ _ _ _ _ _ _ _)
        iexact Hg
      isplitl [Ho]; · iexact Ho
      isplitl [H0]; · iexact H0
      isplitl [H1]; · iexact H1
      iexists _; iexact H2
  · by_cases h4 : t.val % 8 = 7
    · by_cases h2 : t.val / 8 = t.val % 8
      · rw [show (dats m 0 c).leavesExact 2 t = owns (c : Thread nD τ) (ms2 t) fullShare ((dats m 0 c).after 2 t) from by
          unfold Dat.leavesExact; rw [liveAt2 t ((hcond4 t).mpr h4)], after_2]
        rw [outsAt_E m c t h1 h2 h4]
        unfold sout_E out_E; (try dsimp only)
        have hz : t.val ≠ 0 := by omega
        rw [PhiS_castSucc m c t, PhiS_pos m c _ _ hz]
        iintro ⟨⟨HS, Hg⟩, Ho, ⟨%d0, H0⟩, ⟨%d1, H1⟩, ⟨%d2, H2⟩⟩
        iapply ((kernelRun_E c (grid0.coords t) _ _ _ _ _ _ _ _ (fun h => h1 ((hcond1 t).mp h)) ((hcond2 t).mpr h2) (fun h => ((hcond3 t).mp h) h2) ((hcond4 t).mpr h4) (iblk m c 0 t) (iblk m c 1 t) _).2.2 Set.univ _)
        isplitl [H0]; · iexact H0
        isplitl [H1]; · iexact H1
        isplitl [H2]; · iexists _; iexact H2
        isplitl [HS]; · iexact HS
        iintro ⟨H0, H1, ⟨%e2, H2⟩, ⟨%es, HS⟩⟩
        isplitl [HS Hg]
        · isplitl [HS]
          · unfold owns; iexists _; isplitr
            swap; · iexact HS
            ipureintro; exact View.read_writes_of_cover _ _ _ _ _ (scover_E c _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover_E c _ _ _ _ _ _ _ _ _ _ _ _ _ _ _ _)
      · rw [show (dats m 0 c).leavesExact 2 t = owns (c : Thread nD τ) (ms2 t) fullShare ((dats m 0 c).after 2 t) from by
          unfold Dat.leavesExact; rw [liveAt2 t ((hcond4 t).mpr h4)], after_2]
        rw [outsAt_G m c t h1 h2 h4]
        unfold sout_G out_G; (try dsimp only)
        have hz : t.val ≠ 0 := by omega
        rw [PhiS_castSucc m c t, PhiS_pos m c _ _ hz]
        iintro ⟨⟨HS, Hg⟩, Ho, ⟨%d0, H0⟩, ⟨%d1, H1⟩, ⟨%d2, H2⟩⟩
        iapply ((kernelRun_G c (grid0.coords t) _ _ _ _ _ _ _ _ (fun h => h1 ((hcond1 t).mp h)) (fun h => h2 ((hcond2 t).mp h)) ((hcond3 t).mpr h2) ((hcond4 t).mpr h4) (iblk m c 0 t) (iblk m c 1 t) _).2.2 Set.univ _)
        isplitl [H0]; · iexact H0
        isplitl [H1]; · iexact H1
        isplitl [H2]; · iexists _; iexact H2
        isplitl [HS]; · iexact HS
        iintro ⟨H0, H1, ⟨%e2, H2⟩, ⟨%es, HS⟩⟩
        isplitl [HS Hg]
        · isplitl [HS]
          · unfold owns; iexists _; isplitr
            swap; · iexact HS
            ipureintro; exact View.read_writes_of_cover _ _ _ _ _ (scover_G c _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover_G c _ _ _ _ _ _ _ _ _ _ _ _ _ _ _ _)
    · by_cases h2 : t.val / 8 = t.val % 8
      · rw [Dat.leavesExact_idle (dats m 0 c) 2 t (idleAt2 t (fun h => h4 ((hcond4 t).mp h))) (noFlush2 t (fun h => h4 ((hcond4 t).mp h)))]
        rw [outsAt_C m c t h1 h2 h4]
        unfold sout_C; (try dsimp only)
        have hz : t.val ≠ 0 := by omega
        rw [PhiS_castSucc m c t, PhiS_pos m c _ _ hz]
        iintro ⟨⟨HS, Hg⟩, Ho, ⟨%d0, H0⟩, ⟨%d1, H1⟩, ⟨%d2, H2⟩⟩
        iapply ((kernelRun_C c (grid0.coords t) _ _ _ _ _ _ _ _ (fun h => h1 ((hcond1 t).mp h)) ((hcond2 t).mpr h2) (fun h => ((hcond3 t).mp h) h2) (fun h => h4 ((hcond4 t).mp h)) (iblk m c 0 t) (iblk m c 1 t) _).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (scover_C c _ _ _ _ _ _ _ _ _ _ _ _ _ _ _ _)
          iexact Hg
        isplitl [Ho]; · iexact Ho
        isplitl [H0]; · iexact H0
        isplitl [H1]; · iexact H1
        iexists _; iexact H2
      · rw [Dat.leavesExact_idle (dats m 0 c) 2 t (idleAt2 t (fun h => h4 ((hcond4 t).mp h))) (noFlush2 t (fun h => h4 ((hcond4 t).mp h)))]
        rw [outsAt_D m c t h1 h2 h4]
        unfold sout_D; (try dsimp only)
        have hz : t.val ≠ 0 := by omega
        rw [PhiS_castSucc m c t, PhiS_pos m c _ _ hz]
        iintro ⟨⟨HS, Hg⟩, Ho, ⟨%d0, H0⟩, ⟨%d1, H1⟩, ⟨%d2, H2⟩⟩
        iapply ((kernelRun_D c (grid0.coords t) _ _ _ _ _ _ _ _ (fun h => h1 ((hcond1 t).mp h)) (fun h => h2 ((hcond2 t).mp h)) ((hcond3 t).mpr h2) (fun h => h4 ((hcond4 t).mp h)) (iblk m c 0 t) (iblk m c 1 t) _).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (scover_D c _ _ _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back at some contents. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

end Cert.KernelIdeal.Hand

end
-- ==== Proof.KI.Frame.lean ====
/-
  The kernel program's frame, for any float instance: every weakly fair execution of @main terminates without a
  fault and leaves the two argument arrays as it found them.

  An argument array is no window's array and is not scoped, so the run's post speaks of it: at the end it holds what
  the lines after the region make of the contents the region was left with. Those lines do not write it, the region's
  write-backs touch the result array only, and the lines before the region do not write it either: it holds what the
  initial memory held.
-/
import proofs.«113197_j52312701666200_2_alg».proof.Proof.KI.Launch
import proofs.«113197_j52312701666200_2_alg».proof.Proof.KI.Body

-- membership in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

open Idealize.ShloMosaic.Pipeline

/-! ## Which buffers the run's post speaks of -/

/-- An unscoped buffer that is no window's array is among the buffers that bypass the region. -/
theorem mem_rest (b : Ref sig .tc) (hs : b.isScoped = false) (ha : ∀ w : Fin 3, (spec0 w).arr.view.ref ≠ b) :
    b ∈ restRefsP sig Prefetch.none spec0 :=
  Finset.mem_sdiff.mpr ⟨mem_restRefs_of b hs ha, fun h => (Finset.mem_image.mp h).elim fun k _ => k.elim0⟩

theorem mem_rest_arg0 : main_arg0 ∈ restRefsP sig Prefetch.none spec0 := mem_rest main_arg0 rfl (by decide)
theorem mem_rest_arg1 : main_arg1 ∈ restRefsP sig Prefetch.none spec0 := mem_rest main_arg1 rfl (by decide)
theorem mem_rest_v18 : main_v18 ∈ restRefsP sig Prefetch.none spec0 := mem_rest main_v18 rfl (by decide)

/-! ## The arguments through the lines before the region -/

/-- The lines before the region leave the first argument as the initial memory has it, -/
theorem entry_arg0 (c : Dev nD) : V m c main_arg0 = m ((c.tc : Thread nD τ).loc main_arg0) := by
  show StableHlo.after (List.flatten [hostOps0, hostOps0_1, hostOps0_2]) (fun b => m (c, b)) (Proc.devRef .tc main_arg0) = _
  simp only [hostOps0, hostOps0_1, hostOps0_2, List.flatten_cons, List.flatten_nil, List.append_nil, List.cons_append,
    List.nil_append]
  after_results
  try rfl

/-- and the second. -/
theorem entry_arg1 (c : Dev nD) : V m c main_arg1 = m ((c.tc : Thread nD τ).loc main_arg1) := by
  show StableHlo.after (List.flatten [hostOps0, hostOps0_1, hostOps0_2]) (fun b => m (c, b)) (Proc.devRef .tc main_arg1) = _
  simp only [hostOps0, hostOps0_1, hostOps0_2, List.flatten_cons, List.flatten_nil, List.append_nil, List.cons_append,
    List.nil_append]
  after_results
  try rfl

/-! ## The arguments at the end -/

section AnyData

variable (dd : (p : Fin 1) → (c : Dev nD) → Dat τ (Elt F) Unit ℕ (UR sig nD τ) ℕ (cfgs p) c)

/-- After the lines that follow the region the first argument holds what the initial memory held, whatever the
    region's proof data: neither those lines nor the write-backs nor the lines before the region write it. -/
theorem end_arg0 (c : Dev nD) : Wend m dd c (Proc.devRef .tc main_arg0) = m ((c.tc : Thread nD τ).loc main_arg0) :=
  (Wend_keeps m dd c main_arg0 (.inr (.inr (.inl rfl)))).trans
    ((Wexit_of_ne m dd c main_arg0 (by decide)).trans (entry_arg0 m c))

theorem end_arg1 (c : Dev nD) : Wend m dd c (Proc.devRef .tc main_arg1) = m ((c.tc : Thread nD τ).loc main_arg1) :=
  (Wend_keeps m dd c main_arg1 (.inr (.inr (.inr rfl)))).trans
    ((Wexit_of_ne m dd c main_arg1 (by decide)).trans (entry_arg1 m c))

end AnyData

/-! ## The frame -/

/-- The region's run with the proof data the body's run provides. -/
theorem run_with_body : θ_run (defs (F := F)) (onTc (τ := τ) (main (F := F))) (s₀ m ρ) (fun r => ∀ c : Dev nD,
      (∀ w, r.2.mem ((spec0 w).arr.view.loc (c.tc : Thread nD τ)) = (dats (F := F) m 0 c).arrAt w cfg0.N)
      ∧ ∀ b ∈ restRefsP sig Prefetch.none spec0, r.2.mem ((c.tc : Thread nD τ).loc b) = Wend m (dats (F := F) m) c (Proc.devRef .tc b)) :=
  run_main m ρ (dats (F := F) m) (A_eq m) (fun _ => rfl) (fun _ => rfl) (fun _ _ => rfl)
    (fun c => (body_obligation m c).loose) (hin m) (hout m)

/-- Every weakly fair execution of @main terminates without a fault, the two argument arrays unchanged. -/
theorem frame_any : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c =>
      ⟨((h c).2 main_arg0 mem_rest_arg0).trans (end_arg0 m (dats (F := F) m) c),
       ((h c).2 main_arg1 mem_rest_arg1).trans (end_arg1 m (dats (F := F) m) c)⟩)
    (run_with_body m ρ)

end Cert.KernelIdeal.Hand

end
-- ==== Proof.KI.Blocks.lean ====
/-
  The windows' blocks of the kernel's one region read at coordinates, for any float instance.

  Point t of the 8 × 8 grid is row tile t / 8 against column tile t % 8. The row window's block at t is rows
  1024 (t / 8) … 1024 (t / 8) + 1023 of the array of normalised rows, the column window's block is rows
  1024 (t % 8) … 1024 (t % 8) + 1023 of the same array, and the output window's block is rows
  1024 (t / 8) … 1024 (t / 8) + 1023 of the one-column output array. A block's coordinate on an axis is always
  the block index times the block's extent plus the coordinate inside the block; the block indices are decided
  once over the grid. Every row of the output array lies in the block of the last point of its row tile, the one
  point of that tile that writes back.
-/
import proofs.«113197_j52312701666200_2_alg».proof.Proof.KI.Basics
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block indices over the grid -/

/-- The three windows' block indices at point t: the row tile t / 8 for the row window and the output window,
    the column tile t % 8 for the column window; the second axis has one block. -/
theorem blk_index : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

theorem point_lt (t : Fin cfg0.N) : t.val < 64 := lt_of_lt_of_eq t.isLt N_0

/-! ## The input windows' blocks -/

/-- The column window's block at point t is rows 1024 (t % 8) + r of the normalised rows. -/
theorem iblk1_apply (c : Dev nD) (t : Fin cfg0.N) (r : Fin 1024) (k : Fin 256) :
    (iblk m c 1 t : S1024x256.Idx → Elt F .f32) (ix2 r k)
      = (V m c main_v5 : S8192x256.Idx → Elt F .f32)
          (ix2 ⟨1024 * (t.val % 8) + r.val, by have := r.isLt; omega⟩ k) := by
  obtain ⟨_, _, e0, e1, _, _⟩ := blk_index t
  unfold iblk
  rw [View.read_apply]
  show V m c main_v5 _ = V m c main_v5 _
  congr 1
  funext a
  apply Fin.ext
  match a with
  | ⟨0, _⟩ => show win0_1.index t (0 : Fin 2) * 1024 + 1 * r.val = 1024 * (t.val % 8) + r.val; rw [e0]; omega
  | ⟨1, _⟩ => show win0_1.index t (1 : Fin 2) * 256 + 1 * k.val = k.val; rw [e1]; omega

/-- The row window's block at point t is rows 1024 (t / 8) + r of the normalised rows. -/
theorem iblk0_apply (c : Dev nD) (t : Fin cfg0.N) (r : Fin 1024) (k : Fin 256) :
    (iblk m c 0 t : S1024x256.Idx → Elt F .f32) (ix2 r k)
      = (V m c main_v5 : S8192x256.Idx → Elt F .f32)
          (ix2 ⟨1024 * (t.val / 8) + r.val, by have := r.isLt; have := point_lt t; omega⟩ k) := by
  obtain ⟨e0, e1, _, _, _, _⟩ := blk_index t
  unfold iblk
  rw [View.read_apply]
  show V m c main_v5 _ = V m c main_v5 _
  congr 1
  funext a
  apply Fin.ext
  match a with
  | ⟨0, _⟩ => show win0_0.index t (0 : Fin 2) * 1024 + 1 * r.val = 1024 * (t.val / 8) + r.val; rw [e0]; omega
  | ⟨1, _⟩ => show win0_0.index t (1 : Fin 2) * 256 + 1 * k.val = k.val; rw [e1]; omega

/-! ## The output window's blocks -/

/-- Where block t of the output array sits: its row y is row 1024 (t / 8) + y of the array. -/
theorem oblk_emb (t : Fin cfg0.N) (y : S1024x1.Idx) :
    (((cfg0.win 2).blk t).view.emb y : S8192x1.Idx)
      = ix2 ⟨1024 * (t.val / 8) + (y 0).val, by have := idx2_lt0 y; have := point_lt t; omega⟩ (0 : Fin 1) := by
  obtain ⟨_, _, _, _, e0, e1⟩ := blk_index t
  funext a
  apply Fin.ext
  match a with
  | ⟨0, _⟩ => show win0_2.index t (0 : Fin 2) * 1024 + 1 * (y 0).val = 1024 * (t.val / 8) + (y 0).val; rw [e0]; omega
  | ⟨1, _⟩ => show win0_2.index t (1 : Fin 2) * 1 + 1 * (y 1).val = 0; have := idx2_lt1 y; rw [e1]; omega

/-- An index of the output array is in point t's block iff each coordinate is in the block's range on its axis. -/
theorem mem_oblk (t : Fin cfg0.N) (i : S8192x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v6).slice (win0_2.rect t)).set ↔ _
  rw [View.set_slice_whole, Rect.mem_set_unit]
  exact Iff.rfl

/-- A row of the output array lies in the block of every point of its row tile. -/
theorem mem_oblk_of_tile (t : Fin cfg0.N) (i : S8192x1.Idx) (h : t.val / 8 = (i 0).val / 1024) :
    i ∈ ((cfg0.win 2).blk t).view.set := by
  rw [mem_oblk]
  obtain ⟨_, _, _, _, e0, e1⟩ := blk_index t
  have h0 := idx2_lt0 i
  have h1 := idx2_lt1 i
  intro a
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * 1 ≤ (i 1).val ∧ (i 1).val < win0_2.index t (1 : Fin 2) * 1 + 1
    rw [e1]; omega

/-- The last point of row R's row tile: the one point of that tile that writes back. -/
def rowPt (R : Fin 8192) : Fin cfg0.N :=
  ⟨8 * (R.val / 1024) + 7, by have := R.isLt; rw [show cfg0.N = 64 from N_0]; omega⟩

theorem rowPt_val (R : Fin 8192) : (rowPt R).val = 8 * (R.val / 1024) + 7 := rfl
theorem rowPt_div (R : Fin 8192) : (rowPt R).val / 8 = R.val / 1024 := by rw [rowPt_val]; omega
theorem rowPt_mod (R : Fin 8192) : (rowPt R).val % 8 = 7 := by rw [rowPt_val]; omega

/-- That point writes the output window back, -/
theorem flush_rowPt (R : Fin 8192) : (cfg0.win 2).flush (rowPt R) = true := (flush0_2 _).mpr (rowPt_mod R)

/-- and row R of the output array is in its block. -/
theorem mem_oblk_rowPt (i : S8192x1.Idx) : i ∈ ((cfg0.win 2).blk (rowPt (i 0))).view.set :=
  mem_oblk_of_tile _ i (rowPt_div (i 0))

/-- The blocks written back cover the output array. -/
theorem oblk_cover (i : S8192x1.Idx) :
    ∃ t : Fin cfg0.N, (cfg0.win 2).flush t = true ∧ i ∈ ((cfg0.win 2).blk t).view.set :=
  ⟨rowPt (i 0), flush_rowPt (i 0), mem_oblk_rowPt i⟩

/-- Row R of the output array is row R % 1024 of the block of the last point of its row tile. -/
theorem oblk_emb_rowPt (R : Fin 8192) :
    (((cfg0.win 2).blk (rowPt R)).view.emb (ix2 ⟨R.val % 1024, by omega⟩ (0 : Fin 1)) : S8192x1.Idx)
      = ix2 R (0 : Fin 1) := by
  rw [oblk_emb]
  congr 1
  apply Fin.ext
  show 1024 * ((rowPt R).val / 8) + R.val % 1024 = R.val
  rw [rowPt_div]; omega

end Cert.KernelIdeal.Hand

end
-- ==== Proof.LossSpec.lean ====
/-
  The contrastive loss that both programs compute, written index by index over the extended reals.

  The rows: `z` is the two argument arrays stacked (8192 rows of 256), `zn` its rows divided by
  `max (‖row‖) ε`. The similarity of rows `r` and `c` is their inner product `sim zn r c`. Row `r`'s
  denominator is the sum over the OTHER rows `c ≠ r` of `exp (sim r c / ½)`; its positive pair is the row
  4096 away. The result is the mean over the rows of `log denom − pos / ½`.

  Two arrangements of that one number are stated here. The first (`…K`) accumulates the denominator tile by tile
  (eight tiles of 1024 columns, the own-row entry struck out in the tile that holds it), scales the similarity by
  the product with `2`, and takes the positive pair as the inner product of the row's lower and upper copies. The
  second (`…R`) sums all 8192 columns at once, scales by the quotient by `½`, reads the positive pair off the
  similarity matrix 4096 off the diagonal, and writes the row's loss as `−log (exp (pos / ½) / denom)`.
  That the two agree (when every entry of `zn` is a real number) is proved elsewhere; here are only the definitions.
-/
import Idealize.ShloMosaic.PureOps.Ideal
import Idealize.ShloMosaic.Lib.ValueIdx

noncomputable section

open scoped BigOperators

namespace Cert.LossSpec

open Idealize.ShloMosaic Idealize.ShloMosaic.ValueIdx

/-- 8192 rows of 256. -/
abbrev Rows : Shape := ⟨2, ![8192, 256]⟩
/-- 4096 rows of 256: one argument array. -/
abbrev Half : Shape := ⟨2, ![4096, 256]⟩

/-- The float words the programs spell, as extended reals: 0, 2, ½, 8192 and the norm's floor ε (the f32 nearest 1e-8). -/
def zero : EReal := Ideal.ofBits .f32 0x00000000#32
def two : EReal := Ideal.ofBits .f32 0x40000000#32
def half : EReal := Ideal.ofBits .f32 0x3F000000#32
def count : EReal := Ideal.ofBits .f32 0x46000000#32
def eps : EReal := Ideal.ofBits .f32 0x322BCC77#32

/-! ## The normalised rows -/

/-- The two argument arrays stacked along the rows. -/
def stack (a b : Half.Idx → EReal) : Rows.Idx → EReal := fun i =>
  if h : (i 0).val < 4096 then a (ix2 ⟨(i 0).val, h⟩ (i 1))
  else b (ix2 ⟨(i 0).val - 4096, by have := idx2_lt0 i; omega⟩ (i 1))

/-- A row's sum of squares (from the initial value 0). -/
def normSq (z : Rows.Idx → EReal) (r : Fin 8192) : EReal := zero + ∑ k : Fin 256, z (ix2 r k) * z (ix2 r k)

/-- Each row divided by `max ‖row‖ ε`. -/
def znOf (z : Rows.Idx → EReal) : Rows.Idx → EReal := fun i =>
  Ideal.div (z i) (max (Ideal.sqrt (normSq z (i 0))) eps)

/-! ## Similarities -/

/-- The inner product of rows `r` and `c`. -/
def sim (zn : Rows.Idx → EReal) (r c : Fin 8192) : EReal := ∑ k : Fin 256, zn (ix2 r k) * zn (ix2 c k)

/-- Column `c'` of tile `j`. -/
def col (j : Fin 8) (c' : Fin 1024) : Fin 8192 := ⟨1024 * j.val + c'.val, by have := j.isLt; have := c'.isLt; omega⟩
/-- The row's copy in the lower half, in the upper half, and the row 4096 away. -/
def lo (r : Fin 8192) : Fin 8192 := ⟨r.val % 4096, by omega⟩
def hi (r : Fin 8192) : Fin 8192 := ⟨r.val % 4096 + 4096, by omega⟩
def partner (r : Fin 8192) : Fin 8192 := ⟨(r.val + 4096) % 8192, by omega⟩

/-! ## The tile-by-tile arrangement -/

/-- Tile `j`'s contribution to row `r`: its 1024 columns' `exp (2 · sim)`, the row's own column struck out. -/
def tileSum (zn : Rows.Idx → EReal) (r : Fin 8192) (j : Fin 8) : EReal :=
  ∑ c' : Fin 1024, if col j c' = r then zero else Ideal.exp (sim zn r (col j c') * two)

/-- The accumulator after the first `n` tiles, from 0. -/
def accK (zn : Rows.Idx → EReal) (r : Fin 8192) : ℕ → EReal
  | 0 => zero
  | n + 1 => if h : n < 8 then accK zn r n + tileSum zn r ⟨n, h⟩ else accK zn r n

def denomK (zn : Rows.Idx → EReal) (r : Fin 8192) : EReal := accK zn r 8

/-- The positive pair: the inner product of the row's lower and upper copies (from the initial value 0). -/
def posK (zn : Rows.Idx → EReal) (r : Fin 8192) : EReal := zero + ∑ k : Fin 256, zn (ix2 (lo r) k) * zn (ix2 (hi r) k)

/-- The mean of `log den − pos / ½` over the rows, for any denominators. -/
def resultOf (zn : Rows.Idx → EReal) (den : Fin 8192 → EReal) : EReal :=
  Ideal.div (zero + ∑ r : Fin 8192, (Ideal.log (den r) - Ideal.div (posK zn r) half)) count

def resultK (zn : Rows.Idx → EReal) : EReal := resultOf zn (denomK zn)

/-! ## The all-at-once arrangement -/

def denomR (zn : Rows.Idx → EReal) (r : Fin 8192) : EReal :=
  zero + ∑ c : Fin 8192, if r = c then zero else Ideal.exp (Ideal.div (sim zn r c) half)

def posR (zn : Rows.Idx → EReal) (r : Fin 8192) : EReal := sim zn r (partner r)

def lossR (zn : Rows.Idx → EReal) (r : Fin 8192) : EReal :=
  -(Ideal.log (Ideal.div (Ideal.exp (Ideal.div (posR zn r) half)) (denomR zn r)))

def resultR (zn : Rows.Idx → EReal) : EReal := Ideal.div (zero + ∑ r : Fin 8192, lossR zn r) count

end Cert.LossSpec

end
-- ==== Proof.PayloadsAt.lean ====
/-
  The kernel body's arithmetic read at an index, over the extended reals: what each of the body's four stored
  values is at a row `r` (and a column `c`) of its tile, as a function of the row tile `x0`, the column tile `x1`
  and the accumulator column `acc`.

  * the first store is the zero column;
  * the tile of exponentials is `exp (⟨x0 row r, x1 row c⟩ · 2)`: the matrix product of `x0` with the transpose of
    `x1`, into a zero accumulator, times the word 2, exponentiated entry by entry;
  * on a diagonal tile the row's own column (`c = r`) is replaced by 0 before the row is summed and added to the
    accumulator;
  * off the diagonal the whole row is summed and added to the accumulator.
-/
import proofs.«113197_j52312701666200_2_alg».proof.Proof.Gen.KernelIdeal.Skeleton
import proofs.«113197_j52312701666200_2_alg».proof.Proof.LossSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.PayloadsAt

open Cert.KernelIdeal Cert.KernelIdeal.Gen Idealize.ShloMosaic Idealize.ShloMosaic.ValueIdx

/-! ## The matrix product at an index -/

/-- The body's one contraction: rows of a 1024×256 matrix against columns of a 256×1024 matrix. -/
abbrev D : DotDims S1024x256 S256x1024 S1024x1024 := dot_S1024x256_S256x1024_S1024x1024_1_0_0_1_n_n

/-- The left operand is read at the output's row … -/
theorem lhs_0 (i : S1024x1024.Idx) (q : D.contr.Idx) : (D.lhsIdx i q 0).val = (i 0).val := by
  unfold DotDims.lhsIdx
  rw [dif_neg (show ¬(0 : Fin S1024x256.rank) ∈ D.lhsBatch by decide),
    dif_pos (show (0 : Fin S1024x256.rank) ∈ D.lhsNonContracting by decide)]
  rfl
/-- … and the contraction position; -/
theorem lhs_1 (i : S1024x1024.Idx) (q : D.contr.Idx) : (D.lhsIdx i q 1).val = (q ⟨0, by decide⟩).val :=
  D.lhsIdx_val_of_single rfl i q
/-- the right operand at the contraction position … -/
theorem rhs_0 (i : S1024x1024.Idx) (q : D.contr.Idx) : (D.rhsIdx i q 0).val = (q ⟨0, by decide⟩).val :=
  D.rhsIdx_val_of_single rfl i q
/-- … and the output's column. -/
theorem rhs_1 (i : S1024x1024.Idx) (q : D.contr.Idx) : (D.rhsIdx i q 1).val = (i 1).val := by
  unfold DotDims.rhsIdx
  rw [dif_neg (show ¬(1 : Fin S256x1024.rank) ∈ D.rhsBatch by decide),
    dif_pos (show (1 : Fin S256x1024.rank) ∈ D.rhsNonContracting by decide)]
  rfl

/-- The product into a zero accumulator, at row `r` and column `c`, is the sum over the 256 contraction positions
of the products of the operands' entries. -/
theorem matmul_at (A : FVec Ideal S1024x256 .f32) (B : FVec Ideal S256x1024 .f32) (r c : Fin 1024) :
    FloatOps.matmul D (some .fp32) A B (constant (F := Ideal) S1024x1024 .f32 0x00000000#32) (ix2 r c)
      = ∑ k : Fin 256, A (ix2 r k) * B (ix2 k c) := by
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix2 r c) ((contrEquiv1 D 256 rfl rfl).symm k) = ix2 r k := funext fun a => Fin.ext (by
    match a with
    | ⟨0, _⟩ => exact lhs_0 _ _
    | ⟨1, _⟩ => exact (lhs_1 _ _).trans hk)
  have er : D.rhsIdx (ix2 r c) ((contrEquiv1 D 256 rfl rfl).symm k) = ix2 k c := funext fun a => Fin.ext (by
    match a with
    | ⟨0, _⟩ => exact (rhs_0 _ _).trans hk
    | ⟨1, _⟩ => exact rhs_1 _ _)
  rw [el, er]

/-! ## The tile of exponentials -/

theorem pay2_apply (x0 x1 : Vec Ideal S1024x256 .f32) (r c : Fin 1024) :
    k0_pay2 (F := Ideal) x0 x1 (ix2 r c)
      = Ideal.exp ((∑ k : Fin 256, x0 (ix2 r k) * x1 (ix2 c k)) * Cert.LossSpec.two) := by
  unfold k0_pay2
  simp only [shapeCast_self]
  show Ideal.exp (FloatOps.matmul D (some .fp32) x0 (transpose S256x1024 [1, 0] x1 transposes_S1024x256_p1_0_S256x1024)
      (constant (F := Ideal) S1024x1024 .f32 0x00000000#32) (ix2 r c) * Ideal.ofBits .f32 0x40000000#32) = _
  rw [matmul_at]
  have ht : ∀ k : Fin 256,
      transpose S256x1024 [1, 0] x1 transposes_S1024x256_p1_0_S256x1024 (ix2 k c) = x1 (ix2 c k) :=
    fun k => transpose_ix2_apply x1 _ k c
  simp only [ht]
  rfl

/-! ## A vector stood up as a column -/

/-- A vector of `a` entries cast to an `a × 1` column reads, at row `i`, the vector's entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The row sums added to the accumulator -/

/-- The lane sum of a 1024×1024 tile, at row `r`: the sum over the 1024 columns. -/
theorem rowSum_at (src : FVec Ideal S1024x1024 .f32) (hacc : (0x00000000#32 : BitVec 32) = 0x00000000#32) (r : Fin 1024) :
    multiReduction .add [1] S1024 src 0x00000000#32 reduces_S1024x1024_S1024 (.inl rfl) hacc (ix1 r)
      = ∑ c : Fin 1024, src (ix2 r c) := by
  refine (Ideal.multiReduction_add_single src 0x00000000#32 reduces_S1024x1024_S1024 (.inl rfl) hacc (ix1 r)).trans ?_
  refine Finset.sum_congr rfl fun c _ => congrArg src ?_
  funext a
  match a with
  | ⟨0, _⟩ => rfl
  | ⟨1, _⟩ => rfl

theorem pay4_apply (x0 x1 : Vec Ideal S1024x256 .f32) (acc : Vec Ideal S1024x1 .f32) (r : Fin 1024) :
    k0_pay4 (F := Ideal) x0 x1 acc (ix2 r 0)
      = acc (ix2 r 0) + ∑ c : Fin 1024, k0_pay2 (F := Ideal) x0 x1 (ix2 r c) := by
  unfold k0_pay4
  simp only [shapeCast_self]
  have h1 : ∀ X : FVec Ideal S1024x1 .f32, addf acc X (ix2 r 0) = acc (ix2 r 0) + X (ix2 r 0) := fun _ => rfl
  rw [h1]
  refine congrArg (acc (ix2 r 0) + ·) ?_
  refine (shapeCast_a_a1_apply _ shapeCasts_S1024_S1024x1 r 0).trans ?_
  exact rowSum_at (k0_pay2 x0 x1) _ r

/-! ## The diagonal tile: the row's own column struck out -/

/-- The mask of a diagonal tile at row `r`, column `c`: the row index equals the column index. -/
theorem mask_at (r c : Fin 1024) :
    cmpi .eq (iota .tc S1024x1024 32 [0] iota_S1024x1024_d0_w32) (iota .tc S1024x1024 32 [1] iota_S1024x1024_d1_w32)
      (ix2 r c) = 1#1 ↔ c = r := by
  show IntOp.cmpi .eq (iota .tc S1024x1024 32 [0] iota_S1024x1024_d0_w32 (ix2 r c))
      (iota .tc S1024x1024 32 [1] iota_S1024x1024_d1_w32 (ix2 r c)) = 1#1 ↔ c = r
  rw [IntOp.cmpi_eq, iota_single_apply, iota_single_apply]
  show BitVec.ofNat 32 r.val = BitVec.ofNat 32 c.val ↔ c = r
  constructor
  · intro h
    have h' := congrArg BitVec.toNat h
    simp only [BitVec.toNat_ofNat] at h'
    have hr := r.isLt
    have hc := c.isLt
    rw [Nat.mod_eq_of_lt (by omega), Nat.mod_eq_of_lt (by omega)] at h'
    exact Fin.ext h'.symm
  · rintro rfl
    rfl

theorem pay3_apply (x0 x1 : Vec Ideal S1024x256 .f32) (acc : Vec Ideal S1024x1 .f32) (r : Fin 1024) :
    k0_pay3 (F := Ideal) x0 x1 acc (ix2 r 0)
      = acc (ix2 r 0) + ∑ c : Fin 1024, (if c = r then Cert.LossSpec.zero else k0_pay2 (F := Ideal) x0 x1 (ix2 r c)) := by
  unfold k0_pay3
  simp only [shapeCast_self]
  have h1 : ∀ X : FVec Ideal S1024x1 .f32, addf acc X (ix2 r 0) = acc (ix2 r 0) + X (ix2 r 0) := fun _ => rfl
  rw [h1]
  refine congrArg (acc (ix2 r 0) + ·) ?_
  refine (shapeCast_a_a1_apply _ shapeCasts_S1024_S1024x1 r 0).trans ?_
  refine (rowSum_at _ _ r).trans ?_
  refine Finset.sum_congr rfl fun c _ => ?_
  show Scalar.select (cmpi .eq (iota .tc S1024x1024 32 [0] iota_S1024x1024_d0_w32)
      (iota .tc S1024x1024 32 [1] iota_S1024x1024_d1_w32) (ix2 r c)) Cert.LossSpec.zero (k0_pay2 (F := Ideal) x0 x1 (ix2 r c)) = _
  by_cases h : c = r
  · rw [(mask_at r c).2 h, select_one, if_pos h]
  · rw [eq_zero_of_ne_one (fun h' => h ((mask_at r c).1 h')), select_zero, if_neg h]

/-! ## The first store -/

theorem pay1_apply (y : S1024x1.Idx) : k0_pay1 (F := Ideal) y = Cert.LossSpec.zero := by
  unfold k0_pay1
  simp only [shapeCast_self]
  rfl

end Cert.PayloadsAt

end
-- ==== Proof.KI.RegionValue.lean ====
/-
  The region's value over the extended reals: what the accumulator holds after every grid point, and what the
  output array ends holding.

  Point t of the 8 × 8 grid is row tile t / 8 against column tile t % 8. Read back, the pieces each case of the
  body stores are the body's stored values themselves: the accumulator ends at the previous accumulator (the
  reset value 0 at the first column tile) plus the tile's row sums of exp (2 · similarity), with the row's own
  column struck out on the diagonal tile; at the last column tile the output tile is stored with the accumulator.
  Since the row window's block at t holds rows 1024 (t / 8) + · and the column window's block rows
  1024 (t % 8) + · of the normalised rows, the tile's row sum at r is the tile's contribution to row
  1024 (t / 8) + r in the tile-by-tile arrangement of the loss (column 1024 j + c' is the row itself iff j is the
  row's tile and c' its place in it). By induction on the point the accumulator's row r after point t is that
  row's accumulator after t % 8 + 1 tiles; the blocks written back (one per row tile, at its last point) cover
  the output array, which therefore ends holding every row's denominator.
-/
import proofs.«113197_j52312701666200_2_alg».proof.Proof.KI.Body
import proofs.«113197_j52312701666200_2_alg».proof.Proof.KI.Blocks
import proofs.«113197_j52312701666200_2_alg».proof.Proof.PayloadsAt
import proofs.«113197_j52312701666200_2_alg».proof.Proof.LossSpec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Pieces

variable {F : FTy → Type} [FloatOps F]

/-! ## What each case leaves, as the body's stored values -/

theorem hz : (![0, 0] : Fin 2 → Nat) = fun _ => 0 := funext fun a => by fin_cases a <;> rfl

/-- The first column tile, on the diagonal: the accumulator ends at the reset value, stored and read back, plus the tile's row sums, the own-row entry struck out. -/
theorem sout_A_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : cond2 i) (hc3 : ¬cond3 i) (hc4 : ¬cond4 i)
    (x0 : Vec F S1024x256 .f32) (x1 : Vec F S1024x256 .f32) :
    sout_A c i arg2 harg2 arg3 harg3 arg4 harg4 arg5 harg5 hc1 hc2 hc3 hc4 x0 x1 = k0_pay3 x0 x1 k0_pay1 := by
  unfold sout_A
  rw [View.read_writes_eq_canon _ _ _ (scover_A c i arg2 harg2 arg3 harg3 arg4 harg4 arg5 harg5 hc1 hc2 hc3 hc4 x0 x1)]
  unfold kernelRun_A
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x256) hz]

/-- The first column tile, off the diagonal: the accumulator ends at the reset value, stored and read back, plus the tile's row sums. -/
theorem sout_B_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : cond1 i) (hc2 : ¬cond2 i) (hc3 : cond3 i) (hc4 : ¬cond4 i)
    (x0 : Vec F S1024x256 .f32) (x1 : Vec F S1024x256 .f32) :
    sout_B c i arg2 harg2 arg3 harg3 arg4 harg4 arg5 harg5 hc1 hc2 hc3 hc4 x0 x1 = k0_pay4 x0 x1 k0_pay1 := by
  unfold sout_B
  rw [View.read_writes_eq_canon _ _ _ (scover_B c i arg2 harg2 arg3 harg3 arg4 harg4 arg5 harg5 hc1 hc2 hc3 hc4 x0 x1)]
  unfold kernelRun_B
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x256) hz]

/-- A middle column tile, on the diagonal: the accumulator ends at the accumulator as the point before left it plus the tile's row sums, the own-row entry struck out. -/
theorem sout_C_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : ¬cond4 i)
    (x0 : Vec F S1024x256 .f32) (x1 : Vec F S1024x256 .f32) (xs : Vec F S1024x1 .f32) :
    sout_C c i arg2 harg2 arg3 harg3 arg4 harg4 arg5 harg5 hc1 hc2 hc3 hc4 x0 x1 xs = k0_pay3 x0 x1 xs := by
  unfold sout_C
  rw [View.read_writes_eq_canon _ _ _ (scover_C c i arg2 harg2 arg3 harg3 arg4 harg4 arg5 harg5 hc1 hc2 hc3 hc4 x0 x1 xs)]
  unfold kernelRun_C
  dsimp only
  sl_unfold_words
  rw [View.canon_unit_zero hz]
  simp only [View.readAt_eq_ld, harg2.read_unread, harg3.read_unread, harg5.read_unread, View.ld_unit_zero (S := S1024x256) hz, View.ld_unit_zero (S := S1024x1) hz]

/-- A middle column tile, off the diagonal: the accumulator ends at the accumulator as the point before left it plus the tile's row sums. -/
theorem sout_D_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : ¬cond4 i)
    (x0 : Vec F S1024x256 .f32) (x1 : Vec F S1024x256 .f32) (xs : Vec F S1024x1 .f32) :
    sout_D c i arg2 harg2 arg3 harg3 arg4 harg4 arg5 harg5 hc1 hc2 hc3 hc4 x0 x1 xs = k0_pay4 x0 x1 xs := by
  unfold sout_D
  rw [View.read_writes_eq_canon _ _ _ (scover_D c i arg2 harg2 arg3 harg3 arg4 harg4 arg5 harg5 hc1 hc2 hc3 hc4 x0 x1 xs)]
  unfold kernelRun_D
  dsimp only
  sl_unfold_words
  rw [View.canon_unit_zero hz]
  simp only [View.readAt_eq_ld, harg2.read_unread, harg3.read_unread, harg5.read_unread, View.ld_unit_zero (S := S1024x256) hz, View.ld_unit_zero (S := S1024x1) hz]

/-- The last column tile, on the diagonal: the accumulator ends at the accumulator as the point before left it plus the tile's row sums, the own-row entry struck out. -/
theorem sout_E_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : cond4 i)
    (x0 : Vec F S1024x256 .f32) (x1 : Vec F S1024x256 .f32) (xs : Vec F S1024x1 .f32) :
    sout_E c i arg2 harg2 arg3 harg3 arg4 harg4 arg5 harg5 hc1 hc2 hc3 hc4 x0 x1 xs = k0_pay3 x0 x1 xs := by
  unfold sout_E
  rw [View.read_writes_eq_canon _ _ _ (scover_E c i arg2 harg2 arg3 harg3 arg4 harg4 arg5 harg5 hc1 hc2 hc3 hc4 x0 x1 xs)]
  unfold kernelRun_E
  dsimp only
  sl_unfold_words
  rw [View.canon_unit_zero hz]
  simp only [View.readAt_eq_ld, harg2.read_unread, harg3.read_unread, harg5.read_unread, View.ld_unit_zero (S := S1024x256) hz, View.ld_unit_zero (S := S1024x1) hz]

/-- The last column tile, on the diagonal: the output tile ends at the accumulator as just stored. -/
theorem out_E_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : cond2 i) (hc3 : ¬cond3 i) (hc4 : cond4 i)
    (x0 : Vec F S1024x256 .f32) (x1 : Vec F S1024x256 .f32) (xs : Vec F S1024x1 .f32) :
    out_E c i arg2 harg2 arg3 harg3 arg4 harg4 arg5 harg5 hc1 hc2 hc3 hc4 x0 x1 xs = k0_pay3 x0 x1 xs := by
  unfold out_E
  rw [View.read_writes_eq_canon _ _ _ (cover_E c i arg2 harg2 arg3 harg3 arg4 harg4 arg5 harg5 hc1 hc2 hc3 hc4 x0 x1 xs)]
  unfold kernelRun_E
  dsimp only
  sl_unfold_words
  rw [View.canon_unit_zero hz, View.readCov_unit_zero (S := S1024x1) _ hz]
  simp only [View.readAt_eq_ld, harg2.read_unread, harg3.read_unread, harg5.read_unread, View.ld_unit_zero (S := S1024x256) hz, View.ld_unit_zero (S := S1024x1) hz]

/-- The last column tile, off the diagonal: the accumulator ends at the accumulator as the point before left it plus the tile's row sums. -/
theorem sout_G_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : cond4 i)
    (x0 : Vec F S1024x256 .f32) (x1 : Vec F S1024x256 .f32) (xs : Vec F S1024x1 .f32) :
    sout_G c i arg2 harg2 arg3 harg3 arg4 harg4 arg5 harg5 hc1 hc2 hc3 hc4 x0 x1 xs = k0_pay4 x0 x1 xs := by
  unfold sout_G
  rw [View.read_writes_eq_canon _ _ _ (scover_G c i arg2 harg2 arg3 harg3 arg4 harg4 arg5 harg5 hc1 hc2 hc3 hc4 x0 x1 xs)]
  unfold kernelRun_G
  dsimp only
  sl_unfold_words
  rw [View.canon_unit_zero hz]
  simp only [View.readAt_eq_ld, harg2.read_unread, harg3.read_unread, harg5.read_unread, View.ld_unit_zero (S := S1024x256) hz, View.ld_unit_zero (S := S1024x1) hz]

/-- The last column tile, off the diagonal: the output tile ends at the accumulator as just stored. -/
theorem out_G_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (hc1 : ¬cond1 i) (hc2 : ¬cond2 i) (hc3 : cond3 i) (hc4 : cond4 i)
    (x0 : Vec F S1024x256 .f32) (x1 : Vec F S1024x256 .f32) (xs : Vec F S1024x1 .f32) :
    out_G c i arg2 harg2 arg3 harg3 arg4 harg4 arg5 harg5 hc1 hc2 hc3 hc4 x0 x1 xs = k0_pay4 x0 x1 xs := by
  unfold out_G
  rw [View.read_writes_eq_canon _ _ _ (cover_G c i arg2 harg2 arg3 harg3 arg4 harg4 arg5 harg5 hc1 hc2 hc3 hc4 x0 x1 xs)]
  unfold kernelRun_G
  dsimp only
  sl_unfold_words
  rw [View.canon_unit_zero hz, View.readCov_unit_zero (S := S1024x1) _ hz]
  simp only [View.readAt_eq_ld, harg2.read_unread, harg3.read_unread, harg5.read_unread, View.ld_unit_zero (S := S1024x256) hz, View.ld_unit_zero (S := S1024x1) hz]

end Pieces

/-! ## The accumulator and the output tile after a point of each case -/

section Points

variable {F : FTy → Type} [FloatOps F]
variable (m : (ℓ : Loc nD τ sig) → Buf (Elt F) ℓ)

theorem acc_A (c : Dev nD) (t : Fin cfg0.N) (h1 : t.val % 8 = 0) (h2 : t.val / 8 = t.val % 8) (h4 : ¬ (t.val % 8 = 7)) :
    (outsAt m c t.val t.isLt).2 = k0_pay3 (iblk m c 0 t) (iblk m c 1 t) k0_pay1 := by
  rw [outsAt_A m c t h1 h2 h4]
  dsimp only
  exact sout_A_eq c (grid0.coords t) (ms0 t) (hs0 t) (ms1 t) (hs1 t) (ms2 t) (hs2 t) scM (Memref.isWhole_whole _) ((hcond1 t).mpr h1) ((hcond2 t).mpr h2) (fun h => ((hcond3 t).mp h) h2) (fun h => h4 ((hcond4 t).mp h)) (iblk m c 0 t) (iblk m c 1 t)

theorem acc_B (c : Dev nD) (t : Fin cfg0.N) (h1 : t.val % 8 = 0) (h2 : ¬ (t.val / 8 = t.val % 8)) (h4 : ¬ (t.val % 8 = 7)) :
    (outsAt m c t.val t.isLt).2 = k0_pay4 (iblk m c 0 t) (iblk m c 1 t) k0_pay1 := by
  rw [outsAt_B m c t h1 h2 h4]
  dsimp only
  exact sout_B_eq c (grid0.coords t) (ms0 t) (hs0 t) (ms1 t) (hs1 t) (ms2 t) (hs2 t) scM (Memref.isWhole_whole _) ((hcond1 t).mpr h1) (fun h => h2 ((hcond2 t).mp h)) ((hcond3 t).mpr h2) (fun h => h4 ((hcond4 t).mp h)) (iblk m c 0 t) (iblk m c 1 t)

theorem acc_C (c : Dev nD) (t : Fin cfg0.N) (h1 : ¬ (t.val % 8 = 0)) (h2 : t.val / 8 = t.val % 8) (h4 : ¬ (t.val % 8 = 7)) :
    (outsAt m c t.val t.isLt).2 = k0_pay3 (iblk m c 0 t) (iblk m c 1 t) (outsAt m c (t.val - 1) (Nat.lt_of_le_of_lt (Nat.sub_le _ _) t.isLt)).2 := by
  rw [outsAt_C m c t h1 h2 h4]
  dsimp only
  exact sout_C_eq c (grid0.coords t) (ms0 t) (hs0 t) (ms1 t) (hs1 t) (ms2 t) (hs2 t) scM (Memref.isWhole_whole _) (fun h => h1 ((hcond1 t).mp h)) ((hcond2 t).mpr h2) (fun h => ((hcond3 t).mp h) h2) (fun h => h4 ((hcond4 t).mp h)) (iblk m c 0 t) (iblk m c 1 t) (outsAt m c (t.val - 1) (Nat.lt_of_le_of_lt (Nat.sub_le _ _) t.isLt)).2

theorem acc_D (c : Dev nD) (t : Fin cfg0.N) (h1 : ¬ (t.val % 8 = 0)) (h2 : ¬ (t.val / 8 = t.val % 8)) (h4 : ¬ (t.val % 8 = 7)) :
    (outsAt m c t.val t.isLt).2 = k0_pay4 (iblk m c 0 t) (iblk m c 1 t) (outsAt m c (t.val - 1) (Nat.lt_of_le_of_lt (Nat.sub_le _ _) t.isLt)).2 := by
  rw [outsAt_D m c t h1 h2 h4]
  dsimp only
  exact sout_D_eq c (grid0.coords t) (ms0 t) (hs0 t) (ms1 t) (hs1 t) (ms2 t) (hs2 t) scM (Memref.isWhole_whole _) (fun h => h1 ((hcond1 t).mp h)) (fun h => h2 ((hcond2 t).mp h)) ((hcond3 t).mpr h2) (fun h => h4 ((hcond4 t).mp h)) (iblk m c 0 t) (iblk m c 1 t) (outsAt m c (t.val - 1) (Nat.lt_of_le_of_lt (Nat.sub_le _ _) t.isLt)).2

theorem acc_E (c : Dev nD) (t : Fin cfg0.N) (h1 : ¬ (t.val % 8 = 0)) (h2 : t.val / 8 = t.val % 8) (h4 : t.val % 8 = 7) :
    (outsAt m c t.val t.isLt).2 = k0_pay3 (iblk m c 0 t) (iblk m c 1 t) (outsAt m c (t.val - 1) (Nat.lt_of_le_of_lt (Nat.sub_le _ _) t.isLt)).2 := by
  rw [outsAt_E m c t h1 h2 h4]
  dsimp only
  exact sout_E_eq c (grid0.coords t) (ms0 t) (hs0 t) (ms1 t) (hs1 t) (ms2 t) (hs2 t) scM (Memref.isWhole_whole _) (fun h => h1 ((hcond1 t).mp h)) ((hcond2 t).mpr h2) (fun h => ((hcond3 t).mp h) h2) ((hcond4 t).mpr h4) (iblk m c 0 t) (iblk m c 1 t) (outsAt m c (t.val - 1) (Nat.lt_of_le_of_lt (Nat.sub_le _ _) t.isLt)).2

theorem outv_E (c : Dev nD) (t : Fin cfg0.N) (h1 : ¬ (t.val % 8 = 0)) (h2 : t.val / 8 = t.val % 8) (h4 : t.val % 8 = 7) :
    (outsAt m c t.val t.isLt).1 = k0_pay3 (iblk m c 0 t) (iblk m c 1 t) (outsAt m c (t.val - 1) (Nat.lt_of_le_of_lt (Nat.sub_le _ _) t.isLt)).2 := by
  rw [outsAt_E m c t h1 h2 h4]
  dsimp only
  exact out_E_eq c (grid0.coords t) (ms0 t) (hs0 t) (ms1 t) (hs1 t) (ms2 t) (hs2 t) scM (Memref.isWhole_whole _) (fun h => h1 ((hcond1 t).mp h)) ((hcond2 t).mpr h2) (fun h => ((hcond3 t).mp h) h2) ((hcond4 t).mpr h4) (iblk m c 0 t) (iblk m c 1 t) (outsAt m c (t.val - 1) (Nat.lt_of_le_of_lt (Nat.sub_le _ _) t.isLt)).2

theorem acc_G (c : Dev nD) (t : Fin cfg0.N) (h1 : ¬ (t.val % 8 = 0)) (h2 : ¬ (t.val / 8 = t.val % 8)) (h4 : t.val % 8 = 7) :
    (outsAt m c t.val t.isLt).2 = k0_pay4 (iblk m c 0 t) (iblk m c 1 t) (outsAt m c (t.val - 1) (Nat.lt_of_le_of_lt (Nat.sub_le _ _) t.isLt)).2 := by
  rw [outsAt_G m c t h1 h2 h4]
  dsimp only
  exact sout_G_eq c (grid0.coords t) (ms0 t) (hs0 t) (ms1 t) (hs1 t) (ms2 t) (hs2 t) scM (Memref.isWhole_whole _) (fun h => h1 ((hcond1 t).mp h)) (fun h => h2 ((hcond2 t).mp h)) ((hcond3 t).mpr h2) ((hcond4 t).mpr h4) (iblk m c 0 t) (iblk m c 1 t) (outsAt m c (t.val - 1) (Nat.lt_of_le_of_lt (Nat.sub_le _ _) t.isLt)).2

theorem outv_G (c : Dev nD) (t : Fin cfg0.N) (h1 : ¬ (t.val % 8 = 0)) (h2 : ¬ (t.val / 8 = t.val % 8)) (h4 : t.val % 8 = 7) :
    (outsAt m c t.val t.isLt).1 = k0_pay4 (iblk m c 0 t) (iblk m c 1 t) (outsAt m c (t.val - 1) (Nat.lt_of_le_of_lt (Nat.sub_le _ _) t.isLt)).2 := by
  rw [outsAt_G m c t h1 h2 h4]
  dsimp only
  exact out_G_eq c (grid0.coords t) (ms0 t) (hs0 t) (ms1 t) (hs1 t) (ms2 t) (hs2 t) scM (Memref.isWhole_whole _) (fun h => h1 ((hcond1 t).mp h)) (fun h => h2 ((hcond2 t).mp h)) ((hcond3 t).mpr h2) ((hcond4 t).mpr h4) (iblk m c 0 t) (iblk m c 1 t) (outsAt m c (t.val - 1) (Nat.lt_of_le_of_lt (Nat.sub_le _ _) t.isLt)).2

/-- Where the column tile is the last, the output tile holds the accumulator. -/
theorem out_eq_acc (c : Dev nD) (t : Fin cfg0.N) (h4 : t.val % 8 = 7) :
    (outsAt m c t.val t.isLt).1 = (outsAt m c t.val t.isLt).2 := by
  have h1 : ¬ (t.val % 8 = 0) := by omega
  by_cases h2 : t.val / 8 = t.val % 8
  · exact (outv_E m c t h1 h2 h4).trans (acc_E m c t h1 h2 h4).symm
  · exact (outv_G m c t h1 h2 h4).trans (acc_G m c t h1 h2 h4).symm

end Points

/-! ## One tile's contribution to a row's accumulator, over plain tiles -/

section Tiles

open Cert.LossSpec Cert.PayloadsAt

/-- Two columns of two tiles are the same column iff they are the same column of the same tile. -/
theorem col_eq_iff (j q : Fin 8) (c' r : Fin 1024) : col j c' = col q r ↔ j = q ∧ c' = r := by
  constructor
  · intro h
    have hv : 1024 * j.val + c'.val = 1024 * q.val + r.val := congrArg Fin.val h
    have h1 := c'.isLt
    have h2 := r.isLt
    exact ⟨Fin.ext (by omega), Fin.ext (by omega)⟩
  · rintro ⟨rfl, rfl⟩; rfl

theorem accK_succ (zn : Rows.Idx → EReal) (R : Fin 8192) (n : ℕ) (h : n < 8) :
    accK zn R (n + 1) = accK zn R n + tileSum zn R ⟨n, h⟩ := by
  rw [accK, dif_pos h]

variable (zn : Rows.Idx → EReal) (x0 x1 : Vec Ideal S1024x256 .f32) (q j : Fin 8) (r : Fin 1024)

/-- When the row tile holds rows 1024 q + · and the column tile rows 1024 j + · of the normalised rows, the tile of
    exponentials at (r, c) is exp (similarity of row 1024 q + r and row 1024 j + c, times 2). -/
theorem pay2_eq_sim (hx0 : ∀ k : Fin 256, x0 (ix2 r k) = zn (ix2 (col q r) k))
    (hx1 : ∀ (c : Fin 1024) (k : Fin 256), x1 (ix2 c k) = zn (ix2 (col j c) k)) (c : Fin 1024) :
    k0_pay2 (F := Ideal) x0 x1 (ix2 r c) = Ideal.exp (sim zn (col q r) (col j c) * two) := by
  rw [pay2_apply]
  unfold sim
  refine congrArg (fun s => Ideal.exp (s * two)) ?_
  exact Finset.sum_congr rfl fun k _ => by rw [hx0 k, hx1 c k]

/-- On the diagonal tile the row sums with the own-row entry struck out are the tile's contribution, -/
theorem tile_diag (hd : q = j) (hx0 : ∀ k : Fin 256, x0 (ix2 r k) = zn (ix2 (col q r) k))
    (hx1 : ∀ (c : Fin 1024) (k : Fin 256), x1 (ix2 c k) = zn (ix2 (col j c) k)) :
    (∑ c : Fin 1024, (if c = r then zero else k0_pay2 (F := Ideal) x0 x1 (ix2 r c))) = tileSum zn (col q r) j := by
  unfold tileSum
  refine Finset.sum_congr rfl fun c _ => ?_
  by_cases h : c = r
  · rw [if_pos h, if_pos ((col_eq_iff j q c r).2 ⟨hd.symm, h⟩)]
  · rw [if_neg h, if_neg (fun h' => h ((col_eq_iff j q c r).1 h').2), pay2_eq_sim zn x0 x1 q j r hx0 hx1 c]

/-- and off the diagonal the plain row sums are: no column of the tile is the row itself. -/
theorem tile_off (hd : ¬ q = j) (hx0 : ∀ k : Fin 256, x0 (ix2 r k) = zn (ix2 (col q r) k))
    (hx1 : ∀ (c : Fin 1024) (k : Fin 256), x1 (ix2 c k) = zn (ix2 (col j c) k)) :
    (∑ c : Fin 1024, k0_pay2 (F := Ideal) x0 x1 (ix2 r c)) = tileSum zn (col q r) j := by
  unfold tileSum
  refine Finset.sum_congr rfl fun c _ => ?_
  rw [if_neg (fun h' => hd ((col_eq_iff j q c r).1 h').1.symm), pay2_eq_sim zn x0 x1 q j r hx0 hx1 c]

/-- The step of the accumulator on the diagonal tile: from the accumulator after the first j tiles to the one
    after j + 1 tiles. -/
theorem step_diag (acc : Vec Ideal S1024x1 .f32) (hd : q = j)
    (hx0 : ∀ k : Fin 256, x0 (ix2 r k) = zn (ix2 (col q r) k))
    (hx1 : ∀ (c : Fin 1024) (k : Fin 256), x1 (ix2 c k) = zn (ix2 (col j c) k))
    (ha : acc (ix2 r 0) = accK zn (col q r) j.val) :
    k0_pay3 (F := Ideal) x0 x1 acc (ix2 r 0) = accK zn (col q r) (j.val + 1) := by
  rw [pay3_apply, ha, tile_diag zn x0 x1 q j r hd hx0 hx1, accK_succ zn (col q r) j.val j.isLt]

/-- The same step off the diagonal. -/
theorem step_off (acc : Vec Ideal S1024x1 .f32) (hd : ¬ q = j)
    (hx0 : ∀ k : Fin 256, x0 (ix2 r k) = zn (ix2 (col q r) k))
    (hx1 : ∀ (c : Fin 1024) (k : Fin 256), x1 (ix2 c k) = zn (ix2 (col j c) k))
    (ha : acc (ix2 r 0) = accK zn (col q r) j.val) :
    k0_pay4 (F := Ideal) x0 x1 acc (ix2 r 0) = accK zn (col q r) (j.val + 1) := by
  rw [pay4_apply, ha, tile_off zn x0 x1 q j r hd hx0 hx1, accK_succ zn (col q r) j.val j.isLt]

end Tiles

/-! ## The accumulator's invariant, over the extended reals -/

section AtIdeal

open Cert.LossSpec Cert.PayloadsAt

variable (m : (ℓ : Loc nD τ sig) → Buf (Elt Ideal) ℓ)

/-- The normalised rows as the region finds them. -/
def rowsAt (c : Dev nD) : Rows.Idx → EReal := V m c main_v5

/-- The row tile and the column tile of point n. -/
def rowTile (n : ℕ) (hn : n < cfg0.N) : Fin 8 := ⟨n / 8, by have := lt_of_lt_of_eq hn N_0; omega⟩
def colTile (n : ℕ) : Fin 8 := ⟨n % 8, by omega⟩

/-- The row window's block at point t holds the rows of row tile t / 8, -/
theorem blk0_rows (c : Dev nD) (t : Fin cfg0.N) (r : Fin 1024) (k : Fin 256) :
    (iblk m c 0 t : Vec Ideal S1024x256 .f32) (ix2 r k) = rowsAt m c (ix2 (col (rowTile t.val t.isLt) r) k) :=
  iblk0_apply m c t r k

/-- and the column window's block the rows of tile t % 8. -/
theorem blk1_rows (c : Dev nD) (t : Fin cfg0.N) (c' : Fin 1024) (k : Fin 256) :
    (iblk m c 1 t : Vec Ideal S1024x256 .f32) (ix2 c' k) = rowsAt m c (ix2 (col (colTile t.val) c') k) :=
  iblk1_apply m c t c' k

/-- After point n the accumulator's row r holds the sum of the first n % 8 + 1 tiles of row 1024 (n / 8) + r. -/
theorem acc_inv_aux (c : Dev nD) (n : ℕ) : ∀ (hn : n < cfg0.N) (r : Fin 1024),
    (outsAt m c n hn).2 (ix2 r 0) = accK (rowsAt m c) (col (rowTile n hn) r) ((colTile n).val + 1) := by
  induction n using Nat.strong_induction_on with
  | _ n ih =>
  intro hn r
  have hN : n < 64 := lt_of_lt_of_eq hn N_0
  have hx0 : ∀ k : Fin 256, (iblk m c 0 ⟨n, hn⟩ : Vec Ideal S1024x256 .f32) (ix2 r k)
      = rowsAt m c (ix2 (col (rowTile n hn) r) k) := fun k => blk0_rows m c ⟨n, hn⟩ r k
  have hx1 : ∀ (c' : Fin 1024) (k : Fin 256), (iblk m c 1 ⟨n, hn⟩ : Vec Ideal S1024x256 .f32) (ix2 c' k)
      = rowsAt m c (ix2 (col (colTile n) c') k) := fun c' k => blk1_rows m c ⟨n, hn⟩ c' k
  by_cases h1 : n % 8 = 0
  · have h4 : ¬ (n % 8 = 7) := by omega
    have ha : (k0_pay1 (F := Ideal) : Vec Ideal S1024x1 .f32) (ix2 r 0)
        = accK (rowsAt m c) (col (rowTile n hn) r) (colTile n).val := by
      rw [pay1_apply]
      show zero = accK (rowsAt m c) (col (rowTile n hn) r) (n % 8)
      rw [h1]; rfl
    by_cases h2 : n / 8 = n % 8
    · have key : (outsAt m c n hn).2 = k0_pay3 (iblk m c 0 ⟨n, hn⟩) (iblk m c 1 ⟨n, hn⟩) (k0_pay1 (F := Ideal)) :=
        acc_A m c ⟨n, hn⟩ h1 h2 h4
      rw [key]
      exact step_diag (rowsAt m c) (iblk m c 0 ⟨n, hn⟩) (iblk m c 1 ⟨n, hn⟩) (rowTile n hn) (colTile n) r (k0_pay1 (F := Ideal))
        (Fin.ext h2) hx0 hx1 ha
    · have key : (outsAt m c n hn).2 = k0_pay4 (iblk m c 0 ⟨n, hn⟩) (iblk m c 1 ⟨n, hn⟩) (k0_pay1 (F := Ideal)) :=
        acc_B m c ⟨n, hn⟩ h1 h2 h4
      rw [key]
      exact step_off (rowsAt m c) (iblk m c 0 ⟨n, hn⟩) (iblk m c 1 ⟨n, hn⟩) (rowTile n hn) (colTile n) r (k0_pay1 (F := Ideal))
        (fun h => h2 (congrArg Fin.val h)) hx0 hx1 ha
  · have hp : n - 1 < cfg0.N := Nat.lt_of_le_of_lt (Nat.sub_le _ _) hn
    have ha : (outsAt m c (n - 1) hp).2 (ix2 r 0) = accK (rowsAt m c) (col (rowTile n hn) r) (colTile n).val := by
      rw [ih (n - 1) (by omega) hp r]
      have e1 : rowTile (n - 1) hp = rowTile n hn := Fin.ext (by show (n - 1) / 8 = n / 8; omega)
      have e2 : (colTile (n - 1)).val + 1 = (colTile n).val := by show (n - 1) % 8 + 1 = n % 8; omega
      rw [e1, e2]
    by_cases h4 : n % 8 = 7
    · by_cases h2 : n / 8 = n % 8
      · have key : (outsAt m c n hn).2 = k0_pay3 (iblk m c 0 ⟨n, hn⟩) (iblk m c 1 ⟨n, hn⟩) (outsAt m c (n - 1) hp).2 :=
          acc_E m c ⟨n, hn⟩ h1 h2 h4
        rw [key]
        exact step_diag (rowsAt m c) (iblk m c 0 ⟨n, hn⟩) (iblk m c 1 ⟨n, hn⟩) (rowTile n hn) (colTile n) r
          (outsAt m c (n - 1) hp).2 (Fin.ext h2) hx0 hx1 ha
      · have key : (outsAt m c n hn).2 = k0_pay4 (iblk m c 0 ⟨n, hn⟩) (iblk m c 1 ⟨n, hn⟩) (outsAt m c (n - 1) hp).2 :=
          acc_G m c ⟨n, hn⟩ h1 h2 h4
        rw [key]
        exact step_off (rowsAt m c) (iblk m c 0 ⟨n, hn⟩) (iblk m c 1 ⟨n, hn⟩) (rowTile n hn) (colTile n) r
          (outsAt m c (n - 1) hp).2 (fun h => h2 (congrArg Fin.val h)) hx0 hx1 ha
    · by_cases h2 : n / 8 = n % 8
      · have key : (outsAt m c n hn).2 = k0_pay3 (iblk m c 0 ⟨n, hn⟩) (iblk m c 1 ⟨n, hn⟩) (outsAt m c (n - 1) hp).2 :=
          acc_C m c ⟨n, hn⟩ h1 h2 h4
        rw [key]
        exact step_diag (rowsAt m c) (iblk m c 0 ⟨n, hn⟩) (iblk m c 1 ⟨n, hn⟩) (rowTile n hn) (colTile n) r
          (outsAt m c (n - 1) hp).2 (Fin.ext h2) hx0 hx1 ha
      · have key : (outsAt m c n hn).2 = k0_pay4 (iblk m c 0 ⟨n, hn⟩) (iblk m c 1 ⟨n, hn⟩) (outsAt m c (n - 1) hp).2 :=
          acc_D m c ⟨n, hn⟩ h1 h2 h4
        rw [key]
        exact step_off (rowsAt m c) (iblk m c 0 ⟨n, hn⟩) (iblk m c 1 ⟨n, hn⟩) (rowTile n hn) (colTile n) r
          (outsAt m c (n - 1) hp).2 (fun h => h2 (congrArg Fin.val h)) hx0 hx1 ha

/-- The accumulator's invariant: after point t its row r holds the accumulator of row 1024 (t / 8) + r after the
    first t % 8 + 1 tiles. -/
theorem acc_inv (c : Dev nD) (t : Fin cfg0.N) (r : Fin 1024) :
    (outsAt m c t.val t.isLt).2 (ix2 r 0)
      = accK (rowsAt m c) ⟨1024 * (t.val / 8) + r.val, by have := r.isLt; have := point_lt t; omega⟩ (t.val % 8 + 1) :=
  acc_inv_aux m c t.val t.isLt r

/-! ## The output array: the rows' denominators -/

/-- The denominators of the tile-by-tile arrangement, as contents of the output array. -/
def denomArr (c : Dev nD) : S8192x1.Idx → EReal := fun i => denomK (rowsAt m c) (i 0)

/-- What a point that writes back writes is its block of the denominators. -/
theorem flushed_eq (c : Dev nD) (t : Fin cfg0.N) (hf : (cfg0.win 2).flush t = true) :
    (dats m 0 c).flushed 2 t = ((cfg0.win 2).blk t).view.read (Elt Ideal) (denomArr m c) := by
  have h4 : t.val % 8 = 7 := (flush0_2 t).mp hf
  show (cfg0.win 2).cut (grid0.coords t) ((dats m 0 c).after 2 t) = _
  rw [after_2, out_eq_acc m c t h4]
  funext y
  rw [View.read_apply]
  show ((outsAt m c t.val t.isLt).2 : S1024x1.Idx → EReal) y = denomArr m c (((cfg0.win 2).blk t).view.emb y)
  have hy1 : ((y : S1024x1.Idx) 1).val = 0 := by have := idx2_lt1 (y : S1024x1.Idx); omega
  have hy : (y : S1024x1.Idx) = ix2 (⟨((y : S1024x1.Idx) 0).val, idx2_lt0 (y : S1024x1.Idx)⟩ : Fin 1024) (0 : Fin 1) :=
    funext fun a => Fin.ext (by
      match a with
      | ⟨0, _⟩ => rfl
      | ⟨1, _⟩ => exact hy1)
  refine (congrArg ((outsAt m c t.val t.isLt).2 : S1024x1.Idx → EReal) hy).trans ?_
  refine (acc_inv m c t ⟨((y : S1024x1.Idx) 0).val, idx2_lt0 (y : S1024x1.Idx)⟩).trans ?_
  refine Eq.trans ?_ (congrArg (denomArr m c) (oblk_emb t y)).symm
  show accK (rowsAt m c) _ (t.val % 8 + 1) = accK (rowsAt m c) _ 8
  rw [h4]

/-- So the output array ends holding the denominators, -/
theorem final_denoms (c : Dev nD) : (dats m 0 c).arrAt 2 cfg0.N = denomArr m c :=
  (dats m 0 c).arrAt_eq_of_cover 2 (denomArr m c) (flushed_eq m c) (fun i => oblk_cover i)

/-- row by row. -/
theorem denoms (c : Dev nD) (R : Fin 8192) :
    ((dats m 0 c).arrAt 2 cfg0.N : S8192x1.Idx → EReal) (ix2 R 0) = denomK (rowsAt m c) R :=
  congrFun (final_denoms m c) (ix2 R 0)

end AtIdeal

end Cert.KernelIdeal.Hand

end
-- ==== Proof.KernelHost.lean ====
/-
  The host operations of the kernel program around its call, read index by index over the extended reals.

  Before the call the program stacks the two argument arrays (8192 rows of 256), takes each row's norm
  (the square root of its sum of squares), and divides each row by the larger of its norm and the floor ε:
  these are the normalised rows. After the call it takes the call's column of denominators, one per row,
  and forms the mean over the rows of `log den − pos / ½`, where a row's `pos` is the inner product of the
  row's copy in the lower half with its copy in the upper half (the product of the two halves summed along
  the rows, repeated once for the upper half).

  Each stretch of operations is first folded into one pure term of the buffers it reads, and that term is then
  read at an index, one operation at a time.
-/
import proofs.«113197_j52312701666200_2_alg».proof.Proof.Gen.KernelIdeal.Launch
import proofs.«113197_j52312701666200_2_alg».proof.Proof.LossSpec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelHost

open Cert.KernelIdeal Cert.KernelIdeal.Gen Idealize.ShloMosaic Idealize.ShloMosaic.TcCoe Idealize.SL.Sem
open Idealize.ShloMosaic.StableHlo Idealize.ShloMosaic.ValueIdx

/-- An f32 array of shape `s` at the ideal instance: an extended real at every index. -/
abbrev Arr (s : Shape) : Type := FVec Ideal s .f32

/-- The float words the operations spell: 0, ½, 8192 and the norm's floor ε. -/
abbrev w0 : EReal := Ideal.ofBits .f32 0x00000000#32
abbrev wHalf : EReal := Ideal.ofBits .f32 0x3F000000#32
abbrev wCount : EReal := Ideal.ofBits .f32 0x46000000#32
abbrev wEps : EReal := Ideal.ofBits .f32 0x322BCC77#32

/-! # Before the call -/

/-! ## The operations before the call, as one pure term -/

/-- The two argument arrays stacked along the rows. -/
def stackT (a b : Arr S4096x256) : Arr S8192x256 :=
  concatenate S8192x256 0 [⟨S4096x256, a⟩, ⟨S4096x256, b⟩] concatenates_S4096x256_S4096x256_S8192x256_d0

/-- Each row's sum of squares. -/
def rowSq (z : Arr S8192x256) : Arr S8192 :=
  Host.reduceAdd (mulf z z) (constant (F := Ideal) S_ .f32 0x00000000#32) reducesTo_S8192x256_S8192_d1 h_S_

/-- Each row's norm, as a column. -/
def rowNorm (z : Arr S8192x256) : Arr S8192x1 :=
  Host.sqrt (broadcastInDim S8192x1 ![0] bcast_S8192_S8192x1_0 (rowSq z))

/-- The norm's floor, as a column. -/
def floorCol : Arr S8192x1 :=
  broadcastInDim S8192x1 ![] bcast_S_S8192x1 (constant (F := Ideal) S_ .f32 0x322BCC77#32)

/-- Each row divided by the larger of its norm and the floor. -/
def normalise (z : Arr S8192x256) : Arr S8192x256 :=
  Host.divf z (broadcastInDim S8192x256 ![0, 1] bcast_S8192x1_S8192x256_0_1 (maximumf (rowNorm z) floorCol))

theorem prefix_after (V : Valuation τ sig (Elt Ideal)) :
    StableHlo.after (hostOps0 (F := Ideal) ++ hostOps0_1 ++ hostOps0_2) V (Proc.devRef .tc main_v5)
      = normalise (stackT (V (Proc.devRef .tc main_arg0)) (V (Proc.devRef .tc main_arg1))) := by
  simp only [hostOps0, hostOps0_1, hostOps0_2, List.cons_append, List.nil_append]
  after_results
  rfl

theorem prefix_after_flatten (V : Valuation τ sig (Elt Ideal)) :
    StableHlo.after (List.flatten [hostOps0 (F := Ideal), hostOps0_1, hostOps0_2]) V (Proc.devRef .tc main_v5)
      = normalise (stackT (V (Proc.devRef .tc main_arg0)) (V (Proc.devRef .tc main_arg1))) := by
  simp only [hostOps0, hostOps0_1, hostOps0_2, List.flatten_cons, List.flatten_nil, List.append_nil, List.cons_append,
    List.nil_append]
  after_results
  rfl

/-! ### Each piece of the normalisation read at an index -/

theorem stackT_apply (a b : Arr S4096x256) (i : S8192x256.Idx) :
    stackT a b i = if h : (i 0).val < 4096 then a (ix2 ⟨(i 0).val, h⟩ (i 1))
      else b (ix2 ⟨(i 0).val - 4096, by have := idx2_lt0 i; omega⟩ (i 1)) := by
  unfold stackT
  by_cases h : (i 0).val < 4096
  · rw [dif_pos h]
    exact concatenate_pair_apply_left 0 a b concatenates_S4096x256_S4096x256_S8192x256_d0 i rfl _ (fun c => match c with
      | ⟨0, _⟩ => rfl
      | ⟨1, _⟩ => rfl)
  · rw [dif_neg h]
    exact concatenate_pair_apply_right 0 a b concatenates_S4096x256_S4096x256_S8192x256_d0 i rfl rfl _
      (fun c hc => match c, hc with
        | ⟨0, _⟩, hc => absurd rfl hc
        | ⟨1, _⟩, _ => rfl)
      (by show (i 0).val - 4096 + 4096 = (i 0).val; omega)

theorem rowSq_apply (z : Arr S8192x256) (r : Fin 8192) :
    rowSq z (ix1 r) = w0 + ∑ k : Fin 256, z (ix2 r k) * z (ix2 r k) := by
  unfold rowSq
  simp only [Host.reduceAdd, Ideal.hostReduceAdd_def]
  rw [Ideal.hostReduceAdd_single reducesTo_S8192x256_S8192_d1 (by decide)]
  refine congrArg (_ + ·) (Finset.sum_congr rfl fun k _ => ?_)
  have e : (Shape.Reduces.lift (s := S8192x256) (t := S8192) (a := 1) (by decide) (ix1 r) k) = ix2 r k :=
    funext fun c => Fin.ext (by match c with | ⟨0, _⟩ => rfl | ⟨1, _⟩ => rfl)
  exact congrArg (fun j => z j * z j) e

theorem rowNorm_apply (z : Arr S8192x256) (r : Fin 8192) :
    rowNorm z (ix2 r 0) = Ideal.sqrt (w0 + ∑ k : Fin 256, z (ix2 r k) * z (ix2 r k)) := by
  unfold rowNorm
  show Ideal.sqrt (broadcastInDim S8192x1 ![0] bcast_S8192_S8192x1_0 (rowSq z) (ix2 r 0)) = _
  rw [broadcastInDim_apply _ bcast_S8192_S8192x1_0 _ (ix2 r 0) (ix1 r) (fun a => match a with
    | ⟨0, _⟩ => by show r.val = if (8192 : Nat) = 1 then 0 else r.val; rw [if_neg (by decide)]), rowSq_apply]

theorem floorCol_apply (r : Fin 8192) : floorCol (ix2 r 0) = wEps := by
  unfold floorCol
  rw [broadcastInDim_apply _ bcast_S_S8192x1 _ (ix2 r 0) ix0 (fun a => a.elim0)]
  rfl

theorem normalise_apply (z : Arr S8192x256) (i : S8192x256.Idx) :
    normalise z i
      = Ideal.div (z i) (max (Ideal.sqrt (w0 + ∑ k : Fin 256, z (ix2 (i 0) k) * z (ix2 (i 0) k))) wEps) := by
  unfold normalise
  show Ideal.div (z i)
    (broadcastInDim S8192x256 ![0, 1] bcast_S8192x1_S8192x256_0_1 (maximumf (rowNorm z) floorCol) i) = _
  refine congrArg (Ideal.div (z i)) ?_
  rw [broadcastInDim_apply _ bcast_S8192x1_S8192x256_0_1 _ i (ix2 (i 0) 0) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])]
  rw [maximumf_apply]
  exact congrArg₂ max (rowNorm_apply z (i 0)) (floorCol_apply (i 0))

/-! ### The operations before the call write the normalised rows -/

theorem stackT_eq (a b : Arr S4096x256) : stackT a b = Cert.LossSpec.stack a b :=
  funext fun i => stackT_apply a b i

theorem normalise_eq (z : Arr S8192x256) : normalise z = Cert.LossSpec.znOf z :=
  funext fun i => normalise_apply z i

/-- After the operations before the call, the buffer the call reads holds the normalised rows of the stacked
    arguments. -/
theorem prefix_zn (V : Valuation τ sig (Elt Ideal)) :
    StableHlo.after (hostOps0 (F := Ideal) ++ hostOps0_1 ++ hostOps0_2) V (Proc.devRef .tc main_v5)
      = Cert.LossSpec.znOf (Cert.LossSpec.stack (V (Proc.devRef .tc main_arg0)) (V (Proc.devRef .tc main_arg1))) := by
  rw [prefix_after, stackT_eq, normalise_eq]

theorem prefix_zn_flatten (V : Valuation τ sig (Elt Ideal)) :
    StableHlo.after (List.flatten [hostOps0 (F := Ideal), hostOps0_1, hostOps0_2]) V (Proc.devRef .tc main_v5)
      = Cert.LossSpec.znOf (Cert.LossSpec.stack (V (Proc.devRef .tc main_arg0)) (V (Proc.devRef .tc main_arg1))) := by
  rw [prefix_after_flatten, stackT_eq, normalise_eq]

/-! # After the call -/

/-! ## The operations after the call, as one pure term -/

/-- Row `q`'s product with the row 4096 below it, summed along the row: one entry per row of the lower half. -/
def pairSum (zn : Arr S8192x256) : Arr S4096 :=
  Host.reduceAdd
    (mulf (extractStridedSlice S4096x256 ![0, 0] zn slices_S8192x256_S4096x256_0_0)
      (extractStridedSlice S4096x256 ![4096, 0] zn slices_S8192x256_S4096x256_4096_0))
    (constant (F := Ideal) S_ .f32 0x00000000#32) reducesTo_S4096x256_S4096_d1 h_S_

/-- The pair sums repeated for the upper half. -/
def pairSum2 (zn : Arr S8192x256) : Arr S8192 :=
  concatenate S8192 0 [⟨S4096, pairSum zn⟩, ⟨S4096, pairSum zn⟩] concatenates_S4096_S4096_S8192_d0

/-- The column of denominators as a vector. -/
def denVec (d : Arr S8192x1) : Arr S8192 := shapeCast S8192 d shapeCasts_S8192x1_S8192

/-- Each row's `log den − pair / ½`. -/
def rowLoss (zn : Arr S8192x256) (d : Arr S8192x1) : Arr S8192 :=
  subf (Host.log (denVec d))
    (Host.divf (pairSum2 zn) (broadcastInDim S8192 ![] bcast_S_S8192 (constant (F := Ideal) S_ .f32 0x3F000000#32)))

/-- Their sum divided by the number of rows. -/
def tail (zn : Arr S8192x256) (d : Arr S8192x1) : Arr S_ :=
  Host.divf
    (Host.reduceAdd (rowLoss zn d) (constant (F := Ideal) S_ .f32 0x00000000#32) reducesTo_S8192_S_d0 h_S_)
    (constant (F := Ideal) S_ .f32 0x46000000#32)

theorem tail_after (V : Valuation τ sig (Elt Ideal)) :
    StableHlo.after (hostOps1 (F := Ideal)) V (Proc.devRef .tc main_v18)
      = tail (V (Proc.devRef .tc main_v5)) (V (Proc.devRef .tc main_v6)) := by
  after_results
  rfl

/-! ### Each piece of the mean read at an index -/

/-- A row of the lower half and the row 4096 below it. -/
abbrev loRow (q : Fin 4096) : Fin 8192 := ⟨q.val, by omega⟩
abbrev hiRow (q : Fin 4096) : Fin 8192 := ⟨q.val + 4096, by omega⟩

theorem pairSum_apply (zn : Arr S8192x256) (q : Fin 4096) :
    pairSum zn (ix1 q) = w0 + ∑ k : Fin 256, zn (ix2 (loRow q) k) * zn (ix2 (hiRow q) k) := by
  unfold pairSum
  simp only [Host.reduceAdd, Ideal.hostReduceAdd_def]
  rw [Ideal.hostReduceAdd_single reducesTo_S4096x256_S4096_d1 (by decide)]
  refine congrArg (_ + ·) (Finset.sum_congr rfl fun k _ => ?_)
  rw [mulf_apply]
  congr 1
  · exact extractStridedSlice_apply _ zn _ _ _ (fun a => match a with
      | ⟨0, _⟩ => by show q.val = 0 + q.val; omega
      | ⟨1, _⟩ => by show k.val = 0 + k.val; omega)
  · exact extractStridedSlice_apply _ zn _ _ _ (fun a => match a with
      | ⟨0, _⟩ => by show q.val + 4096 = 4096 + q.val; omega
      | ⟨1, _⟩ => by show k.val = 0 + k.val; omega)

theorem pairSum2_apply (zn : Arr S8192x256) (r : Fin 8192) :
    pairSum2 zn (ix1 r) = pairSum zn (ix1 (⟨r.val % 4096, Nat.mod_lt _ (by decide)⟩ : Fin 4096)) := by
  unfold pairSum2
  by_cases h : r.val < 4096
  · exact concatenate_pair_apply_left 0 _ _ concatenates_S4096_S4096_S8192_d0 (ix1 r) rfl _ (fun b => match b with
      | ⟨0, _⟩ => by show r.val % 4096 = r.val; omega)
  · exact concatenate_pair_apply_right 0 _ _ concatenates_S4096_S4096_S8192_d0 (ix1 r) rfl rfl _
      (fun b hb => match b, hb with | ⟨0, _⟩, hb => absurd rfl hb)
      (by show r.val % 4096 + 4096 = r.val; have := r.isLt; omega)

theorem denVec_apply (d : Arr S8192x1) (r : Fin 8192) : denVec d (ix1 r) = d (ix2 r 0) := by
  unfold denVec
  refine shapeCast_apply d _ (ix1 r) (ix2 r 0) ?_
  rw [Shape.rowMajor_val_two, Shape.rowMajor_val_one]
  show r.val * 1 + 0 = r.val
  omega

theorem rowLoss_apply (zn : Arr S8192x256) (d : Arr S8192x1) (r : Fin 8192) :
    rowLoss zn d (ix1 r)
      = Ideal.log (d (ix2 r 0))
        - Ideal.div (w0 + ∑ k : Fin 256, zn (ix2 (loRow ⟨r.val % 4096, Nat.mod_lt _ (by decide)⟩) k)
            * zn (ix2 (hiRow ⟨r.val % 4096, Nat.mod_lt _ (by decide)⟩) k)) wHalf := by
  unfold rowLoss
  rw [subf_apply]
  congr 1
  · show Ideal.log (denVec d (ix1 r)) = _
    rw [denVec_apply]
  · show Ideal.div (pairSum2 zn (ix1 r)) _ = _
    rw [pairSum2_apply, pairSum_apply]
    rfl

/-- A vector's index set is its one coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem tail_apply (zn : Arr S8192x256) (d : Arr S8192x1) (i : S_.Idx) :
    tail zn d i
      = Ideal.div (w0 + ∑ r : Fin 8192, (Ideal.log (d (ix2 r 0))
        - Ideal.div (w0 + ∑ k : Fin 256, zn (ix2 (loRow ⟨r.val % 4096, Nat.mod_lt _ (by decide)⟩) k)
            * zn (ix2 (hiRow ⟨r.val % 4096, Nat.mod_lt _ (by decide)⟩) k)) wHalf)) wCount := by
  unfold tail
  show Ideal.div (Host.reduceAdd (rowLoss zn d) (constant (F := Ideal) S_ .f32 0x00000000#32) reducesTo_S8192_S_d0 h_S_ i) wCount = _
  refine congrArg (fun x => Ideal.div x wCount) ?_
  simp only [Host.reduceAdd, Ideal.hostReduceAdd_def]
  rw [Ideal.hostReduceAdd_total reducesTo_S8192_S_d0 (fun b => b.elim0), sum_idx1]
  refine congrArg (_ + ·) (Finset.sum_congr rfl fun r _ => ?_)
  exact rowLoss_apply zn d r

/-! ### The operations after the call write the mean loss -/

/-- After the operations after the call, the result buffer holds the mean over the rows of `log den − pos / ½`,
    the denominators read off the call's column. -/
theorem tail_result (V : Valuation τ sig (Elt Ideal)) (i : S_.Idx) :
    StableHlo.after (hostOps1 (F := Ideal)) V (Proc.devRef .tc main_v18) i
      = Cert.LossSpec.resultOf (V (Proc.devRef .tc main_v5)) (fun r => V (Proc.devRef .tc main_v6) (ix2 r 0)) := by
  rw [tail_after, tail_apply]
  rfl

/-! ## What the two stretches leave alone -/

theorem prefix_keeps_arg0 (V : Valuation τ sig (Elt Ideal)) :
    StableHlo.after (hostOps0 (F := Ideal) ++ hostOps0_1 ++ hostOps0_2) V (Proc.devRef .tc main_arg0)
      = V (Proc.devRef .tc main_arg0) := by
  simp only [hostOps0, hostOps0_1, hostOps0_2, List.cons_append, List.nil_append]
  after_results

theorem prefix_keeps_arg1 (V : Valuation τ sig (Elt Ideal)) :
    StableHlo.after (hostOps0 (F := Ideal) ++ hostOps0_1 ++ hostOps0_2) V (Proc.devRef .tc main_arg1)
      = V (Proc.devRef .tc main_arg1) := by
  simp only [hostOps0, hostOps0_1, hostOps0_2, List.cons_append, List.nil_append]
  after_results

theorem tail_keeps_arg0 (V : Valuation τ sig (Elt Ideal)) :
    StableHlo.after (hostOps1 (F := Ideal)) V (Proc.devRef .tc main_arg0) = V (Proc.devRef .tc main_arg0) := by
  after_results

theorem tail_keeps_arg1 (V : Valuation τ sig (Elt Ideal)) :
    StableHlo.after (hostOps1 (F := Ideal)) V (Proc.devRef .tc main_arg1) = V (Proc.devRef .tc main_arg1) := by
  after_results

end Cert.KernelHost

end
-- ==== Proof.KI.KernelValue.lean ====
/-
  The kernel program's run with its value, at the ideal instance.

  The lines before the region leave the normalised rows of the stacked arguments in the array both input windows
  read. The region leaves in the result array, row by row, the denominator accumulated tile by tile. The lines after
  the region then form the mean over the rows of `log den − pos / ½` from those two arrays. So @main ends with the
  tile-by-tile arrangement of the loss of the normalised rows, and with its arguments as it found them.
-/
import proofs.«113197_j52312701666200_2_alg».proof.Proof.KI.Launch
import proofs.«113197_j52312701666200_2_alg».proof.Proof.KI.Body
import proofs.«113197_j52312701666200_2_alg».proof.Proof.KI.Frame
import proofs.«113197_j52312701666200_2_alg».proof.Proof.KI.RegionValue
import proofs.«113197_j52312701666200_2_alg».proof.Proof.KernelHost
import proofs.«113197_j52312701666200_2_alg».proof.Proof.LossSpec

-- membership in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline Idealize.ShloMosaic.ValueIdx

variable (m : (ℓ : Loc nD τ sig) → Buf (Elt Ideal) ℓ) (ρ : Dev nD → PrngReg)

/-- The normalised rows of the two argument arrays of core `c`, stacked. -/
abbrev znArgs (c : Dev nD) : Cert.LossSpec.Rows.Idx → EReal :=
  Cert.LossSpec.znOf (Cert.LossSpec.stack (m ((c.tc : Thread nD τ).loc main_arg0)) (m ((c.tc : Thread nD τ).loc main_arg1)))

/-- The array the two input windows read holds, when the region is entered, the normalised rows. -/
theorem rows_value (c : Dev nD) : V m c main_v5 = znArgs m c :=
  Cert.KernelHost.prefix_zn_flatten (fun b => m (c, b))

/-- After the lines that follow the region the result buffer holds the tile-by-tile loss of the normalised rows:
    those lines read the rows (as the region found them) and the column of denominators (as the write-backs left it). -/
theorem result_value (c : Dev nD) :
    Wend m (dats (F := Ideal) m) c (Proc.devRef .tc main_v18) = fun _ => Cert.LossSpec.resultK (znArgs m c) := by
  funext i
  have h5 : Wexit m (dats (F := Ideal) m) c (Proc.devRef .tc main_v5) = znArgs m c :=
    (Wexit_of_ne m (dats (F := Ideal) m) c main_v5 (by decide)).trans (rows_value m c)
  have h6 : (fun R : Fin 8192 => Wexit m (dats (F := Ideal) m) c (Proc.devRef .tc main_v6) (ix2 R 0))
      = Cert.LossSpec.denomK (znArgs m c) := by
    funext R
    refine (congrFun (Wexit_v6 m (dats (F := Ideal) m) c) (ix2 R 0)).trans ?_
    refine (denoms m c R).trans ?_
    exact congrArg (fun z => Cert.LossSpec.denomK z R) (rows_value m c)
  show StableHlo.after hostOps1 (Wexit m (dats (F := Ideal) m) c) (Proc.devRef .tc main_v18) i = _
  exact (Cert.KernelHost.tail_result (Wexit m (dats (F := Ideal) m) c) i).trans (congrArg₂ Cert.LossSpec.resultOf h5 h6)

/-- Every weakly fair execution of @main terminates without a fault; the result is the tile-by-tile loss of the
    normalised rows of the stacked arguments, and the arguments are unchanged. -/
theorem kernel_run : θ_run (defs (F := Ideal)) (onTc (τ := τ) (main (F := Ideal))) ⟨m, fun _ => 0, ρ⟩ (fun r => ∀ c : Dev nD,
      r.2.mem ((c.tc : Thread nD τ).loc main_v18)
        = (fun _ => Cert.LossSpec.resultK (Cert.LossSpec.znOf (Cert.LossSpec.stack
            (m ((c.tc : Thread nD τ).loc main_arg0)) (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c =>
      ⟨((h c).2 main_v18 mem_rest_v18).trans (result_value m c),
       ((h c).2 main_arg0 mem_rest_arg0).trans (end_arg0 m (dats (F := Ideal) m) c),
       ((h c).2 main_arg1 mem_rest_arg1).trans (end_arg1 m (dats (F := Ideal) m) c)⟩)
    (run_with_body m ρ)

end Cert.KernelIdeal.Hand

end
-- ==== Proof.ReferenceValue.lean ====
/-
  The reference program read index by index, at the ideal instance.

  The reference stacks the two argument arrays, divides each row by the larger of its norm and a small floor,
  forms the whole matrix of inner products of the normalised rows, reads the positive pairs off the two
  diagonals 4096 away from the main one, sums along each row the exponentials of the similarities over one half
  with the main diagonal struck out, and averages minus the logarithm of the quotient. Each step below identifies one
  stage of that program with the matching piece of the specification, so that the final scalar is the
  all-at-once arrangement of the loss.
-/
import proofs.«113197_j52312701666200_2_alg».proof.Proof.Gen.ReferenceIdeal.Read
import proofs.«113197_j52312701666200_2_alg».proof.Proof.LossSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceValue

open Cert.ReferenceIdeal Cert.ReferenceIdeal.Gen Cert.ReferenceIdeal.Read Cert.LossSpec
open Idealize.ShloMosaic Idealize.ShloMosaic.ValueIdx

/-- One argument array: 4096 rows of 256 extended reals. -/
abbrev Arg : Type := (⟨S4096x256, .f32⟩ : BufTy).Contents (Elt Ideal)

/-! ## The stacked and normalised rows -/

/-- The concatenation along the rows reads the first array on rows below 4096 and the second above. -/
theorem stack_apply (x0 x1 : Arg) (i : S8192x256.Idx) :
    val_main_v0 (F := Ideal) x0 x1 i = stack x0 x1 i := by
  unfold val_main_v0 stack
  by_cases h : (i 0).val < 4096
  · rw [dif_pos h]
    exact concatenate_pair_apply_left (t := S8192x256) (s₁ := S4096x256) (s₂ := S4096x256) (0 : Fin 2) x0 x1 concatenates_S4096x256_S4096x256_S8192x256_d0 i rfl
      (ix2 ⟨(i 0).val, h⟩ (i 1)) (fun b => match b with | ⟨0, _⟩ => rfl | ⟨1, _⟩ => rfl)
  · rw [dif_neg h]
    refine concatenate_pair_apply_right (t := S8192x256) (s₁ := S4096x256) (s₂ := S4096x256) (0 : Fin 2) x0 x1 concatenates_S4096x256_S4096x256_S8192x256_d0 i rfl rfl
      (ix2 ⟨(i 0).val - 4096, by have := idx2_lt0 i; omega⟩ (i 1)) (fun b hb => ?_) ?_
    · match b with
      | ⟨0, _⟩ => exact absurd rfl hb
      | ⟨1, _⟩ => rfl
    · show (i 0).val - 4096 + 4096 = (i 0).val
      omega

theorem stack_eq (x0 x1 : Arg) : val_main_v0 (F := Ideal) x0 x1 = stack x0 x1 :=
  funext (stack_apply x0 x1)

/-- A row's sum of squares. -/
theorem normSq_apply (x0 x1 : Arg) (r : Fin 8192) :
    val_main_call0_v1 (F := Ideal) x0 x1 (ix1 r) = normSq (stack x0 x1) r := by
  rw [val_main_call0_v1_apply]
  unfold normSq
  refine congrArg₂ (· + ·) rfl (Finset.sum_congr rfl fun k _ => ?_)
  have e : idx_main_call0_v1 (ix1 r) k = ix2 r k :=
    funext fun a => by match a with | ⟨0, _⟩ => rfl | ⟨1, _⟩ => rfl
  rw [e, val_main_call0_v0_apply, stack_apply]
  rfl

/-- The normalised rows: each entry over the larger of its row's norm and the floor. -/
theorem zn_apply (x0 x1 : Arg) (i : S8192x256.Idx) :
    val_main_v5 (F := Ideal) x0 x1 i = znOf (stack x0 x1) i := by
  have e : idx_main_call0_v2 (idx_main_v4 i) = ix1 (⟨(i 0).val, idx2_lt0 i⟩ : Fin 8192) :=
    funext fun a => by match a with | ⟨0, _⟩ => rfl
  rw [val_main_v5_apply, val_main_v4_apply, val_main_v3_apply, val_main_v1_apply, val_main_call0_v2_apply,
    val_main_v2_apply, val_main_cst_apply, e, normSq_apply, stack_apply]
  rfl

theorem zn_eq (x0 x1 : Arg) :
    Cert.ReferenceIdeal.Read.val_main_v5 (F := Ideal) x0 x1 = Cert.LossSpec.znOf (Cert.LossSpec.stack x0 x1) :=
  funext (zn_apply x0 x1)

/-! ## Words: small naturals as 32-bit integers

The program computes the diagonal's positions and the row-equals-column mask in 32-bit integers. Every number involved
is below 2³¹, where a word's signed and unsigned readings are the number itself. -/

theorem toNat_small (n : Nat) (h : n < 2147483648) : (BitVec.ofNat 32 n).toNat = n := by
  rw [BitVec.toNat_ofNat]; omega

theorem toInt_small (n : Nat) (h : n < 2147483648) : (BitVec.ofNat 32 n).toInt = (n : Int) := by
  rw [BitVec.toInt_eq_toNat_cond, toNat_small n h]
  have : 2 * n < 2 ^ 32 := by omega
  rw [if_pos this]

/-- A small natural is not negative as a signed word. -/
theorem slt_zero_small (n : Nat) (h : n < 2147483648) : IntOp.cmpi .slt (BitVec.ofNat 32 n) 0#32 = 0#1 := by
  unfold IntOp.cmpi
  have : (BitVec.ofNat 32 n).slt 0#32 = false := by
    rw [BitVec.slt_eq_decide, toInt_small n h]
    simp
  simp only [this]
  rfl

/-- So "add the extent if negative" leaves it alone. -/
theorem select_nonneg (n : Nat) (h : n < 2147483648) {α : Type} (A B : α) :
    Scalar.select (IntOp.cmpi .slt (BitVec.ofNat 32 n) 0#32) A B = B := by
  rw [slt_zero_small n h]; exact select_zero A B

/-- A position inside the matrix is its own clamp. -/
theorem clamp_small (n : Nat) (h : n < 8192) : min (BitVec.ofNat 32 n).toInt.toNat (8192 - 1) = n := by
  rw [toInt_small n (by omega), Int.toNat_natCast]; omega

theorem add_4096 (p : Nat) : IntOp.addi 4096#32 (BitVec.ofNat 32 p) = BitVec.ofNat 32 (4096 + p) :=
  (BitVec.ofNat_add 4096 p).symm

/-- The mask "row differs from column" selects its first operand off the diagonal and its second on it. -/
theorem diag_mask (r c : Nat) (hr : r < 8192) (hc : c < 8192) {α : Type} (A B : α) :
    Scalar.select (~~~(IntOp.cmpi .eq (IntOp.addi (BitVec.ofNat 32 r) 0#32) (BitVec.ofNat 32 c))) A B = if r = c then B else A := by
  unfold IntOp.cmpi IntOp.addi
  rw [BitVec.add_zero]
  by_cases h : r = c
  · subst h
    rw [if_pos rfl]
    simp [Scalar.select]
  · rw [if_neg h]
    have : (BitVec.ofNat 32 r == BitVec.ofNat 32 c) = false := by
      rw [beq_eq_false_iff_ne]
      intro e
      have := congrArg BitVec.toNat e
      rw [toNat_small r (by omega), toNat_small c (by omega)] at this
      exact h this
    simp [Scalar.select, this]

/-- A rank-1 index set is its coordinate's range, so a sum over it is the sum over the coordinate. -/
def idxEquiv1 {n : Nat} : (⟨1, ![n]⟩ : Shape).Idx ≃ Fin n where
  toFun i := i 0
  invFun r := ix1 r
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A gather of one element per (row, column) pair

An operand [N, M] read at start indices [R, 2] with both axes collapsed: result element `p` is the operand at the
pair in row `p` of the start indices, each component read as a signed integer and clamped into the operand. -/

section PairGather
variable {α : Type}

abbrev pairDims (N M R : Nat) (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

theorem gather_pair_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (p : Fin R) :
    Host.gather (pairDims N M R wf) x idx (ix1 p) =
      x (ix2 ⟨min (idx (ix2 p (0 : Fin 2))).toInt.toNat (N - 1), by omega⟩
             ⟨min (idx (ix2 p (1 : Fin 2))).toInt.toNat (M - 1), by omega⟩) := by
  have h0 : (0 : Fin 2) ∈ ([0, 1] : List (Fin 2)) := by decide
  have h1 : (1 : Fin 2) ∈ ([0, 1] : List (Fin 2)) := by decide
  unfold Host.gather
  congr 1
  funext a
  refine Fin.ext ?_
  show (pairDims N M R wf).start (ix1 p) idx a + (pairDims N M R wf).batchCoord (ix1 p) a + (pairDims N M R wf).offCoord (ix1 p) a = _
  rw [GatherDims.batchCoord_eq_zero _ _ _ List.not_mem_nil]
  match a with
  | ⟨0, _⟩ =>
    rw [GatherDims.offCoord_eq_zero _ _ _ (fun h => ((GatherDims.mem_sKept _ _).mp h).1 h0)]
    simp only [Nat.add_zero]
    unfold GatherDims.start
    rw [dif_pos (show (⟨0, by decide⟩ : Fin 2) ∈ (pairDims N M R wf).startIndexMap from h0)]
    have hsi : (pairDims N M R wf).siIdx (ix1 p) ⟨List.idxOf (⟨0, by decide⟩ : Fin 2) (pairDims N M R wf).startIndexMap,
        List.idxOf_lt_length_iff.2 h0⟩ = ix2 p (0 : Fin 2) := by
      funext b; refine Fin.ext ?_
      match b with
      | ⟨0, _⟩ => rfl
      | ⟨1, _⟩ => rfl
    rw [hsi]
    rfl
  | ⟨1, _⟩ =>
    rw [GatherDims.offCoord_eq_zero _ _ _ (fun h => ((GatherDims.mem_sKept _ _).mp h).1 h1)]
    simp only [Nat.add_zero]
    unfold GatherDims.start
    rw [dif_pos (show (⟨1, by decide⟩ : Fin 2) ∈ (pairDims N M R wf).startIndexMap from h1)]
    have hsi : (pairDims N M R wf).siIdx (ix1 p) ⟨List.idxOf (⟨1, by decide⟩ : Fin 2) (pairDims N M R wf).startIndexMap,
        List.idxOf_lt_length_iff.2 h1⟩ = ix2 p (1 : Fin 2) := by
      funext b; refine Fin.ext ?_
      match b with
      | ⟨0, _⟩ => rfl
      | ⟨1, _⟩ => rfl
    rw [hsi]
    rfl

end PairGather

/-! ## The similarity matrix and the row denominators -/

/-- Entry (r, c) of the product of the normalised rows with their transpose is the inner product of rows r and c. -/
theorem sim_apply (x0 x1 : Arg) (r c : Fin 8192) :
    val_main_v7 (F := Ideal) x0 x1 (ix2 r c) = sim (znOf (stack x0 x1)) r c := by
  rw [val_main_v7_apply]
  unfold sim
  refine Finset.sum_congr rfl fun k _ => ?_
  have el : lidx_main_v7 (ix2 r c) k = ix2 r k :=
    funext fun a => by match a with | ⟨0, _⟩ => rfl | ⟨1, _⟩ => rfl
  have er : idx_main_v6 (ridx_main_v7 (ix2 r c) k) = ix2 c k :=
    funext fun a => by match a with | ⟨0, _⟩ => rfl | ⟨1, _⟩ => rfl
  rw [val_main_v6_apply, el, er, zn_eq]

/-- Row r's denominator: the exponentials of the similarities over one half, summed over the other rows. -/
theorem denom_apply (x0 x1 : Arg) (r : Fin 8192) :
    val_main_v21 (F := Ideal) x0 x1 (ix1 r) = denomR (znOf (stack x0 x1)) r := by
  rw [val_main_v21_apply]
  unfold denomR
  refine congrArg₂ (· + ·) rfl (Finset.sum_congr rfl fun c _ => ?_)
  have e : idx_main_v21 (ix1 r) c = ix2 r c :=
    funext fun a => by match a with | ⟨0, _⟩ => rfl | ⟨1, _⟩ => rfl
  rw [e, val_main_v20_apply, val_main_v16_apply, val_main_v15_apply, val_main_v14_apply, val_main_v11_apply,
    val_main_v12_apply, val_main_v13_apply, val_main_c_apply, val_main_v19_apply, val_main_v18_apply,
    val_main_v17_apply, val_main_cst_0_apply, val_main_call3_v1_apply, val_main_call3_v0_apply,
    val_main_cst_1_apply, sim_apply]
  refine (diag_mask r.val c.val r.isLt c.isLt _ _).trans ?_
  by_cases h : r = c
  · rw [if_pos h, if_pos (congrArg Fin.val h)]; rfl
  · rw [if_neg h, if_neg (fun e' => h (Fin.ext e'))]; rfl

/-! ## The positive pairs: the two diagonals 4096 off the main one -/

/-- The first diagonal's start indices: row p, column 4096 + p. -/
theorem upper_row (p : Fin 4096) :
    val_main_call1_v16 (F := Ideal) (ix2 p (0 : Fin 2)) = BitVec.ofNat 32 p.val := by
  unfold val_main_call1_v16
  refine (concatenate_pair_apply_left (t := S4096x2) (s₁ := S4096x1) (s₂ := S4096x1) (1 : Fin 2)
    (val_main_call1_v14 (F := Ideal)) (val_main_call1_v15 (F := Ideal)) concatenates_S4096x1_S4096x1_S4096x2_d1 (ix2 p (0 : Fin 2)) rfl
    (ix2 p (0 : Fin 1)) (fun b => match b with | ⟨0, _⟩ => rfl | ⟨1, _⟩ => rfl)).trans ?_
  rw [val_main_call1_v14_apply, val_main_call1_v8_apply, val_main_call1_v5_apply, val_main_call1_v0_apply,
    val_main_call1_v4_apply, val_main_call1_c_0_apply]
  exact select_nonneg p.val (by have := p.isLt; omega) _ _

theorem upper_col (p : Fin 4096) :
    val_main_call1_v16 (F := Ideal) (ix2 p (1 : Fin 2)) = BitVec.ofNat 32 (4096 + p.val) := by
  unfold val_main_call1_v16
  refine (concatenate_pair_apply_right (t := S4096x2) (s₁ := S4096x1) (s₂ := S4096x1) (1 : Fin 2)
    (val_main_call1_v14 (F := Ideal)) (val_main_call1_v15 (F := Ideal)) concatenates_S4096x1_S4096x1_S4096x2_d1 (ix2 p (1 : Fin 2)) rfl rfl
    (ix2 p (0 : Fin 1)) (fun b hb => ?_) rfl).trans ?_
  · match b with
    | ⟨0, _⟩ => rfl
    | ⟨1, _⟩ => exact absurd rfl hb
  rw [val_main_call1_v15_apply, val_main_call1_v13_apply, val_main_call1_v10_apply, val_main_call1_v3_apply,
    val_main_call1_v2_apply, val_main_call1_c_apply, val_main_call1_v1_apply, val_main_call1_v9_apply,
    val_main_call1_c_2_apply]
  have ea : IntOp.addi 4096#32 (BitVec.ofNat 32 p.val) = BitVec.ofNat 32 (4096 + p.val) := add_4096 p.val
  show Scalar.select (IntOp.cmpi .slt (IntOp.addi 4096#32 (BitVec.ofNat 32 p.val)) 0#32) _
    (IntOp.addi 4096#32 (BitVec.ofNat 32 p.val)) = _
  rw [ea]
  exact select_nonneg (4096 + p.val) (by have := p.isLt; omega) _ _

/-- The second diagonal's start indices: row 4096 + p, column p. -/
theorem lower_row (p : Fin 4096) :
    val_main_call2_v16 (F := Ideal) (ix2 p (0 : Fin 2)) = BitVec.ofNat 32 (4096 + p.val) := by
  unfold val_main_call2_v16
  refine (concatenate_pair_apply_left (t := S4096x2) (s₁ := S4096x1) (s₂ := S4096x1) (1 : Fin 2)
    (val_main_call2_v14 (F := Ideal)) (val_main_call2_v15 (F := Ideal)) concatenates_S4096x1_S4096x1_S4096x2_d1 (ix2 p (0 : Fin 2)) rfl
    (ix2 p (0 : Fin 1)) (fun b => match b with | ⟨0, _⟩ => rfl | ⟨1, _⟩ => rfl)).trans ?_
  rw [val_main_call2_v14_apply, val_main_call2_v8_apply, val_main_call2_v5_apply, val_main_call2_v3_apply,
    val_main_call2_v2_apply, val_main_call2_c_apply, val_main_call2_v1_apply, val_main_call2_v4_apply,
    val_main_call2_c_0_apply]
  have ea : IntOp.addi 4096#32 (BitVec.ofNat 32 p.val) = BitVec.ofNat 32 (4096 + p.val) := add_4096 p.val
  show Scalar.select (IntOp.cmpi .slt (IntOp.addi 4096#32 (BitVec.ofNat 32 p.val)) 0#32) _
    (IntOp.addi 4096#32 (BitVec.ofNat 32 p.val)) = _
  rw [ea]
  exact select_nonneg (4096 + p.val) (by have := p.isLt; omega) _ _

theorem lower_col (p : Fin 4096) :
    val_main_call2_v16 (F := Ideal) (ix2 p (1 : Fin 2)) = BitVec.ofNat 32 p.val := by
  unfold val_main_call2_v16
  refine (concatenate_pair_apply_right (t := S4096x2) (s₁ := S4096x1) (s₂ := S4096x1) (1 : Fin 2)
    (val_main_call2_v14 (F := Ideal)) (val_main_call2_v15 (F := Ideal)) concatenates_S4096x1_S4096x1_S4096x2_d1 (ix2 p (1 : Fin 2)) rfl rfl
    (ix2 p (0 : Fin 1)) (fun b hb => ?_) rfl).trans ?_
  · match b with
    | ⟨0, _⟩ => rfl
    | ⟨1, _⟩ => exact absurd rfl hb
  rw [val_main_call2_v15_apply, val_main_call2_v13_apply, val_main_call2_v10_apply, val_main_call2_v0_apply,
    val_main_call2_v9_apply, val_main_call2_c_2_apply]
  exact select_nonneg p.val (by have := p.isLt; omega) _ _

/-- The first diagonal: entry p is the similarity of row p with row 4096 + p. -/
theorem upper_apply (x0 x1 : Arg) (p : Fin 4096) :
    val_main_v8 (F := Ideal) x0 x1 (ix1 p) =
      sim (znOf (stack x0 x1)) ⟨p.val, by have := p.isLt; omega⟩ ⟨4096 + p.val, by have := p.isLt; omega⟩ := by
  unfold val_main_v8
  refine (gather_pair_apply (N := 8192) (M := 8192) (by decide) (by decide) gather_S8192x8192_S4096x2_S4096_n_01_n_n_01_1_11_wf
    (val_main_v7 (F := Ideal) x0 x1) (val_main_call1_v16 (F := Ideal)) p).trans ?_
  rw [← sim_apply]
  refine congrArg (val_main_v7 (F := Ideal) x0 x1) (funext fun a => Fin.ext ?_)
  match a with
  | ⟨0, _⟩ =>
    show min (val_main_call1_v16 (F := Ideal) (ix2 p (0 : Fin 2))).toInt.toNat (8192 - 1) = p.val
    rw [upper_row]; exact clamp_small p.val (by have := p.isLt; omega)
  | ⟨1, _⟩ =>
    show min (val_main_call1_v16 (F := Ideal) (ix2 p (1 : Fin 2))).toInt.toNat (8192 - 1) = 4096 + p.val
    rw [upper_col]; exact clamp_small (4096 + p.val) (by have := p.isLt; omega)

/-- The second diagonal: entry p is the similarity of row 4096 + p with row p. -/
theorem lower_apply (x0 x1 : Arg) (p : Fin 4096) :
    val_main_v9 (F := Ideal) x0 x1 (ix1 p) =
      sim (znOf (stack x0 x1)) ⟨4096 + p.val, by have := p.isLt; omega⟩ ⟨p.val, by have := p.isLt; omega⟩ := by
  unfold val_main_v9
  refine (gather_pair_apply (N := 8192) (M := 8192) (by decide) (by decide) gather_S8192x8192_S4096x2_S4096_n_01_n_n_01_1_11_wf
    (val_main_v7 (F := Ideal) x0 x1) (val_main_call2_v16 (F := Ideal)) p).trans ?_
  rw [← sim_apply]
  refine congrArg (val_main_v7 (F := Ideal) x0 x1) (funext fun a => Fin.ext ?_)
  match a with
  | ⟨0, _⟩ =>
    show min (val_main_call2_v16 (F := Ideal) (ix2 p (0 : Fin 2))).toInt.toNat (8192 - 1) = 4096 + p.val
    rw [lower_row]; exact clamp_small (4096 + p.val) (by have := p.isLt; omega)
  | ⟨1, _⟩ =>
    show min (val_main_call2_v16 (F := Ideal) (ix2 p (1 : Fin 2))).toInt.toNat (8192 - 1) = p.val
    rw [lower_col]; exact clamp_small p.val (by have := p.isLt; omega)

/-- The two diagonals joined: row r's positive pair is its similarity with the row 4096 away. -/
theorem pos_apply (x0 x1 : Arg) (r : Fin 8192) :
    val_main_v10 (F := Ideal) x0 x1 (ix1 r) = posR (znOf (stack x0 x1)) r := by
  unfold val_main_v10 posR
  by_cases h : r.val < 4096
  · refine (concatenate_pair_apply_left (t := S8192) (s₁ := S4096) (s₂ := S4096) (0 : Fin 1)
      (val_main_v8 (F := Ideal) x0 x1) (val_main_v9 (F := Ideal) x0 x1) concatenates_S4096_S4096_S8192_d0 (ix1 r) rfl
      (ix1 ⟨r.val, h⟩) (fun b => match b with | ⟨0, _⟩ => rfl)).trans ?_
    rw [upper_apply]
    refine congrArg₂ (sim (znOf (stack x0 x1))) (Fin.ext rfl) (Fin.ext ?_)
    show 4096 + r.val = (r.val + 4096) % 8192
    omega
  · have hr := r.isLt
    refine (concatenate_pair_apply_right (t := S8192) (s₁ := S4096) (s₂ := S4096) (0 : Fin 1)
      (val_main_v8 (F := Ideal) x0 x1) (val_main_v9 (F := Ideal) x0 x1) concatenates_S4096_S4096_S8192_d0 (ix1 r) rfl rfl
      (ix1 ⟨r.val - 4096, by omega⟩) (fun b hb => ?_) ?_).trans ?_
    · match b with
      | ⟨0, _⟩ => exact absurd rfl hb
    · show r.val - 4096 + 4096 = r.val
      omega
    rw [lower_apply]
    refine congrArg₂ (sim (znOf (stack x0 x1))) (Fin.ext ?_) (Fin.ext ?_)
    · show 4096 + (r.val - 4096) = r.val
      omega
    · show r.val - 4096 = (r.val + 4096) % 8192
      omega

/-! ## The rows' losses and their mean -/

/-- Row r's loss: minus the logarithm of the positive pair's exponential over the denominator. -/
theorem loss_apply (x0 x1 : Arg) (r : Fin 8192) :
    val_main_v27 (F := Ideal) x0 x1 (ix1 r) = lossR (znOf (stack x0 x1)) r := by
  rw [val_main_v27_apply, val_main_v26_apply, val_main_v25_apply, val_main_v24_apply, val_main_v23_apply,
    val_main_v22_apply, val_main_cst_3_apply, denom_apply, pos_apply]
  rfl

/-- The reference's scalar is the all-at-once arrangement of the loss. -/
theorem result_eq (x0 x1 : Arg) (i : S_.Idx) :
    Cert.ReferenceIdeal.Read.val_main_v29 (F := Ideal) x0 x1 i =
      Cert.LossSpec.resultR (Cert.LossSpec.znOf (Cert.LossSpec.stack x0 x1)) := by
  have hs : ∑ j : S8192.Idx, val_main_v27 (F := Ideal) x0 x1 j = ∑ r : Fin 8192, lossR (znOf (stack x0 x1)) r := by
    rw [sum_idx1]
    exact Finset.sum_congr rfl fun r _ => loss_apply x0 x1 r
  rw [val_main_v29_apply, val_main_v28_apply, val_main_cst_5_apply, hs]
  rfl

end Cert.ReferenceValue

end
-- ==== Proof.LossAlgebra.lean ====
/-
  The two arrangements of the contrastive loss are one number.

  Over the stacked and normalised rows, the tile-by-tile arrangement (the denominator accumulated over eight
  tiles of 1024 columns, the similarity scaled by the product with 2, the positive pair as the inner product of the
  row's lower and upper copies, the row's loss as log denom − pos / ½) and the all-at-once arrangement (the
  denominator summed over all 8192 columns, the similarity scaled by the quotient by ½, the positive pair read off
  the similarity 4096 off the diagonal, the row's loss as −log (exp (pos / ½) / denom)) give the same mean
  whenever every entry of the rows is a real number.

  The steps: (1) x · 2 = x / ½ on every extended real; (2) the accumulator after eight tiles is the initial value
  plus the eight tile sums, and the eight tiles of 1024 columns are exactly the 8192 columns, so the two
  denominators agree (only commutativity and associativity of the sum are used); (3) the two positive pairs are
  the same inner product, up to the order of the factors for a row of the upper half; (4) with real rows the
  similarities are real, the denominator is a positive real (every term is nonnegative and the term of the row
  4096 away is positive), and log d − 2p = −log (exp (2p) / d) for real p and d > 0; (5) the means agree term by
  term.
-/
import proofs.«113197_j52312701666200_2_alg».proof.Proof.LossSpec
import Idealize.ShloMosaic.PureOps.Ideal
import Idealize.ShloMosaic.PureOps.Ideal.Laws
import Idealize.ShloMosaic.Lib.ValueIdx
import Mathlib

noncomputable section

open scoped BigOperators

namespace Cert.LossAlgebra

open Idealize.ShloMosaic Idealize.ShloMosaic.ValueIdx Cert.LossSpec

/-! ## The constants as real numbers -/

theorem zero_eq : zero = 0 := by
  unfold zero; exact Ideal.ofBits_zero_f32

theorem two_eq : two = ((2 : ℝ) : EReal) := by
  unfold two; simp [Ideal.ofBits, Ideal.ieee, -EReal.coe_mul]; norm_num

theorem half_eq : half = ((1 / 2 : ℝ) : EReal) := by
  unfold half; simp [Ideal.ofBits, Ideal.ieee, -EReal.coe_mul]; norm_num

/-! ## (1) The two scalings agree: the product with 2 is the quotient by ½, on every extended real -/

theorem mul_two_eq_div_half (x : EReal) : x * two = Ideal.div x half := by
  rw [half_eq, two_eq, Ideal.div_coe (by norm_num : (1 / 2 : ℝ) ≠ 0)]
  norm_num

/-- The quotient of a real p by ½ is the real 2 p. -/
theorem div_half_coe (p : ℝ) : Ideal.div (p : EReal) half = ((p * 2 : ℝ) : EReal) := by
  rw [← mul_two_eq_div_half, two_eq, ← EReal.coe_mul]

/-! ## (4) One row's loss over the reals -/

/-- For a real positive pair p and a positive real denominator d:
    log d − p / ½ = −log (exp (p / ½) / d). -/
theorem row_loss_real (p d : ℝ) (hd : 0 < d) :
    Ideal.log (d : EReal) - Ideal.div (p : EReal) half
      = -(Ideal.log (Ideal.div (Ideal.exp (Ideal.div (p : EReal) half)) (d : EReal))) := by
  have hd0 : d ≠ 0 := ne_of_gt hd
  have hq : 0 < Real.exp (p * 2) * (1 / d) := by positivity
  rw [div_half_coe, Ideal.exp_coe, Ideal.div_coe hd0, ← EReal.coe_mul, Ideal.log_coe, Ideal.log_coe,
    if_neg (not_le.mpr hd), if_neg (not_le.mpr hq), ← EReal.coe_sub, ← EReal.coe_neg]
  congr 1
  rw [one_div, ← div_eq_mul_inv, Real.log_div (Real.exp_pos _).ne' hd0, Real.log_exp]
  ring

/-! ## (2) The tile-by-tile accumulator is the sum over all columns -/

/-- The eight tiles of 1024 columns are exactly the 8192 columns: a double sum over (tile, column in tile)
    is the sum over the columns, in any commutative monoid. -/
theorem sum_tiles {M : Type*} [AddCommMonoid M] (f : Fin 8192 → M) :
    ∑ j : Fin 8, ∑ c' : Fin 1024, f (col j c') = ∑ c : Fin 8192, f c := by
  rw [← Fintype.sum_prod_type' (f := fun j c' => f (col j c'))]
  refine Fintype.sum_equiv
    ((finProdFinEquiv (m := 8) (n := 1024)).trans (finCongr (by norm_num : 8 * 1024 = 8192))) _ _ (fun x => ?_)
  congr 1
  apply Fin.ext
  show 1024 * x.1.val + x.2.val = x.2.val + 1024 * x.1.val
  omega

/-- The accumulator after the first n tiles: the initial value plus their tile sums. -/
theorem accK_eq (zn : Rows.Idx → EReal) (r : Fin 8192) (n : ℕ) (hn : n ≤ 8) :
    accK zn r n = zero + ∑ j : Fin n, tileSum zn r (Fin.castLE hn j) := by
  induction n with
  | zero => simp [accK]
  | succ n ih =>
    have h : n < 8 := hn
    rw [accK, dif_pos h, ih (le_of_lt h), Fin.sum_univ_castSucc, add_assoc]
    rfl

/-- The accumulator after all eight tiles: the initial value plus the eight tile sums. -/
theorem accK_eight (zn : Rows.Idx → EReal) (r : Fin 8192) :
    accK zn r 8 = zero + ∑ j : Fin 8, tileSum zn r j :=
  accK_eq zn r 8 (le_refl 8)

/-- The kernel's denominator is the reference's. -/
theorem denomK_eq_denomR (zn : Rows.Idx → EReal) (r : Fin 8192) : denomK zn r = denomR zn r := by
  unfold denomK denomR
  rw [accK_eight]
  congr 1
  unfold tileSum
  rw [sum_tiles (fun c => if c = r then zero else Ideal.exp (sim zn r c * two))]
  refine Finset.sum_congr rfl (fun c _ => ?_)
  by_cases h : c = r
  · rw [if_pos h, if_pos h.symm]
  · rw [if_neg h, if_neg (fun h' => h h'.symm), mul_two_eq_div_half]

/-! ## (3) The positive pair -/

/-- The inner product of the row's lower and upper copies is the similarity of the row with the row 4096 away:
    for a row of the lower half they are the same two rows in the same order, for a row of the upper half in the
    other order. -/
theorem posK_eq_posR (zn : Rows.Idx → EReal) (r : Fin 8192) : posK zn r = posR zn r := by
  unfold posK posR sim
  rw [zero_eq, zero_add]
  have hr := r.isLt
  by_cases h : r.val < 4096
  · have hl : lo r = r := Fin.ext (by show r.val % 4096 = r.val; omega)
    have hh : hi r = partner r := Fin.ext (by show r.val % 4096 + 4096 = (r.val + 4096) % 8192; omega)
    rw [hl, hh]
  · have hl : lo r = partner r := Fin.ext (by show r.val % 4096 = (r.val + 4096) % 8192; omega)
    have hh : hi r = r := Fin.ext (by show r.val % 4096 + 4096 = r.val; omega)
    rw [hl, hh]
    exact Finset.sum_congr rfl (fun k _ => mul_comm _ _)

/-! ## (4) With real rows every piece is real, and the denominator positive -/

/-- A finite sum of real numbers, taken in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- The similarity of two real rows. -/
def simRe (f : Rows.Idx → ℝ) (r c : Fin 8192) : ℝ := ∑ k : Fin 256, f (ix2 r k) * f (ix2 c k)

theorem sim_coe (f : Rows.Idx → ℝ) (r c : Fin 8192) :
    sim (fun i => ((f i : ℝ) : EReal)) r c = ((simRe f r c : ℝ) : EReal) := by
  unfold sim simRe
  rw [← coe_sum]
  exact Finset.sum_congr rfl (fun k _ => (EReal.coe_mul _ _).symm)

/-- The real denominator: the sum over the other rows of exp (2 · similarity). -/
def denomRe (f : Rows.Idx → ℝ) (r : Fin 8192) : ℝ :=
  ∑ c : Fin 8192, if r = c then 0 else Real.exp (simRe f r c * 2)

theorem denomR_coe (f : Rows.Idx → ℝ) (r : Fin 8192) :
    denomR (fun i => ((f i : ℝ) : EReal)) r = ((denomRe f r : ℝ) : EReal) := by
  unfold denomR denomRe
  rw [zero_eq, zero_add, ← coe_sum]
  refine Finset.sum_congr rfl (fun c _ => ?_)
  by_cases h : r = c
  · rw [if_pos h, if_pos h, EReal.coe_zero]
  · rw [if_neg h, if_neg h, sim_coe, div_half_coe, Ideal.exp_coe]

/-- Every term is nonnegative and the term of the row 4096 away is positive. -/
theorem denomRe_pos (f : Rows.Idx → ℝ) (r : Fin 8192) : 0 < denomRe f r := by
  unfold denomRe
  refine Finset.sum_pos' (fun c _ => ?_) ⟨partner r, Finset.mem_univ _, ?_⟩
  · by_cases h : r = c
    · rw [if_pos h]
    · rw [if_neg h]; exact (Real.exp_pos _).le
  · have h : r ≠ partner r := fun h => by
      have hv : r.val = (r.val + 4096) % 8192 := congrArg Fin.val h
      have hr := r.isLt
      omega
    rw [if_neg h]; exact Real.exp_pos _

/-! ## (5) The two arrangements are the same mean -/

/-- One row's term of the tile-by-tile arrangement is the row's loss of the all-at-once arrangement. -/
theorem row_eq (f : Rows.Idx → ℝ) (r : Fin 8192) :
    Ideal.log (denomK (fun i => ((f i : ℝ) : EReal)) r) - Ideal.div (posK (fun i => ((f i : ℝ) : EReal)) r) half
      = lossR (fun i => ((f i : ℝ) : EReal)) r := by
  rw [denomK_eq_denomR, posK_eq_posR]
  unfold lossR posR
  rw [denomR_coe, sim_coe]
  exact row_loss_real _ _ (denomRe_pos f r)

theorem resultK_eq_resultR (zn : Cert.LossSpec.Rows.Idx → EReal) (hreal : ∀ i, ∃ x : ℝ, zn i = (x : EReal)) :
    Cert.LossSpec.resultK zn = Cert.LossSpec.resultR zn := by
  choose f hf using hreal
  obtain rfl : zn = fun i => ((f i : ℝ) : EReal) := funext hf
  unfold resultK resultR resultOf
  rw [Finset.sum_congr rfl (fun r _ => row_eq f r)]

end Cert.LossAlgebra

end
-- ==== Proof.RowsFinite.lean ====
/-
  Finiteness of the normalised rows: when every entry of the two argument arrays is a real number, so is every
  entry of the stacked array, and so is every entry of each row divided by `max ‖row‖ ε`.

  The mathematics: a real row's sum of squares is a nonnegative real `s`; its square root is the real `√s ≥ 0`;
  the maximum of `√s` with the positive real `ε` is a positive real; and a real divided by a nonzero real is a real.
-/
import proofs.«113197_j52312701666200_2_alg».proof.Proof.LossSpec
import Idealize.ShloMosaic.PureOps.Ideal
import Idealize.ShloMosaic.Lib.ValueIdx
import Mathlib

noncomputable section

open scoped BigOperators

namespace Cert.RowsFinite

open Idealize.ShloMosaic Idealize.ShloMosaic.ValueIdx

/-- The word 0 denotes the real 0. -/
theorem zero_real : Cert.LossSpec.zero = ((0 : ℝ) : EReal) := by
  simp [Cert.LossSpec.zero, Ideal.ofBits, Ideal.ieee]

/-- The norm's floor ε denotes a positive real. -/
theorem eps_real : ∃ e : ℝ, 0 < e ∧ Cert.LossSpec.eps = (e : EReal) := by
  refine ⟨11258999 * (2 : ℝ) ^ (-50 : ℤ), by positivity, ?_⟩
  simp [Cert.LossSpec.eps, Ideal.ofBits, Ideal.ieee, -EReal.coe_mul]

/-- A finite sum of reals, taken in the extended reals, is the real sum. -/
theorem sum_coe {ι : Type} (s : Finset ι) (g : ι → ℝ) :
    (∑ k ∈ s, ((g k : ℝ) : EReal)) = ((∑ k ∈ s, g k : ℝ) : EReal) := by
  classical
  refine Finset.induction_on s ?_ ?_
  · simp
  · intro a s ha ih
    rw [Finset.sum_insert ha, Finset.sum_insert ha, ih, EReal.coe_add]

/-- Stacking two arrays of reals gives an array of reals. -/
theorem stack_real (a b : Cert.LossSpec.Half.Idx → EReal) (ha : ∀ i, ∃ x : ℝ, a i = (x : EReal))
    (hb : ∀ i, ∃ x : ℝ, b i = (x : EReal)) : ∀ i, ∃ x : ℝ, Cert.LossSpec.stack a b i = (x : EReal) := by
  intro i
  unfold Cert.LossSpec.stack
  split
  · exact ha _
  · exact hb _

/-- Each row of reals divided by `max ‖row‖ ε` is a row of reals. -/
theorem znOf_real (z : Cert.LossSpec.Rows.Idx → EReal) (hz : ∀ i, ∃ x : ℝ, z i = (x : EReal)) :
    ∀ i, ∃ x : ℝ, Cert.LossSpec.znOf z i = (x : EReal) := by
  choose g hg using hz
  obtain ⟨e, he, hE⟩ := eps_real
  intro i
  -- the row's sum of squares is a nonnegative real
  have hns : Cert.LossSpec.normSq z (i 0)
      = ((∑ k : Fin 256, g (ix2 (i 0) k) * g (ix2 (i 0) k) : ℝ) : EReal) := by
    unfold Cert.LossSpec.normSq
    rw [zero_real]
    simp only [hg, ← EReal.coe_mul]
    rw [sum_coe, ← EReal.coe_add, zero_add]
  have hs : 0 ≤ ∑ k : Fin 256, g (ix2 (i 0) k) * g (ix2 (i 0) k) :=
    Finset.sum_nonneg (fun k _ => mul_self_nonneg _)
  -- the maximum of its root with ε is a positive real
  have hmax : ∃ d : ℝ, 0 < d ∧ max (Ideal.sqrt (Cert.LossSpec.normSq z (i 0))) Cert.LossSpec.eps = (d : EReal) := by
    rw [hns, Ideal.sqrt_coe, if_neg (not_lt.2 hs), hE]
    rcases le_total (Real.sqrt (∑ k : Fin 256, g (ix2 (i 0) k) * g (ix2 (i 0) k))) e with h | h
    · exact ⟨e, he, max_eq_right (EReal.coe_le_coe_iff.2 h)⟩
    · exact ⟨_, lt_of_lt_of_le he h, max_eq_left (EReal.coe_le_coe_iff.2 h)⟩
  obtain ⟨d, hd, hD⟩ := hmax
  unfold Cert.LossSpec.znOf
  rw [hD, Ideal.div_coe hd.ne', hg i, ← EReal.coe_mul]
  exact ⟨_, rfl⟩

end Cert.RowsFinite

end
-- ==== Proof.InputsFinite.lean ====
/-
  The precondition read back: when the printed predicate "every entry of both argument arrays has absolute value
  below +∞" evaluates to true over the extended reals, every entry of both arrays is a real number.
-/
import proofs.«113197_j52312701666200_2_alg».proof.Pre_finite_inputs
import proofs.«113197_j52312701666200_2_alg».proof.Proof.Gen.Pre_finite_inputs
import Idealize.ShloMosaic.Lib.ReduceAll
import Idealize.ShloMosaic.Lib.ValueIdx
import Idealize.ShloMosaic.PureOps.Ideal

namespace Cert.InputsFinite

open Idealize.ShloMosaic Idealize.ShloMosaic.ValueIdx

/-- The scalar shape has exactly one index. -/
instance : Subsingleton Cert.Pre_finite_inputs.S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value max x (−x) is strictly below +∞ is a real number. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

theorem inputs_real [Cert.Pre_finite_inputs.Facts]
    (a b : FVec Ideal Cert.Pre_finite_inputs.S4096x256 .f32)
    (h : Cert.Pre_finite_inputs.fn (F := Ideal) a b = fun _ => 1#1) :
    (∀ i, ∃ x : ℝ, a i = (x : EReal)) ∧ (∀ i, ∃ x : ℝ, b i = (x : EReal)) := by
  have h0 := congrFun h ValueIdx.ix0
  dsimp only [Cert.Pre_finite_inputs.fn] at h0
  obtain ⟨h1, h2⟩ := IntOp.andi_eq_one.1 h0
  -- one entry's comparison |v i| < +∞ coming out true makes v i a real
  have key : ∀ (v : FVec Ideal Cert.Pre_finite_inputs.S4096x256 .f32) (i : Cert.Pre_finite_inputs.S4096x256.Idx),
      cmpf .olt (Host.absf v)
        (broadcastInDim Cert.Pre_finite_inputs.S4096x256 ![] Cert.Pre_finite_inputs.Facts.bcast_S_S4096x256
          (constant Cert.Pre_finite_inputs.S_ .f32 0x7F800000#32)) i = 1#1 → ∃ x : ℝ, v i = (x : EReal) := by
    intro v i hi
    -- entry by entry the comparison is that of max (v i) (−v i) with the constant word (the broadcast scalar read at any index)
    have hi' : Ideal.cmp .olt (max (v i) (-(v i))) (Ideal.ofBits .f32 0x7F800000#32) = 1#1 := hi
    rw [inf_word] at hi'
    exact real_of_abs_lt_top (v i) hi'
  exact ⟨fun i => key a i (Host.reduce_andi_all _ _ _ _ _ h1 i),
    fun i => key b i (Host.reduce_andi_all _ _ _ _ _ h2 i)⟩

end Cert.InputsFinite
-- ==== Proof.ReferenceSide.lean ====
/-
  The reference program's half of the certificate.

  The reference is a straight line of host operations, so its run is known whole: it terminates, leaves its two
  argument arrays as they were, and ends with its result at the composed term of the arguments. Read index by
  index that term is the loss in the all-at-once arrangement, over the normalised rows of the stacked arguments.
  When every entry of the two arguments is a real number — which is what the precondition says — so is every
  entry of the stacked and of the normalised rows, and then the all-at-once arrangement and the tile-by-tile one
  are the same number. So the reference's run can be stated with the tile-by-tile loss, the term the kernel
  program's run ends with, and the two runs meet at one value.
-/
import proofs.«113197_j52312701666200_2_alg».proof.Defs
import proofs.«113197_j52312701666200_2_alg».proof.Proof.Gen.ReferenceIdeal
import proofs.«113197_j52312701666200_2_alg».proof.Proof.Gen.KernelIdeal
import proofs.«113197_j52312701666200_2_alg».proof.Proof.Gen.Pre_finite_inputs
import proofs.«113197_j52312701666200_2_alg».proof.Proof.Gen.ReferenceIdeal.Read
import proofs.«113197_j52312701666200_2_alg».proof.Proof.ReferenceValue
import proofs.«113197_j52312701666200_2_alg».proof.Proof.LossAlgebra
import proofs.«113197_j52312701666200_2_alg».proof.Proof.RowsFinite
import proofs.«113197_j52312701666200_2_alg».proof.Proof.InputsFinite

noncomputable section

namespace Cert.ReferenceSide

open Idealize.ShloMosaic Idealize.ShloMosaic.TcCoe Idealize.SL.Sem

/-- The reference program's memory and the kernel program's, at the ideal instance. -/
abbrev MemR : Type := (ℓ : Loc Cert.ReferenceIdeal.nD Cert.ReferenceIdeal.τ Cert.ReferenceIdeal.sig) → Buf (Elt Ideal) ℓ
abbrev MemK : Type := (ℓ : Loc Cert.KernelIdeal.nD Cert.KernelIdeal.τ Cert.KernelIdeal.sig) → Buf (Elt Ideal) ℓ

/-- Every entry of an array is a real number. -/
abbrev AllReal {ι : Type} (a : ι → EReal) : Prop := ∀ i, ∃ x : ℝ, a i = (x : EReal)

/-- The reference runs and leaves its argument arrays as they were: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Finite inputs are arrays of reals, on every device. -/
theorem fin_of_pre_kernel [hP : Cert.Pre_finite_inputs.Facts] (m : MemK) (h : Cert.Pre_KernelIdeal m) :
    ∀ c : Dev Cert.KernelIdeal.nD,
      (∀ i, ∃ x : ℝ, m ((c.tc : Thread Cert.KernelIdeal.nD Cert.KernelIdeal.τ).loc Cert.KernelIdeal.main_arg0) i = (x : EReal))
      ∧ (∀ i, ∃ x : ℝ, m ((c.tc : Thread Cert.KernelIdeal.nD Cert.KernelIdeal.τ).loc Cert.KernelIdeal.main_arg1) i = (x : EReal)) :=
  fun c => Cert.InputsFinite.inputs_real _ _ (h c)

/-- From arguments that are arrays of reals the reference ends with the loss in its tile-by-tile arrangement: its
    own all-at-once arrangement is the same number once the normalised rows are reals. -/
theorem reference_run (m' : MemR) (g' : Dev Cert.ReferenceIdeal.nD → PrngReg)
    (hfin : ∀ c : Dev Cert.ReferenceIdeal.nD,
      (∀ i, ∃ x : ℝ, m' ((c.tc : Thread Cert.ReferenceIdeal.nD Cert.ReferenceIdeal.τ).loc Cert.ReferenceIdeal.main_arg0) i = (x : EReal))
      ∧ (∀ i, ∃ x : ℝ, m' ((c.tc : Thread Cert.ReferenceIdeal.nD Cert.ReferenceIdeal.τ).loc Cert.ReferenceIdeal.main_arg1) i = (x : EReal))) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v29)
          = (fun _ => Cert.LossSpec.resultK (Cert.LossSpec.znOf (Cert.LossSpec.stack
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1)))))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) := by
  refine (θ_run Cert.ReferenceIdeal.defs _ _).mono (fun _ h c => ⟨(h c).1.trans ?_, (h c).2⟩)
    (Cert.ReferenceIdeal.Value.run (F := Ideal) m' g')
  rw [Cert.ReferenceIdeal.Read.val_main_v29_eq]
  funext i
  rw [Cert.ReferenceValue.result_eq]
  exact (Cert.LossAlgebra.resultK_eq_resultR _
    (Cert.RowsFinite.znOf_real _ (Cert.RowsFinite.stack_real _ _ (hfin c).1 (hfin c).2))).symm

/-- The same from the kernel program's memory: when that memory's arguments are finite and the reference's memory
    agrees with it on the arguments, the reference ends with the tile-by-tile loss of the KERNEL program's arguments. -/
theorem reference_run_agree [hP : Cert.Pre_finite_inputs.Facts] (m : MemK) (m' : MemR) (g' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v29)
          = (fun _ => Cert.LossSpec.resultK (Cert.LossSpec.znOf (Cert.LossSpec.stack
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1)))))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) := by
  have hfin : ∀ c : Dev Cert.ReferenceIdeal.nD,
      (∀ i, ∃ x : ℝ, m' ((c.tc : Thread Cert.ReferenceIdeal.nD Cert.ReferenceIdeal.τ).loc Cert.ReferenceIdeal.main_arg0) i = (x : EReal))
      ∧ (∀ i, ∃ x : ℝ, m' ((c.tc : Thread Cert.ReferenceIdeal.nD Cert.ReferenceIdeal.τ).loc Cert.ReferenceIdeal.main_arg1) i = (x : EReal)) :=
    fun c => by
      rw [(hagree c).1, (hagree c).2]
      exact fin_of_pre_kernel m hpre c
  refine (θ_run Cert.ReferenceIdeal.defs _ _).mono (fun _ h c => ⟨(h c).1.trans ?_, (h c).2⟩)
    (reference_run m' g' hfin)
  rw [(hagree c).1, (hagree c).2]

end Cert.ReferenceSide

end
-- ==== Proof.lean ====
/-
  The certificate: a kernel that computes the NT-Xent contrastive loss tile by tile, against the same loss written
  in plain array operations.

  Both programs stack the two argument arrays (8192 rows of 256) and divide each row by the larger of its norm and a
  small floor. Write s(r, c) for the inner product of the normalised rows r and c. Row r's denominator d(r) is the
  sum over the other rows c ≠ r of exp (s(r, c) / ½), its positive pair p(r) is s(r, r ± 4096), and the loss is the
  mean over the rows of log d(r) − p(r) / ½.

  The reference forms the whole 8192 × 8192 matrix of similarities, reads the positive pairs off the two diagonals
  4096 away from the main one, sums each row of exponentials with the main diagonal struck out, and averages
  −log (exp (p / ½) / d). The kernel program's one region walks an 8 × 8 grid of tiles of 1024 rows against 1024
  columns: for each row tile it accumulates, column tile by column tile, the row sums of exp (2 · s) with the own-row
  entry struck out in the tile that meets the diagonal, and writes the accumulated column back after the last column
  tile; the host lines after the region take p as the inner product of a row's copies in the two halves and average
  log d − p / ½.

  The laws that join the two arrangements:
  (1) the scalings: x · 2 = x / ½ on every extended real;
  (2) the denominators: a sum over 8192 columns is the sum of its eight tile sums, by commutativity and associativity
      of addition alone;
  (3) the positive pairs: the two diagonals read the same inner product as the product of the two halves, up to the
      order of the factors;
  (4) the row loss: log d − p / ½ = −log (exp (p / ½) / d) needs p a real and d a positive real. This is the one place
      where the precondition is used: finite inputs make every entry of the normalised rows a real number, hence
      every similarity, and every denominator is then a sum of nonnegative reals in which the term of the row 4096
      away is positive.
  The frames use no precondition.

  Below, the five conjuncts are assembled from the modules imported above: the kernel program's run (its launch, the body's run
  at each grid point, the value the region leaves, the host lines around it), the reference's run read index by
  index, and the law between the two arrangements. The idealization's ledger is empty, so what it preserves is
  nothing to prove.
-/
import proofs.«113197_j52312701666200_2_alg».proof.Defs
import proofs.«113197_j52312701666200_2_alg».proof.Proof.Gen.Kernel
import proofs.«113197_j52312701666200_2_alg».proof.Proof.Gen.Kernel.Skeleton
import proofs.«113197_j52312701666200_2_alg».proof.Proof.Gen.Kernel.Launch
import proofs.«113197_j52312701666200_2_alg».proof.Proof.Gen.Kernel.Points
import proofs.«113197_j52312701666200_2_alg».proof.Proof.Gen.KernelIdeal
import proofs.«113197_j52312701666200_2_alg».proof.Proof.Gen.KernelIdeal.Skeleton
import proofs.«113197_j52312701666200_2_alg».proof.Proof.Gen.KernelIdeal.Launch
import proofs.«113197_j52312701666200_2_alg».proof.Proof.Gen.KernelIdeal.Points
import proofs.«113197_j52312701666200_2_alg».proof.Proof.Gen.ReferenceIdeal
import proofs.«113197_j52312701666200_2_alg».proof.Proof.Gen.ReferenceIdeal.Run
import proofs.«113197_j52312701666200_2_alg».proof.Proof.Gen.ReferenceIdeal.Read
import proofs.«113197_j52312701666200_2_alg».proof.Proof.Gen.Pre_finite_inputs
import proofs.«113197_j52312701666200_2_alg».proof.Proof.K.Frame
import proofs.«113197_j52312701666200_2_alg».proof.Proof.KI.Frame
import proofs.«113197_j52312701666200_2_alg».proof.Proof.KI.KernelValue
import proofs.«113197_j52312701666200_2_alg».proof.Proof.ReferenceSide
import Idealize.ShloMosaic.Adequacy
import Idealize.ShloMosaic.Init

noncomputable section

namespace Cert.Proof

open Idealize.ShloMosaic Idealize.SL.Sem

/-- The kernel program as printed, at the word-level instance, runs and leaves its arguments unchanged. -/
theorem frame_Kernel : Cert.frame_Kernel := fun m ρ _ => Cert.Kernel.Hand.frame_any (F := Bits) m ρ

/-- The same program read at the ideal instance. -/
theorem frame_KernelIdeal : Cert.frame_KernelIdeal := fun m ρ _ => Cert.KernelIdeal.Hand.frame_any (F := Ideal) m ρ

/-- From memories that agree on the arguments, with finite arguments, both idealized programs end with the
    tile-by-tile loss of the normalised rows of the stacked arguments. -/
theorem algebraic : Cert.algebraic_KernelIdeal_ReferenceIdeal := fun m ρ m' ρ' hpre hagree =>
  ⟨fun c _ => Cert.LossSpec.resultK (Cert.LossSpec.znOf (Cert.LossSpec.stack
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)))),
    Cert.KernelIdeal.Hand.kernel_run m ρ,
    Cert.ReferenceSide.reference_run_agree m m' ρ' hpre hagree⟩

theorem claim : Cert.Claim :=
  ⟨Cert.Kernel.Gen.facts, Cert.KernelIdeal.Gen.facts, Cert.ReferenceIdeal.Gen.facts, Cert.Pre_finite_inputs.Gen.facts,
    frame_Kernel, frame_KernelIdeal, Cert.ReferenceSide.frame_ri, trivial, algebraic⟩

end Cert.Proof

end
